-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S200000x128 : Shape := ⟨2, ![200000, 128]⟩
abbrev S128 : Shape := ⟨1, ![128]⟩
abbrev S200000x602 : Shape := ⟨2, ![200000, 602]⟩
abbrev S256x602 : Shape := ⟨2, ![256, 602]⟩
abbrev S256 : Shape := ⟨1, ![256]⟩
abbrev S256x512 : Shape := ⟨2, ![256, 512]⟩
abbrev S512 : Shape := ⟨1, ![512]⟩
abbrev S41x512 : Shape := ⟨2, ![41, 512]⟩
abbrev S41 : Shape := ⟨1, ![41]⟩
abbrev S_ : Shape := ⟨0, ![]⟩

class Facts : Prop where
  bcast_S_S200000x602 : S_.BroadcastsInDim S200000x602 (![] : Fin 0 → Fin S200000x602.rank)
  reducesTo_S200000x602_S_d0_1 : S200000x602.ReducesTo [0, 1] S_
  h_S_ : 0 < S_.numel
  bcast_S_S256x602 : S_.BroadcastsInDim S256x602 (![] : Fin 0 → Fin S256x602.rank)
  reducesTo_S256x602_S_d0_1 : S256x602.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S41x512 : S_.BroadcastsInDim S41x512 (![] : Fin 0 → Fin S41x512.rank)
  reducesTo_S41x512_S_d0_1 : S41x512.ReducesTo [0, 1] S_
  bcast_S_S41 : S_.BroadcastsInDim S41 (![] : Fin 0 → Fin S41.rank)
  reducesTo_S41_S_d0 : S41.ReducesTo [0] S_

variable [Facts]

def fn_part4 {F : FTy → Type} [FloatOps F] (main_arg18 : FVec F S512 .f32) (main_arg19 : FVec F S41x512 .f32) (main_arg20 : FVec F S41 .f32) (main_v63 : IVec S_ 1) (main_v67 : IVec S_ 1) : IVec S_ 1 :=
  let main_v68 : IVec S_ 1 := andi main_v63 main_v67
  let main_v69 : FVec F S512 .f32 := Host.absf main_arg18
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S41x512 .f32 := Host.absf main_arg19
  let main_cst_28 : FVec F S_ .f32 := constant S_ .f32 0x7F800000#32
  let main_v75 : FVec F S41x512 .f32 := broadcastInDim S41x512 ![] bcast_S_S41x512 main_cst_28
  let main_v76 : IVec S41x512 1 := cmpf .olt main_v74 main_v75
  let main_c_29 : IVec S_ 1 := constantI S_ 1 1#1
  let main_v77 : IVec S_ 1 := (fun x v => Host.reduce IntOp.andi x v reducesTo_S41x512_S_d0_1 h_S_) main_v76 main_c_29
  let main_v78 : IVec S_ 1 := andi main_v73 main_v77
  let main_v79 : FVec F S41 .f32 := Host.absf main_arg20
  let main_cst_30 : FVec F S_ .f32 := constant S_ .f32 0x7F800000#32
  let main_v80 : FVec F S41 .f32 := broadcastInDim S41 ![] bcast_S_S41 main_cst_30
  let main_v81 : IVec S41 1 := cmpf .olt main_v79 main_v80
  let main_c_31 : IVec S_ 1 := constantI S_ 1 1#1
  let main_v82 : IVec S_ 1 := (fun x v => Host.reduce IntOp.andi x v reducesTo_S41_S_d0 h_S_) main_v81 main_c_31
  let main_v83 : IVec S_ 1 := andi main_v78 main_v82
  main_v83

def fn_part3 {F : FTy → Type} [FloatOps F] (main_arg15 : FVec F S256x512 .f32) (main_arg16 : FVec F S256 .f32) (main_arg17 : FVec F S512 .f32) (main_arg18 : FVec F S512 .f32) (main_arg19 : FVec F S41x512 .f32) (main_arg20 : FVec F S41 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x512 .f32 := Host.absf main_arg15
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S512 .f32 := Host.absf main_arg17
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg18 main_arg19 main_arg20 main_v63 main_v67

def fn_part2 {F : FTy → Type} [FloatOps F] (main_arg11 : FVec F S256x602 .f32) (main_arg12 : FVec F S256 .f32) (main_arg13 : FVec F S256x512 .f32) (main_arg14 : FVec F S256 .f32) (main_arg15 : FVec F S256x512 .f32) (main_arg16 : FVec F S256 .f32) (main_arg17 : FVec F S512 .f32) (main_arg18 : FVec F S512 .f32) (main_arg19 : FVec F S41x512 .f32) (main_arg20 : FVec F S41 .f32) (main_v33 : IVec S_ 1) : IVec S_ 1 :=
  let main_v34 : FVec F S256x602 .f32 := Host.absf main_arg11
  let main_cst_12 : FVec F S_ .f32 := constant S_ .f32 0x7F800000#32
  let main_v35 : FVec F S256x602 .f32 := broadcastInDim S256x602 ![] bcast_S_S256x602 main_cst_12
  let main_v36 : IVec S256x602 1 := cmpf .olt main_v34 main_v35
  let main_c_13 : IVec S_ 1 := constantI S_ 1 1#1
  let main_v37 : IVec S_ 1 := (fun x v => Host.reduce IntOp.andi x v reducesTo_S256x602_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg13
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg15 main_arg16 main_arg17 main_arg18 main_arg19 main_arg20 main_v48 main_v49 main_v50

def fn_part1 {F : FTy → Type} [FloatOps F] (main_arg8 : FVec F S256 .f32) (main_arg9 : FVec F S256x602 .f32) (main_arg10 : FVec F S256 .f32) (main_arg11 : FVec F S256x602 .f32) (main_arg12 : FVec F S256 .f32) (main_arg13 : FVec F S256x512 .f32) (main_arg14 : FVec F S256 .f32) (main_arg15 : FVec F S256x512 .f32) (main_arg16 : FVec F S256 .f32) (main_arg17 : FVec F S512 .f32) (main_arg18 : FVec F S512 .f32) (main_arg19 : FVec F S41x512 .f32) (main_arg20 : FVec F S41 .f32) (main_v13 : IVec S_ 1) (main_v16 : IVec S256x602 1) : IVec S_ 1 :=
  let main_c_5 : IVec S_ 1 := constantI S_ 1 1#1
  let main_v17 : IVec S_ 1 := (fun x v => Host.reduce IntOp.andi x v reducesTo_S256x602_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x602 .f32 := Host.absf main_arg9
  let main_cst_8 : FVec F S_ .f32 := constant S_ .f32 0x7F800000#32
  let main_v25 : FVec F S256x602 .f32 := broadcastInDim S256x602 ![] bcast_S_S256x602 main_cst_8
  let main_v26 : IVec S256x602 1 := cmpf .olt main_v24 main_v25
  let main_c_9 : IVec S_ 1 := constantI S_ 1 1#1
  let main_v27 : IVec S_ 1 := (fun x v => Host.reduce IntOp.andi x v reducesTo_S256x602_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : IVec S1024 32) (main_arg1 : IVec S200000x128 32) (main_arg2 : IVec S128 32) (main_arg3 : IVec S128 32) (main_arg4 : FVec F S200000x602 .f32) (main_arg5 : FVec F S256x602 .f32) (main_arg6 : FVec F S256 .f32) (main_arg7 : FVec F S256x602 .f32) (main_arg8 : FVec F S256 .f32) (main_arg9 : FVec F S256x602 .f32) (main_arg10 : FVec F S256 .f32) (main_arg11 : FVec F S256x602 .f32) (main_arg12 : FVec F S256 .f32) (main_arg13 : FVec F S256x512 .f32) (main_arg14 : FVec F S256 .f32) (main_arg15 : FVec F S256x512 .f32) (main_arg16 : FVec F S256 .f32) (main_arg17 : FVec F S512 .f32) (main_arg18 : FVec F S512 .f32) (main_arg19 : FVec F S41x512 .f32) (main_arg20 : FVec F S41 .f32) : IVec S_ 1 :=
  let main_v0 : FVec F S200000x602 .f32 := Host.absf main_arg4
  let main_cst : FVec F S_ .f32 := constant S_ .f32 0x7F800000#32
  let main_v1 : FVec F S200000x602 .f32 := broadcastInDim S200000x602 ![] bcast_S_S200000x602 main_cst
  let main_v2 : IVec S200000x602 1 := cmpf .olt main_v0 main_v1
  let main_c : IVec S_ 1 := constantI S_ 1 1#1
  let main_v3 : IVec S_ 1 := (fun x v => Host.reduce IntOp.andi x v reducesTo_S200000x602_S_d0_1 h_S_) main_v2 main_c
  let main_v4 : FVec F S256x602 .f32 := Host.absf main_arg5
  let main_cst_0 : FVec F S_ .f32 := constant S_ .f32 0x7F800000#32
  let main_v5 : FVec F S256x602 .f32 := broadcastInDim S256x602 ![] bcast_S_S256x602 main_cst_0
  let main_v6 : IVec S256x602 1 := cmpf .olt main_v4 main_v5
  let main_c_1 : IVec S_ 1 := constantI S_ 1 1#1
  let main_v7 : IVec S_ 1 := (fun x v => Host.reduce IntOp.andi x v reducesTo_S256x602_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x602 .f32 := Host.absf main_arg7
  let main_cst_4 : FVec F S_ .f32 := constant S_ .f32 0x7F800000#32
  let main_v15 : FVec F S256x602 .f32 := broadcastInDim S256x602 ![] bcast_S_S256x602 main_cst_4
  let main_v16 : IVec S256x602 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S1024 : Shape := ⟨1, ![1024]⟩
abbrev S200000x128 : Shape := ⟨2, ![200000, 128]⟩
abbrev S128 : Shape := ⟨1, ![128]⟩
abbrev S200000x602 : Shape := ⟨2, ![200000, 602]⟩
abbrev S256x602 : Shape := ⟨2, ![256, 602]⟩
abbrev S256 : Shape := ⟨1, ![256]⟩
abbrev S256x512 : Shape := ⟨2, ![256, 512]⟩
abbrev S512 : Shape := ⟨1, ![512]⟩
abbrev S41x512 : Shape := ⟨2, ![41, 512]⟩
abbrev S41 : Shape := ⟨1, ![41]⟩
abbrev S_ : Shape := ⟨0, ![]⟩
abbrev S1024x1 : Shape := ⟨2, ![1024, 1]⟩
abbrev S1024x128 : Shape := ⟨2, ![1024, 128]⟩
abbrev S10 : Shape := ⟨1, ![10]⟩
abbrev S10x1 : Shape := ⟨2, ![10, 1]⟩
abbrev S1024x10 : Shape := ⟨2, ![1024, 10]⟩
abbrev S10240 : Shape := ⟨1, ![10240]⟩
abbrev S10240x1 : Shape := ⟨2, ![10240, 1]⟩
abbrev S10240x128 : Shape := ⟨2, ![10240, 128]⟩
abbrev S25 : Shape := ⟨1, ![25]⟩
abbrev S25x1 : Shape := ⟨2, ![25, 1]⟩
abbrev S10240x25 : Shape := ⟨2, ![10240, 25]⟩
abbrev S1024x10x25 : Shape := ⟨3, ![1024, 10, 25]⟩
abbrev S1024x602 : Shape := ⟨2, ![1024, 602]⟩
abbrev S1024x10x1 : Shape := ⟨3, ![1024, 10, 1]⟩
abbrev S1024x10x602 : Shape := ⟨3, ![1024, 10, 602]⟩
abbrev S1024x10x25x1 : Shape := ⟨4, ![1024, 10, 25, 1]⟩
abbrev S1024x10x25x602 : Shape := ⟨4, ![1024, 10, 25, 602]⟩
abbrev S1024x41 : Shape := ⟨2, ![1024, 41]⟩
abbrev S64x602 : Shape := ⟨2, ![64, 602]⟩
abbrev S64x10x602 : Shape := ⟨3, ![64, 10, 602]⟩
abbrev S64x41 : Shape := ⟨2, ![64, 41]⟩
abbrev S640x602 : Shape := ⟨2, ![640, 602]⟩
abbrev S640x256 : Shape := ⟨2, ![640, 256]⟩
abbrev S1x256 : Shape := ⟨2, ![1, 256]⟩
abbrev S640x512 : Shape := ⟨2, ![640, 512]⟩
abbrev S64x256 : Shape := ⟨2, ![64, 256]⟩
abbrev S64x512 : Shape := ⟨2, ![64, 512]⟩
abbrev S64x10x512 : Shape := ⟨3, ![64, 10, 512]⟩
abbrev S64 : Shape := ⟨1, ![64]⟩
abbrev S64x1 : Shape := ⟨2, ![64, 1]⟩
abbrev S1x512 : Shape := ⟨2, ![1, 512]⟩
abbrev S1x41 : Shape := ⟨2, ![1, 41]⟩

abbrev nBuf : Space → Nat
  | .hbm => 94
  | .vmem => 24
  | .smem => 0
  | _ => 0

abbrev bufTy : (tb : Table) → Fin (tcTables nBuf tb) → BufTy
  | .hbm, ⟨0, _⟩ => ⟨S1024, .i32⟩
  | .hbm, ⟨1, _⟩ => ⟨S200000x128, .i32⟩
  | .hbm, ⟨2, _⟩ => ⟨S128, .i32⟩
  | .hbm, ⟨3, _⟩ => ⟨S128, .i32⟩
  | .hbm, ⟨4, _⟩ => ⟨S200000x602, .f32⟩
  | .hbm, ⟨5, _⟩ => ⟨S256x602, .f32⟩
  | .hbm, ⟨6, _⟩ => ⟨S256, .f32⟩
  | .hbm, ⟨7, _⟩ => ⟨S256x602, .f32⟩
  | .hbm, ⟨8, _⟩ => ⟨S256, .f32⟩
  | .hbm, ⟨9, _⟩ => ⟨S256x602, .f32⟩
  | .hbm, ⟨10, _⟩ => ⟨S256, .f32⟩
  | .hbm, ⟨11, _⟩ => ⟨S256x602, .f32⟩
  | .hbm, ⟨12, _⟩ => ⟨S256, .f32⟩
  | .hbm, ⟨13, _⟩ => ⟨S256x512, .f32⟩
  | .hbm, ⟨14, _⟩ => ⟨S256, .f32⟩
  | .hbm, ⟨15, _⟩ => ⟨S256x512, .f32⟩
  | .hbm, ⟨16, _⟩ => ⟨S256, .f32⟩
  | .hbm, ⟨17, _⟩ => ⟨S512, .f32⟩
  | .hbm, ⟨18, _⟩ => ⟨S512, .f32⟩
  | .hbm, ⟨19, _⟩ => ⟨S41x512, .f32⟩
  | .hbm, ⟨20, _⟩ => ⟨S41, .f32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x128, .i32⟩
  | .hbm, ⟨30, _⟩ => ⟨S10, .i32⟩
  | .hbm, ⟨31, _⟩ => ⟨S_, .i32⟩
  | .hbm, ⟨32, _⟩ => ⟨S10, .i32⟩
  | .hbm, ⟨33, _⟩ => ⟨S10, .i1⟩
  | .hbm, ⟨34, _⟩ => ⟨S_, .i32⟩
  | .hbm, ⟨35, _⟩ => ⟨S10, .i32⟩
  | .hbm, ⟨36, _⟩ => ⟨S10, .i32⟩
  | .hbm, ⟨37, _⟩ => ⟨S10, .i32⟩
  | .hbm, ⟨38, _⟩ => ⟨S10x1, .i32⟩
  | .hbm, ⟨39, _⟩ => ⟨S1024x10, .i32⟩
  | .hbm, ⟨40, _⟩ => ⟨S10240, .i32⟩
  | .hbm, ⟨41, _⟩ => ⟨S_, .i32⟩
  | .hbm, ⟨42, _⟩ => ⟨S10240, .i32⟩
  | .hbm, ⟨43, _⟩ => ⟨S10240, .i1⟩
  | .hbm, ⟨44, _⟩ => ⟨S_, .i32⟩
  | .hbm, ⟨45, _⟩ => ⟨S10240, .i32⟩
  | .hbm, ⟨46, _⟩ => ⟨S10240, .i32⟩
  | .hbm, ⟨47, _⟩ => ⟨S10240, .i32⟩
  | .hbm, ⟨48, _⟩ => ⟨S10240x1, .i32⟩
  | .hbm, ⟨49, _⟩ => ⟨S10240x128, .i32⟩
  | .hbm, ⟨50, _⟩ => ⟨S25, .i32⟩
  | .hbm, ⟨51, _⟩ => ⟨S_, .i32⟩
  | .hbm, ⟨52, _⟩ => ⟨S25, .i32⟩
  | .hbm, ⟨53, _⟩ => ⟨S25, .i1⟩
  | .hbm, ⟨54, _⟩ => ⟨S_, .i32⟩
  | .hbm, ⟨55, _⟩ => ⟨S25, .i32⟩
  | .hbm, ⟨56, _⟩ => ⟨S25, .i32⟩
  | .hbm, ⟨57, _⟩ => ⟨S25, .i32⟩
  | .hbm, ⟨58, _⟩ => ⟨S25x1, .i32⟩
  | .hbm, ⟨59, _⟩ => ⟨S10240x25, .i32⟩
  | .hbm, ⟨60, _⟩ => ⟨S1024x10x25, .i32⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S1024x1, .i32⟩
  | .hbm, ⟨69, _⟩ => ⟨S1024x602, .f32⟩
  | .hbm, ⟨70, _⟩ => ⟨S_, .i32⟩
  | .hbm, ⟨71, _⟩ => ⟨S1024x10, .i32⟩
  | .hbm, ⟨72, _⟩ => ⟨S1024x10, .i1⟩
  | .hbm, ⟨73, _⟩ => ⟨S_, .i32⟩
  | .hbm, ⟨74, _⟩ => ⟨S1024x10, .i32⟩
  | .hbm, ⟨75, _⟩ => ⟨S1024x10, .i32⟩
  | .hbm, ⟨76, _⟩ => ⟨S1024x10, .i32⟩
  | .hbm, ⟨77, _⟩ => ⟨S1024x10x1, .i32⟩
  | .hbm, ⟨78, _⟩ => ⟨S1024x10x602, .f32⟩
  | .hbm, ⟨79, _⟩ => ⟨S_, .i32⟩
  | .hbm, ⟨80, _⟩ => ⟨S1024x10x25, .i32⟩
  | .hbm, ⟨81, _⟩ => ⟨S1024x10x25, .i1⟩
  | .hbm, ⟨82, _⟩ => ⟨S_, .i32⟩
  | .hbm, ⟨83, _⟩ => ⟨S1024x10x25, .i32⟩
  | .hbm, ⟨84, _⟩ => ⟨S1024x10x25, .i32⟩
  | .hbm, ⟨85, _⟩ => ⟨S1024x10x25, .i32⟩
  | .hbm, ⟨86, _⟩ => ⟨S1024x10x25x1, .i32⟩
  | .hbm, ⟨87, _⟩ => ⟨S1024x10x25x602, .f32⟩
  | .hbm, ⟨88, _⟩ => ⟨S_, .f32⟩
  | .hbm, ⟨89, _⟩ => ⟨S1024x10x602, .f32⟩
  | .hbm, ⟨90, _⟩ => ⟨S_, .f32⟩
  | .hbm, ⟨91, _⟩ => ⟨S1024x10x602, .f32⟩
  | .hbm, ⟨92, _⟩ => ⟨S1024x10x602, .f32⟩
  | .hbm, ⟨93, _⟩ => ⟨S1024x41, .f32⟩
  | .local _ .vmem, ⟨0, _⟩ => ⟨S64x602, .f32⟩
  | .local _ .vmem, ⟨1, _⟩ => ⟨S64x602, .f32⟩
  | .local _ .vmem, ⟨2, _⟩ => ⟨S64x10x602, .f32⟩
  | .local _ .vmem, ⟨3, _⟩ => ⟨S64x10x602, .f32⟩
  | .local _ .vmem, ⟨4, _⟩ => ⟨S64x10x602, .f32⟩
  | .local _ .vmem, ⟨5, _⟩ => ⟨S64x10x602, .f32⟩
  | .local _ .vmem, ⟨6, _⟩ => ⟨S256x602, .f32⟩
  | .local _ .vmem, ⟨7, _⟩ => ⟨S256, .f32⟩
  | .local _ .vmem, ⟨8, _⟩ => ⟨S256x602, .f32⟩
  | .local _ .vmem, ⟨9, _⟩ => ⟨S256, .f32⟩
  | .local _ .vmem, ⟨10, _⟩ => ⟨S256x602, .f32⟩
  | .local _ .vmem, ⟨11, _⟩ => ⟨S256, .f32⟩
  | .local _ .vmem, ⟨12, _⟩ => ⟨S256x602, .f32⟩
  | .local _ .vmem, ⟨13, _⟩ => ⟨S256, .f32⟩
  | .local _ .vmem, ⟨14, _⟩ => ⟨S256x512, .f32⟩
  | .local _ .vmem, ⟨15, _⟩ => ⟨S256, .f32⟩
  | .local _ .vmem, ⟨16, _⟩ => ⟨S256x512, .f32⟩
  | .local _ .vmem, ⟨17, _⟩ => ⟨S256, .f32⟩
  | .local _ .vmem, ⟨18, _⟩ => ⟨S512, .f32⟩
  | .local _ .vmem, ⟨19, _⟩ => ⟨S512, .f32⟩
  | .local _ .vmem, ⟨20, _⟩ => ⟨S41x512, .f32⟩
  | .local _ .vmem, ⟨21, _⟩ => ⟨S41, .f32⟩
  | .local _ .vmem, ⟨22, _⟩ => ⟨S64x41, .f32⟩
  | .local _ .vmem, ⟨23, _⟩ => ⟨S64x41, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_3 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_c_6 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_v32 : Ref sig .tc := ⟨.hbm, 62, rfl⟩
abbrev main_v33 : Ref sig .tc := ⟨.hbm, 63, rfl⟩
abbrev main_c_8 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_9 : Ref sig .tc := ⟨.hbm, 70, rfl⟩
abbrev main_v39 : Ref sig .tc := ⟨.hbm, 71, rfl⟩
abbrev main_v40 : Ref sig .tc := ⟨.hbm, 72, rfl⟩
abbrev main_c_10 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_11 : Ref sig .tc := ⟨.hbm, 79, rfl⟩
abbrev main_v46 : Ref sig .tc := ⟨.hbm, 80, rfl⟩
abbrev main_v47 : Ref sig .tc := ⟨.hbm, 81, rfl⟩
abbrev main_c_12 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst : Ref sig .tc := ⟨.hbm, 88, rfl⟩
abbrev main_v53 : Ref sig .tc := ⟨.hbm, 89, rfl⟩
abbrev main_cst_13 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x602 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x10x602 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x10x602 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x602 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x602 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x602 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x602 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S41x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S41 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S64x41 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  slices_S128_S10_0 : S128.Slices ![0] S10
  bcast_S_S10 : S_.BroadcastsInDim S10 (![] : Fin 0 → Fin S10.rank)
  bcast_S10_S10x1_0 : S10.BroadcastsInDim S10x1 (![0] : Fin 1 → Fin S10x1.rank)
  shapeCasts_S1024x10_S10240 : S1024x10.ShapeCasts S10240
  bcast_S_S10240 : S_.BroadcastsInDim S10240 (![] : Fin 0 → Fin S10240.rank)
  bcast_S10240_S10240x1_0 : S10240.BroadcastsInDim S10240x1 (![0] : Fin 1 → Fin S10240x1.rank)
  slices_S128_S25_0 : S128.Slices ![0] S25
  bcast_S_S25 : S_.BroadcastsInDim S25 (![] : Fin 0 → Fin S25.rank)
  bcast_S25_S25x1_0 : S25.BroadcastsInDim S25x1 (![0] : Fin 1 → Fin S25x1.rank)
  shapeCasts_S10240x25_S1024x10x25 : S10240x25.ShapeCasts S1024x10x25
  bcast_S_S1024x10 : S_.BroadcastsInDim S1024x10 (![] : Fin 0 → Fin S1024x10.rank)
  bcast_S1024x10_S1024x10x1_0_1 : S1024x10.BroadcastsInDim S1024x10x1 (![0, 1] : Fin 2 → Fin S1024x10x1.rank)
  bcast_S_S1024x10x25 : S_.BroadcastsInDim S1024x10x25 (![] : Fin 0 → Fin S1024x10x25.rank)
  bcast_S1024x10x25_S1024x10x25x1_0_1_2 : S1024x10x25.BroadcastsInDim S1024x10x25x1 (![0, 1, 2] : Fin 3 → Fin S1024x10x25x1.rank)
  reducesTo_S1024x10x25x602_S1024x10x602_d2 : S1024x10x25x602.ReducesTo [2] S1024x10x602
  h_S_ : 0 < S_.numel
  bcast_S_S1024x10x602 : S_.BroadcastsInDim S1024x10x602 (![] : Fin 0 → Fin S1024x10x602.rank)
  inb_S64x602_S64x602_0_0 : ∀ a, (![0, 0] : Fin 2 → Nat) a + S64x602.size a ≤ S64x602.size a
  h_S64x602 : 0 < S64x602.numel
  shapeCasts_S64x602_S64x602 : S64x602.ShapeCasts S64x602
  inb_S64x10x602_S64x10x602_0_0_0 : ∀ a, (![0, 0, 0] : Fin 3 → Nat) a + S64x10x602.size a ≤ S64x10x602.size a
  h_S64x10x602 : 0 < S64x10x602.numel
  shapeCasts_S64x10x602_S64x10x602 : S64x10x602.ShapeCasts S64x10x602
  shapeCasts_S64x10x602_S640x602 : S64x10x602.ShapeCasts S640x602
  bitsLt_bf16_f32 : FTy.bits .bf16 < FTy.bits .f32
  inb_S256x602_S256x602_0_0 : ∀ a, (![0, 0] : Fin 2 → Nat) a + S256x602.size a ≤ S256x602.size a
  h_S256x602 : 0 < S256x602.numel
  inb_S256_S256_0 : ∀ a, (![0] : Fin 1 → Nat) a + S256.size a ≤ S256.size a
  h_S256 : 0 < S256.numel
  shapeCasts_S256_S1x256 : S256.ShapeCasts S1x256
  broadcasts_S1x256_S640x256 : S1x256.Broadcasts S640x256
  concatenates_S640x256_S640x256_S640x512_d1 : Shape.Concatenates [S640x256, S640x256] S640x512 1
  reduces_S64x10x602_S64x602 : S64x10x602.Reduces [1] S64x602
  broadcasts_S1x256_S64x256 : S1x256.Broadcasts S64x256
  concatenates_S64x256_S64x256_S64x512_d1 : Shape.Concatenates [S64x256, S64x256] S64x512 1
  shapeCasts_S640x512_S64x10x512 : S640x512.ShapeCasts S64x10x512
  reduces_S64x10x512_S64x512 : S64x10x512.Reduces [1] S64x512
  inb_S256x512_S256x512_0_0 : ∀ a, (![0, 0] : Fin 2 → Nat) a + S256x512.size a ≤ S256x512.size a
  h_S256x512 : 0 < S256x512.numel
  reduces_S64x512_S64 : S64x512.Reduces [1] S64
  shapeCasts_S64_S64x1 : S64.ShapeCasts S64x1
  broadcasts_S64x1_S64x512 : S64x1.Broadcasts S64x512
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S41x512_S41x512_0_0 : ∀ a, (![0, 0] : Fin 2 → Nat) a + S41x512.size a ≤ S41x512.size a
  h_S41x512 : 0 < S41x512.numel
  inb_S41_S41_0 : ∀ a, (![0] : Fin 1 → Nat) a + S41.size a ≤ S41.size a
  h_S41 : 0 < S41.numel
  shapeCasts_S41_S1x41 : S41.ShapeCasts S1x41
  broadcasts_S1x41_S64x41 : S1x41.Broadcasts S64x41
  inb_S64x41_S64x41_0_0 : ∀ a, (![0, 0] : Fin 2 → Nat) a + S64x41.size a ≤ S64x41.size a
  h_S64x41 : 0 < S64x41.numel
  gather_S200000x128_S1024x1_S1024x128_1_0_n_n_0_1_1128_wf : GatherDims.WF S200000x128 S1024x1 S1024x128 [1] [0] [] [0] [] 1 ![1, 128]
  gather_S1024x128_S10x1_S1024x10_0_1_n_n_1_1_10241_wf : GatherDims.WF S1024x128 S10x1 S1024x10 [0] [1] [] [1] [] 1 ![1024, 1]
  gather_S200000x128_S10240x1_S10240x128_1_0_n_n_0_1_1128_wf : GatherDims.WF S200000x128 S10240x1 S10240x128 [1] [0] [] [0] [] 1 ![1, 128]
  gather_S10240x128_S25x1_S10240x25_0_1_n_n_1_1_102401_wf : GatherDims.WF S10240x128 S25x1 S10240x25 [0] [1] [] [1] [] 1 ![10240, 1]
  gather_S200000x602_S1024x1_S1024x602_1_0_n_n_0_1_1602_wf : GatherDims.WF S200000x602 S1024x1 S1024x602 [1] [0] [] [0] [] 1 ![1, 602]
  gather_S200000x602_S1024x10x1_S1024x10x602_2_0_n_n_0_2_1602_wf : GatherDims.WF S200000x602 S1024x10x1 S1024x10x602 [2] [0] [] [0] [] 2 ![1, 602]
  gather_S200000x602_S1024x10x25x1_S1024x10x25x602_3_0_n_n_0_3_1602_wf : GatherDims.WF S200000x602 S1024x10x25x1 S1024x10x25x602 [3] [0] [] [0] [] 3 ![1, 602]
  dot_S640x602_S256x602_S640x256_1_1_0_0_n_n_wf : DotDims.WF S640x602 S256x602 S640x256 [1] [1] [0] [0] [] []
  dot_S64x602_S256x602_S64x256_1_1_0_0_n_n_wf : DotDims.WF S64x602 S256x602 S64x256 [1] [1] [0] [0] [] []
  dot_S64x512_S256x512_S64x256_1_1_0_0_n_n_wf : DotDims.WF S64x512 S256x512 S64x256 [1] [1] [0] [0] [] []
  dot_S64x512_S41x512_S64x41_1_1_0_0_n_n_wf : DotDims.WF S64x512 S41x512 S64x41 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x602.size a ≤ S1024x602.size a
  hwx0_0 : ∀ i : grid0.Coords, EltTy.bits .f32 = 32 ∨ (Rect.block (s := S1024x602) S64x602.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x10x602.size a ≤ S1024x10x602.size a
  hwx0_1 : ∀ i : grid0.Coords, EltTy.bits .f32 = 32 ∨ (Rect.block (s := S1024x10x602) S64x10x602.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x10x602.size a ≤ S1024x10x602.size a
  hwx0_2 : ∀ i : grid0.Coords, EltTy.bits .f32 = 32 ∨ (Rect.block (s := S1024x10x602) S64x10x602.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x602.size a ≤ S256x602.size a
  hwx0_3 : ∀ i : grid0.Coords, EltTy.bits .f32 = 32 ∨ (Rect.block (s := S256x602) S256x602.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x602.size a ≤ S256x602.size a
  hwx0_5 : ∀ i : grid0.Coords, EltTy.bits .f32 = 32 ∨ (Rect.block (s := S256x602) S256x602.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x602.size a ≤ S256x602.size a
  hwx0_7 : ∀ i : grid0.Coords, EltTy.bits .f32 = 32 ∨ (Rect.block (s := S256x602) S256x602.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x602.size a ≤ S256x602.size a
  hwx0_9 : ∀ i : grid0.Coords, EltTy.bits .f32 = 32 ∨ (Rect.block (s := S256x602) S256x602.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S256x512.size a
  hwx0_11 : ∀ i : grid0.Coords, EltTy.bits .f32 = 32 ∨ (Rect.block (s := S256x512) S256x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x512.size a ≤ S256x512.size a
  hwx0_13 : ∀ i : grid0.Coords, EltTy.bits .f32 = 32 ∨ (Rect.block (s := S256x512) S256x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S512.size a
  hwx0_16 : ∀ i : grid0.Coords, EltTy.bits .f32 = 32 ∨ (Rect.block (s := S512) S512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S41x512.size a ≤ S41x512.size a
  hwx0_17 : ∀ i : grid0.Coords, EltTy.bits .f32 = 32 ∨ (Rect.block (s := S41x512) S41x512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S41.size a ≤ S41.size a
  hwx0_18 : ∀ i : grid0.Coords, EltTy.bits .f32 = 32 ∨ (Rect.block (s := S41) S41.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S64x41.size a ≤ S1024x41.size a
  hwx0_19 : ∀ i : grid0.Coords, EltTy.bits .f32 = 32 ∨ (Rect.block (s := S1024x41) S64x41.size (cc0_transform_19 i) (hinb0_19 i)).WholeWords (EltTy.packing .f32)

variable [Facts₀]

def gather_S200000x128_S1024x1_S1024x128_1_0_n_n_0_1_1128 : GatherDims S200000x128 S1024x1 S1024x128 where
  offsetDims := [1]
  collapsedSliceDims := [0]
  operandBatchingDims := []
  startIndicesBatchingDims := []
  startIndexMap := [0]
  indexVectorDim := 1
  sliceSizes := ![1, 128]
  wf := gather_S200000x128_S1024x1_S1024x128_1_0_n_n_0_1_1128_wf
def gather_S1024x128_S10x1_S1024x10_0_1_n_n_1_1_10241 : GatherDims S1024x128 S10x1 S1024x10 where
  offsetDims := [0]
  collapsedSliceDims := [1]
  operandBatchingDims := []
  startIndicesBatchingDims := []
  startIndexMap := [1]
  indexVectorDim := 1
  sliceSizes := ![1024, 1]
  wf := gather_S1024x128_S10x1_S1024x10_0_1_n_n_1_1_10241_wf
def gather_S200000x128_S10240x1_S10240x128_1_0_n_n_0_1_1128 : GatherDims S200000x128 S10240x1 S10240x128 where
  offsetDims := [1]
  collapsedSliceDims := [0]
  operandBatchingDims := []
  startIndicesBatchingDims := []
  startIndexMap := [0]
  indexVectorDim := 1
  sliceSizes := ![1, 128]
  wf := gather_S200000x128_S10240x1_S10240x128_1_0_n_n_0_1_1128_wf
def gather_S10240x128_S25x1_S10240x25_0_1_n_n_1_1_102401 : GatherDims S10240x128 S25x1 S10240x25 where
  offsetDims := [0]
  collapsedSliceDims := [1]
  operandBatchingDims := []
  startIndicesBatchingDims := []
  startIndexMap := [1]
  indexVectorDim := 1
  sliceSizes := ![10240, 1]
  wf := gather_S10240x128_S25x1_S10240x25_0_1_n_n_1_1_102401_wf
def gather_S200000x602_S1024x1_S1024x602_1_0_n_n_0_1_1602 : GatherDims S200000x602 S1024x1 S1024x602 where
  offsetDims := [1]
  collapsedSliceDims := [0]
  operandBatchingDims := []
  startIndicesBatchingDims := []
  startIndexMap := [0]
  indexVectorDim := 1
  sliceSizes := ![1, 602]
  wf := gather_S200000x602_S1024x1_S1024x602_1_0_n_n_0_1_1602_wf
def gather_S200000x602_S1024x10x1_S1024x10x602_2_0_n_n_0_2_1602 : GatherDims S200000x602 S1024x10x1 S1024x10x602 where
  offsetDims := [2]
  collapsedSliceDims := [0]
  operandBatchingDims := []
  startIndicesBatchingDims := []
  startIndexMap := [0]
  indexVectorDim := 2
  sliceSizes := ![1, 602]
  wf := gather_S200000x602_S1024x10x1_S1024x10x602_2_0_n_n_0_2_1602_wf
def gather_S200000x602_S1024x10x25x1_S1024x10x25x602_3_0_n_n_0_3_1602 : GatherDims S200000x602 S1024x10x25x1 S1024x10x25x602 where
  offsetDims := [3]
  collapsedSliceDims := [0]
  operandBatchingDims := []
  startIndicesBatchingDims := []
  startIndexMap := [0]
  indexVectorDim := 3
  sliceSizes := ![1, 602]
  wf := gather_S200000x602_S1024x10x25x1_S1024x10x25x602_3_0_n_n_0_3_1602_wf
def dot_S640x602_S256x602_S640x256_1_1_0_0_n_n : DotDims S640x602 S256x602 S640x256 where
  lhsContracting := [1]
  rhsContracting := [1]
  lhsNonContracting := [0]
  rhsNonContracting := [0]
  lhsBatch := []
  rhsBatch := []
  wf := dot_S640x602_S256x602_S640x256_1_1_0_0_n_n_wf
def dot_S64x602_S256x602_S64x256_1_1_0_0_n_n : DotDims S64x602 S256x602 S64x256 where
  lhsContracting := [1]
  rhsContracting := [1]
  lhsNonContracting := [0]
  rhsNonContracting := [0]
  lhsBatch := []
  rhsBatch := []
  wf := dot_S64x602_S256x602_S64x256_1_1_0_0_n_n_wf
def dot_S64x512_S256x512_S64x256_1_1_0_0_n_n : DotDims S64x512 S256x512 S64x256 where
  lhsContracting := [1]
  rhsContracting := [1]
  lhsNonContracting := [0]
  rhsNonContracting := [0]
  lhsBatch := []
  rhsBatch := []
  wf := dot_S64x512_S256x512_S64x256_1_1_0_0_n_n_wf
def dot_S64x512_S41x512_S64x41_1_1_0_0_n_n : DotDims S64x512 S41x512 S64x41 where
  lhsContracting := [1]
  rhsContracting := [1]
  lhsNonContracting := [0]
  rhsNonContracting := [0]
  lhsBatch := []
  rhsBatch := []
  wf := dot_S64x512_S41x512_S64x41_1_1_0_0_n_n_wf

abbrev win0_0 : Pipeline.Window sig grid0 :=
  Pipeline.Window.ofSpec (Memref.whole main_v38) S64x602.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S64x10x602.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S64x10x602.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x602.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x602.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256x602.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S256x602.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S256x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S256x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg17) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg18) S512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg19) S41x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg20) S41.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v56) S64x41.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S1024 : Shape := ⟨1, ![1024]⟩
abbrev S200000x128 : Shape := ⟨2, ![200000, 128]⟩
abbrev S128 : Shape := ⟨1, ![128]⟩
abbrev S200000x602 : Shape := ⟨2, ![200000, 602]⟩
abbrev S256x602 : Shape := ⟨2, ![256, 602]⟩
abbrev S256 : Shape := ⟨1, ![256]⟩
abbrev S256x512 : Shape := ⟨2, ![256, 512]⟩
abbrev S512 : Shape := ⟨1, ![512]⟩
abbrev S41x512 : Shape := ⟨2, ![41, 512]⟩
abbrev S41 : Shape := ⟨1, ![41]⟩
abbrev S_ : Shape := ⟨0, ![]⟩
abbrev S1024x1 : Shape := ⟨2, ![1024, 1]⟩
abbrev S1024x128 : Shape := ⟨2, ![1024, 128]⟩
abbrev S10 : Shape := ⟨1, ![10]⟩
abbrev S10x1 : Shape := ⟨2, ![10, 1]⟩
abbrev S1024x10 : Shape := ⟨2, ![1024, 10]⟩
abbrev S10240 : Shape := ⟨1, ![10240]⟩
abbrev S10240x1 : Shape := ⟨2, ![10240, 1]⟩
abbrev S10240x128 : Shape := ⟨2, ![10240, 128]⟩
abbrev S25 : Shape := ⟨1, ![25]⟩
abbrev S25x1 : Shape := ⟨2, ![25, 1]⟩
abbrev S10240x25 : Shape := ⟨2, ![10240, 25]⟩
abbrev S1024x10x1 : Shape := ⟨3, ![1024, 10, 1]⟩
abbrev S1024x10x602 : Shape := ⟨3, ![1024, 10, 602]⟩
abbrev S10240x25x1 : Shape := ⟨3, ![10240, 25, 1]⟩
abbrev S10240x25x602 : Shape := ⟨3, ![10240, 25, 602]⟩
abbrev S10240x602 : Shape := ⟨2, ![10240, 602]⟩
abbrev S602x256 : Shape := ⟨2, ![602, 256]⟩
abbrev S10240x256 : Shape := ⟨2, ![10240, 256]⟩
abbrev S1x256 : Shape := ⟨2, ![1, 256]⟩
abbrev S10240x512 : Shape := ⟨2, ![10240, 512]⟩
abbrev S1024x602 : Shape := ⟨2, ![1024, 602]⟩
abbrev S1024x256 : Shape := ⟨2, ![1024, 256]⟩
abbrev S1024x512 : Shape := ⟨2, ![1024, 512]⟩
abbrev S1024x10x512 : Shape := ⟨3, ![1024, 10, 512]⟩
abbrev S512x256 : Shape := ⟨2, ![512, 256]⟩
abbrev S1x512 : Shape := ⟨2, ![1, 512]⟩
abbrev S512x41 : Shape := ⟨2, ![512, 41]⟩
abbrev S1024x41 : Shape := ⟨2, ![1024, 41]⟩
abbrev S1x41 : Shape := ⟨2, ![1, 41]⟩

abbrev nBuf : Space → Nat
  | .hbm => 177
  | .vmem => 0
  | .smem => 0
  | _ => 0

abbrev hbmTy0_0 (i : Nat) : BufTy := match i % 128 with
  | 0 => ⟨S1024, .i32⟩
  | 1 => ⟨S200000x128, .i32⟩
  | 2 => ⟨S128, .i32⟩
  | 3 => ⟨S128, .i32⟩
  | 4 => ⟨S200000x602, .f32⟩
  | 5 => ⟨S256x602, .f32⟩
  | 6 => ⟨S256, .f32⟩
  | 7 => ⟨S256x602, .f32⟩
  | 8 => ⟨S256, .f32⟩
  | 9 => ⟨S256x602, .f32⟩
  | 10 => ⟨S256, .f32⟩
  | 11 => ⟨S256x602, .f32⟩
  | 12 => ⟨S256, .f32⟩
  | 13 => ⟨S256x512, .f32⟩
  | 14 => ⟨S256, .f32⟩
  | 15 => ⟨S256x512, .f32⟩
  | 16 => ⟨S256, .f32⟩
  | 17 => ⟨S512, .f32⟩
  | 18 => ⟨S512, .f32⟩
  | 19 => ⟨S41x512, .f32⟩
  | 20 => ⟨S41, .f32⟩
  | 21 => ⟨S_, .i32⟩
  | 22 => ⟨S1024, .i32⟩
  | 23 => ⟨S1024, .i1⟩
  | 24 => ⟨S_, .i32⟩
  | 25 => ⟨S1024, .i32⟩
  | 26 => ⟨S1024, .i32⟩
  | 27 => ⟨S1024, .i32⟩
  | 28 => ⟨S1024x1, .i32⟩
  | 29 => ⟨S1024x128, .i32⟩
  | 30 => ⟨S10, .i32⟩
  | 31 => ⟨S_, .i32⟩
  | 32 => ⟨S10, .i32⟩
  | 33 => ⟨S10, .i1⟩
  | 34 => ⟨S_, .i32⟩
  | 35 => ⟨S10, .i32⟩
  | 36 => ⟨S10, .i32⟩
  | 37 => ⟨S10, .i32⟩
  | 38 => ⟨S10x1, .i32⟩
  | 39 => ⟨S1024x10, .i32⟩
  | 40 => ⟨S10240, .i32⟩
  | 41 => ⟨S_, .i32⟩
  | 42 => ⟨S10240, .i32⟩
  | 43 => ⟨S10240, .i1⟩
  | 44 => ⟨S_, .i32⟩
  | 45 => ⟨S10240, .i32⟩
  | 46 => ⟨S10240, .i32⟩
  | 47 => ⟨S10240, .i32⟩
  | 48 => ⟨S10240x1, .i32⟩
  | 49 => ⟨S10240x128, .i32⟩
  | 50 => ⟨S25, .i32⟩
  | 51 => ⟨S_, .i32⟩
  | 52 => ⟨S25, .i32⟩
  | 53 => ⟨S25, .i1⟩
  | 54 => ⟨S_, .i32⟩
  | 55 => ⟨S25, .i32⟩
  | 56 => ⟨S25, .i32⟩
  | 57 => ⟨S25, .i32⟩
  | 58 => ⟨S25x1, .i32⟩
  | 59 => ⟨S10240x25, .i32⟩
  | 60 => ⟨S_, .i32⟩
  | 61 => ⟨S1024x10, .i32⟩
  | 62 => ⟨S1024x10, .i1⟩
  | 63 => ⟨S_, .i32⟩
  | 64 => ⟨S1024x10, .i32⟩
  | 65 => ⟨S1024x10, .i32⟩
  | 66 => ⟨S1024x10, .i32⟩
  | 67 => ⟨S1024x10x1, .i32⟩
  | 68 => ⟨S1024x10x602, .f32⟩
  | 69 => ⟨S_, .i32⟩
  | 70 => ⟨S10240x25, .i32⟩
  | 71 => ⟨S10240x25, .i1⟩
  | 72 => ⟨S_, .i32⟩
  | 73 => ⟨S10240x25, .i32⟩
  | 74 => ⟨S10240x25, .i32⟩
  | 75 => ⟨S10240x25, .i32⟩
  | 76 => ⟨S10240x25x1, .i32⟩
  | 77 => ⟨S10240x25x602, .f32⟩
  | 78 => ⟨S_, .f32⟩
  | 79 => ⟨S10240x602, .f32⟩
  | 80 => ⟨S_, .f32⟩
  | 81 => ⟨S10240x602, .f32⟩
  | 82 => ⟨S10240x602, .f32⟩
  | 83 => ⟨S10240x602, .f32⟩
  | 84 => ⟨S602x256, .f32⟩
  | 85 => ⟨S10240x256, .f32⟩
  | 86 => ⟨S1x256, .f32⟩
  | 87 => ⟨S10240x256, .f32⟩
  | 88 => ⟨S10240x256, .f32⟩
  | 89 => ⟨S602x256, .f32⟩
  | 90 => ⟨S10240x256, .f32⟩
  | 91 => ⟨S1x256, .f32⟩
  | 92 => ⟨S10240x256, .f32⟩
  | 93 => ⟨S10240x256, .f32⟩
  | 94 => ⟨S10240x512, .f32⟩
  | 95 => ⟨S_, .f32⟩
  | 96 => ⟨S10240x512, .f32⟩
  | 97 => ⟨S10240x512, .f32⟩
  | 98 => ⟨S_, .i32⟩
  | 99 => ⟨S1024, .i32⟩
  | 100 => ⟨S1024, .i1⟩
  | 101 => ⟨S_, .i32⟩
  | 102 => ⟨S1024, .i32⟩
  | 103 => ⟨S1024, .i32⟩
  | 104 => ⟨S1024, .i32⟩
  | 105 => ⟨S1024x1, .i32⟩
  | 106 => ⟨S1024x602, .f32⟩
  | 107 => ⟨S_, .f32⟩
  | 108 => ⟨S1024x602, .f32⟩
  | 109 => ⟨S_, .f32⟩
  | 110 => ⟨S1024x602, .f32⟩
  | 111 => ⟨S1024x602, .f32⟩
  | 112 => ⟨S602x256, .f32⟩
  | 113 => ⟨S1024x256, .f32⟩
  | 114 => ⟨S1x256, .f32⟩
  | 115 => ⟨S1024x256, .f32⟩
  | 116 => ⟨S1024x256, .f32⟩
  | 117 => ⟨S602x256, .f32⟩
  | 118 => ⟨S1024x256, .f32⟩
  | 119 => ⟨S1x256, .f32⟩
  | 120 => ⟨S1024x256, .f32⟩
  | 121 => ⟨S1024x256, .f32⟩
  | 122 => ⟨S1024x512, .f32⟩
  | 123 => ⟨S_, .f32⟩
  | 124 => ⟨S1024x512, .f32⟩
  | 125 => ⟨S1024x512, .f32⟩
  | 126 => ⟨S1024x10x512, .f32⟩
  | 127 => ⟨S_, .f32⟩
  | _ => ⟨S1024, .i32⟩

abbrev hbmTy0_1 (i : Nat) : BufTy := match i % 128 with
  | 0 => ⟨S1024x512, .f32⟩
  | 1 => ⟨S_, .f32⟩
  | 2 => ⟨S1024x512, .f32⟩
  | 3 => ⟨S1024x512, .f32⟩
  | 4 => ⟨S512x256, .f32⟩
  | 5 => ⟨S1024x256, .f32⟩
  | 6 => ⟨S1x256, .f32⟩
  | 7 => ⟨S1024x256, .f32⟩
  | 8 => ⟨S1024x256, .f32⟩
  | 9 => ⟨S512x256, .f32⟩
  | 10 => ⟨S1024x256, .f32⟩
  | 11 => ⟨S1x256, .f32⟩
  | 12 => ⟨S1024x256, .f32⟩
  | 13 => ⟨S1024x256, .f32⟩
  | 14 => ⟨S1024x512, .f32⟩
  | 15 => ⟨S_, .f32⟩
  | 16 => ⟨S1024, .f32⟩
  | 17 => ⟨S1024x1, .f32⟩
  | 18 => ⟨S_, .f32⟩
  | 19 => ⟨S1024x1, .f32⟩
  | 20 => ⟨S1024x1, .f32⟩
  | 21 => ⟨S1024x512, .f32⟩
  | 22 => ⟨S1024x512, .f32⟩
  | 23 => ⟨S1024x512, .f32⟩
  | 24 => ⟨S_, .f32⟩
  | 25 => ⟨S1024, .f32⟩
  | 26 => ⟨S1024x1, .f32⟩
  | 27 => ⟨S_, .f32⟩
  | 28 => ⟨S1024x1, .f32⟩
  | 29 => ⟨S1024x1, .f32⟩
  | 30 => ⟨S1024x512, .f32⟩
  | 31 => ⟨S1024x512, .f32⟩
  | 32 => ⟨S_, .f32⟩
  | 33 => ⟨S1024x1, .f32⟩
  | 34 => ⟨S1024x1, .f32⟩
  | 35 => ⟨S1024x1, .f32⟩
  | 36 => ⟨S1024x512, .f32⟩
  | 37 => ⟨S1024x512, .f32⟩
  | 38 => ⟨S1x512, .f32⟩
  | 39 => ⟨S1024x512, .f32⟩
  | 40 => ⟨S1024x512, .f32⟩
  | 41 => ⟨S1x512, .f32⟩
  | 42 => ⟨S1024x512, .f32⟩
  | 43 => ⟨S1024x512, .f32⟩
  | 44 => ⟨S512x41, .f32⟩
  | 45 => ⟨S1024x41, .f32⟩
  | 46 => ⟨S1x41, .f32⟩
  | 47 => ⟨S1024x41, .f32⟩
  | 48 => ⟨S1024x41, .f32⟩
  | _ => ⟨S1024, .i32⟩

abbrev hbmTy (i : Nat) : BufTy := match i / 128 with
  | 0 => hbmTy0_0 i
  | 1 => hbmTy0_1 i
  | _ => ⟨S1024, .i32⟩

abbrev bufTy : (tb : Table) → Fin (tcTables nBuf tb) → BufTy
  | .hbm, ⟨i, _⟩ => hbmTy i
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_3 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_c_6 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_7 : Ref sig .tc := ⟨.hbm, 60, rfl⟩
abbrev main_v31 : Ref sig .tc := ⟨.hbm, 61, rfl⟩
abbrev main_v32 : Ref sig .tc := ⟨.hbm, 62, rfl⟩
abbrev main_c_8 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_9 : Ref sig .tc := ⟨.hbm, 69, rfl⟩
abbrev main_v38 : Ref sig .tc := ⟨.hbm, 70, rfl⟩
abbrev main_v39 : Ref sig .tc := ⟨.hbm, 71, rfl⟩
abbrev main_c_10 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst : Ref sig .tc := ⟨.hbm, 78, rfl⟩
abbrev main_v45 : Ref sig .tc := ⟨.hbm, 79, rfl⟩
abbrev main_cst_11 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call0_cst : Ref sig .tc := ⟨.hbm, 95, rfl⟩
abbrev main_call0_v0 : Ref sig .tc := ⟨.hbm, 96, rfl⟩
abbrev main_v60 : Ref sig .tc := ⟨.hbm, 97, rfl⟩
abbrev main_c_12 : Ref sig .tc := ⟨.hbm, 98, rfl⟩
abbrev main_v61 : Ref sig .tc := ⟨.hbm, 99, rfl⟩
abbrev main_v62 : Ref sig .tc := ⟨.hbm, 100, rfl⟩
abbrev main_c_13 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_14 : Ref sig .tc := ⟨.hbm, 107, rfl⟩
abbrev main_v68 : Ref sig .tc := ⟨.hbm, 108, rfl⟩
abbrev main_cst_15 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_call1_cst : Ref sig .tc := ⟨.hbm, 123, rfl⟩
abbrev main_call1_v0 : Ref sig .tc := ⟨.hbm, 124, rfl⟩
abbrev main_v82 : Ref sig .tc := ⟨.hbm, 125, rfl⟩
abbrev main_v83 : Ref sig .tc := ⟨.hbm, 126, rfl⟩
abbrev main_cst_16 : Ref sig .tc := ⟨.hbm, 127, rfl⟩
abbrev main_v84 : Ref sig .tc := ⟨.hbm, 128, rfl⟩
abbrev main_cst_17 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_18 : Ref sig .tc := ⟨.hbm, 143, rfl⟩
abbrev main_v98 : Ref sig .tc := ⟨.hbm, 144, rfl⟩
abbrev main_v99 : Ref sig .tc := ⟨.hbm, 145, rfl⟩
abbrev main_cst_19 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_20 : Ref sig .tc := ⟨.hbm, 152, rfl⟩
abbrev main_v105 : Ref sig .tc := ⟨.hbm, 153, rfl⟩
abbrev main_v106 : Ref sig .tc := ⟨.hbm, 154, rfl⟩
abbrev main_cst_21 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_22 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  slices_S128_S10_0 : S128.Slices ![0] S10
  bcast_S_S10 : S_.BroadcastsInDim S10 (![] : Fin 0 → Fin S10.rank)
  bcast_S10_S10x1_0 : S10.BroadcastsInDim S10x1 (![0] : Fin 1 → Fin S10x1.rank)
  shapeCasts_S1024x10_S10240 : S1024x10.ShapeCasts S10240
  bcast_S_S10240 : S_.BroadcastsInDim S10240 (![] : Fin 0 → Fin S10240.rank)
  bcast_S10240_S10240x1_0 : S10240.BroadcastsInDim S10240x1 (![0] : Fin 1 → Fin S10240x1.rank)
  slices_S128_S25_0 : S128.Slices ![0] S25
  bcast_S_S25 : S_.BroadcastsInDim S25 (![] : Fin 0 → Fin S25.rank)
  bcast_S25_S25x1_0 : S25.BroadcastsInDim S25x1 (![0] : Fin 1 → Fin S25x1.rank)
  bcast_S_S1024x10 : S_.BroadcastsInDim S1024x10 (![] : Fin 0 → Fin S1024x10.rank)
  bcast_S1024x10_S1024x10x1_0_1 : S1024x10.BroadcastsInDim S1024x10x1 (![0, 1] : Fin 2 → Fin S1024x10x1.rank)
  bcast_S_S10240x25 : S_.BroadcastsInDim S10240x25 (![] : Fin 0 → Fin S10240x25.rank)
  bcast_S10240x25_S10240x25x1_0_1 : S10240x25.BroadcastsInDim S10240x25x1 (![0, 1] : Fin 2 → Fin S10240x25x1.rank)
  reducesTo_S10240x25x602_S10240x602_d1 : S10240x25x602.ReducesTo [1] S10240x602
  h_S_ : 0 < S_.numel
  bcast_S_S10240x602 : S_.BroadcastsInDim S10240x602 (![] : Fin 0 → Fin S10240x602.rank)
  shapeCasts_S1024x10x602_S10240x602 : S1024x10x602.ShapeCasts S10240x602
  transposes_S256x602_S602x256_1_0 : S256x602.Transposes [1, 0] S602x256
  bcast_S256_S1x256_1 : S256.BroadcastsInDim S1x256 (![1] : Fin 1 → Fin S1x256.rank)
  bcast_S1x256_S10240x256_0_1 : S1x256.BroadcastsInDim S10240x256 (![0, 1] : Fin 2 → Fin S10240x256.rank)
  concatenates_S10240x256_S10240x256_S10240x512_d1 : Shape.Concatenates [S10240x256, S10240x256] S10240x512 1
  bcast_S_S10240x512 : S_.BroadcastsInDim S10240x512 (![] : Fin 0 → Fin S10240x512.rank)
  reducesTo_S1024x10x602_S1024x602_d1 : S1024x10x602.ReducesTo [1] S1024x602
  bcast_S_S1024x602 : S_.BroadcastsInDim S1024x602 (![] : Fin 0 → Fin S1024x602.rank)
  bcast_S1x256_S1024x256_0_1 : S1x256.BroadcastsInDim S1024x256 (![0, 1] : Fin 2 → Fin S1024x256.rank)
  concatenates_S1024x256_S1024x256_S1024x512_d1 : Shape.Concatenates [S1024x256, S1024x256] S1024x512 1
  bcast_S_S1024x512 : S_.BroadcastsInDim S1024x512 (![] : Fin 0 → Fin S1024x512.rank)
  shapeCasts_S10240x512_S1024x10x512 : S10240x512.ShapeCasts S1024x10x512
  reducesTo_S1024x10x512_S1024x512_d1 : S1024x10x512.ReducesTo [1] S1024x512
  transposes_S256x512_S512x256_1_0 : S256x512.Transposes [1, 0] S512x256
  reducesTo_S1024x512_S1024_d1 : S1024x512.ReducesTo [1] S1024
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  transposes_S41x512_S512x41_1_0 : S41x512.Transposes [1, 0] S512x41
  bcast_S41_S1x41_1 : S41.BroadcastsInDim S1x41 (![1] : Fin 1 → Fin S1x41.rank)
  bcast_S1x41_S1024x41_0_1 : S1x41.BroadcastsInDim S1024x41 (![0, 1] : Fin 2 → Fin S1024x41.rank)
  gather_S200000x128_S1024x1_S1024x128_1_0_n_n_0_1_1128_wf : GatherDims.WF S200000x128 S1024x1 S1024x128 [1] [0] [] [0] [] 1 ![1, 128]
  gather_S1024x128_S10x1_S1024x10_0_1_n_n_1_1_10241_wf : GatherDims.WF S1024x128 S10x1 S1024x10 [0] [1] [] [1] [] 1 ![1024, 1]
  gather_S200000x128_S10240x1_S10240x128_1_0_n_n_0_1_1128_wf : GatherDims.WF S200000x128 S10240x1 S10240x128 [1] [0] [] [0] [] 1 ![1, 128]
  gather_S10240x128_S25x1_S10240x25_0_1_n_n_1_1_102401_wf : GatherDims.WF S10240x128 S25x1 S10240x25 [0] [1] [] [1] [] 1 ![10240, 1]
  gather_S200000x602_S1024x10x1_S1024x10x602_2_0_n_n_0_2_1602_wf : GatherDims.WF S200000x602 S1024x10x1 S1024x10x602 [2] [0] [] [0] [] 2 ![1, 602]
  gather_S200000x602_S10240x25x1_S10240x25x602_2_0_n_n_0_2_1602_wf : GatherDims.WF S200000x602 S10240x25x1 S10240x25x602 [2] [0] [] [0] [] 2 ![1, 602]
  dot_S10240x602_S602x256_S10240x256_1_0_0_1_n_n_wf : DotDims.WF S10240x602 S602x256 S10240x256 [1] [0] [0] [1] [] []
  gather_S200000x602_S1024x1_S1024x602_1_0_n_n_0_1_1602_wf : GatherDims.WF S200000x602 S1024x1 S1024x602 [1] [0] [] [0] [] 1 ![1, 602]
  dot_S1024x602_S602x256_S1024x256_1_0_0_1_n_n_wf : DotDims.WF S1024x602 S602x256 S1024x256 [1] [0] [0] [1] [] []
  dot_S1024x512_S512x256_S1024x256_1_0_0_1_n_n_wf : DotDims.WF S1024x512 S512x256 S1024x256 [1] [0] [0] [1] [] []
  dot_S1024x512_S512x41_S1024x41_1_0_0_1_n_n_wf : DotDims.WF S1024x512 S512x41 S1024x41 [1] [0] [0] [1] [] []

variable [Facts₀]

def gather_S200000x128_S1024x1_S1024x128_1_0_n_n_0_1_1128 : GatherDims S200000x128 S1024x1 S1024x128 where
  offsetDims := [1]
  collapsedSliceDims := [0]
  operandBatchingDims := []
  startIndicesBatchingDims := []
  startIndexMap := [0]
  indexVectorDim := 1
  sliceSizes := ![1, 128]
  wf := gather_S200000x128_S1024x1_S1024x128_1_0_n_n_0_1_1128_wf
def gather_S1024x128_S10x1_S1024x10_0_1_n_n_1_1_10241 : GatherDims S1024x128 S10x1 S1024x10 where
  offsetDims := [0]
  collapsedSliceDims := [1]
  operandBatchingDims := []
  startIndicesBatchingDims := []
  startIndexMap := [1]
  indexVectorDim := 1
  sliceSizes := ![1024, 1]
  wf := gather_S1024x128_S10x1_S1024x10_0_1_n_n_1_1_10241_wf
def gather_S200000x128_S10240x1_S10240x128_1_0_n_n_0_1_1128 : GatherDims S200000x128 S10240x1 S10240x128 where
  offsetDims := [1]
  collapsedSliceDims := [0]
  operandBatchingDims := []
  startIndicesBatchingDims := []
  startIndexMap := [0]
  indexVectorDim := 1
  sliceSizes := ![1, 128]
  wf := gather_S200000x128_S10240x1_S10240x128_1_0_n_n_0_1_1128_wf
def gather_S10240x128_S25x1_S10240x25_0_1_n_n_1_1_102401 : GatherDims S10240x128 S25x1 S10240x25 where
  offsetDims := [0]
  collapsedSliceDims := [1]
  operandBatchingDims := []
  startIndicesBatchingDims := []
  startIndexMap := [1]
  indexVectorDim := 1
  sliceSizes := ![10240, 1]
  wf := gather_S10240x128_S25x1_S10240x25_0_1_n_n_1_1_102401_wf
def gather_S200000x602_S1024x10x1_S1024x10x602_2_0_n_n_0_2_1602 : GatherDims S200000x602 S1024x10x1 S1024x10x602 where
  offsetDims := [2]
  collapsedSliceDims := [0]
  operandBatchingDims := []
  startIndicesBatchingDims := []
  startIndexMap := [0]
  indexVectorDim := 2
  sliceSizes := ![1, 602]
  wf := gather_S200000x602_S1024x10x1_S1024x10x602_2_0_n_n_0_2_1602_wf
def gather_S200000x602_S10240x25x1_S10240x25x602_2_0_n_n_0_2_1602 : GatherDims S200000x602 S10240x25x1 S10240x25x602 where
  offsetDims := [2]
  collapsedSliceDims := [0]
  operandBatchingDims := []
  startIndicesBatchingDims := []
  startIndexMap := [0]
  indexVectorDim := 2
  sliceSizes := ![1, 602]
  wf := gather_S200000x602_S10240x25x1_S10240x25x602_2_0_n_n_0_2_1602_wf
def dot_S10240x602_S602x256_S10240x256_1_0_0_1_n_n : DotDims S10240x602 S602x256 S10240x256 where
  lhsContracting := [1]
  rhsContracting := [0]
  lhsNonContracting := [0]
  rhsNonContracting := [1]
  lhsBatch := []
  rhsBatch := []
  wf := dot_S10240x602_S602x256_S10240x256_1_0_0_1_n_n_wf
def gather_S200000x602_S1024x1_S1024x602_1_0_n_n_0_1_1602 : GatherDims S200000x602 S1024x1 S1024x602 where
  offsetDims := [1]
  collapsedSliceDims := [0]
  operandBatchingDims := []
  startIndicesBatchingDims := []
  startIndexMap := [0]
  indexVectorDim := 1
  sliceSizes := ![1, 602]
  wf := gather_S200000x602_S1024x1_S1024x602_1_0_n_n_0_1_1602_wf
def dot_S1024x602_S602x256_S1024x256_1_0_0_1_n_n : DotDims S1024x602 S602x256 S1024x256 where
  lhsContracting := [1]
  rhsContracting := [0]
  lhsNonContracting := [0]
  rhsNonContracting := [1]
  lhsBatch := []
  rhsBatch := []
  wf := dot_S1024x602_S602x256_S1024x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x512_S512x41_S1024x41_1_0_0_1_n_n : DotDims S1024x512 S512x41 S1024x41 where
  lhsContracting := [1]
  rhsContracting := [0]
  lhsNonContracting := [0]
  rhsNonContracting := [1]
  lhsBatch := []
  rhsBatch := []
  wf := dot_S1024x512_S512x41_S1024x41_1_0_0_1_n_n_wf

class Facts : Prop extends Facts₀ where

variable [Facts]
-- ==== Proof.NodeNet.lean ====
/-
  A two-layer mean-aggregating graph network, read one seed node at a time.

  For one seed node the network sees the node's own feature row `a` (602 numbers), the feature rows
  `h s` of its ten sampled neighbours, and, for each of those, the mean `n s` of the feature rows of that
  neighbour's twenty-five sampled neighbours. It computes

    hidden1 s = relu (W1b_self · h s + b ‖ W1b_neigh · n s + b)        one 512-vector per neighbour s
    hidden0   = relu (W1a_self · a + b ‖ W1a_neigh · mean_s (h s) + b)
    combined  = W2_self · hidden0 + b ‖ W2_neigh · mean_s (hidden1 s) + b
    logits    = W_cls · layernorm(combined) + b                          41 numbers

  where ‖ joins two 256-vectors into a 512-vector and every mean is a sum divided by the count. Nothing in it
  mixes two seed nodes, so a tile of seed nodes and the whole batch compute the same row function.

  The layer norm is written in two ways — the deviation TIMES the reciprocal square root of the spread, and the
  deviation DIVIDED BY the square root of the spread — and the one law proved here is that the two agree on the
  extended reals. The spread is a mean of squares plus a positive constant: squares are nonnegative on the
  extended reals (⊥ · ⊥ = ⊤), so the spread is positive, possibly ⊤; at a positive real v both forms multiply by
  1/√v, and at ⊤ both give 0 (x / ⊤ = x · 0 and rsqrt ⊤ = 0). No finiteness of the data is needed.
-/
import Idealize.ShloMosaic.PureOps.Ideal
import Idealize.ShloMosaic.PureOps.Ideal.Laws
import Idealize.ShloMosaic.Lib.ValueIdx

noncomputable section

open scoped BigOperators

namespace Cert.NodeNet

open Idealize.ShloMosaic Idealize.ShloMosaic.ValueIdx

/-- The network's parameters, as plain families of extended reals. -/
structure Weights where
  w1as : Fin 256 → Fin 602 → EReal
  b1as : Fin 256 → EReal
  w1an : Fin 256 → Fin 602 → EReal
  b1an : Fin 256 → EReal
  w1bs : Fin 256 → Fin 602 → EReal
  b1bs : Fin 256 → EReal
  w1bn : Fin 256 → Fin 602 → EReal
  b1bn : Fin 256 → EReal
  w2s : Fin 256 → Fin 512 → EReal
  b2s : Fin 256 → EReal
  w2n : Fin 256 → Fin 512 → EReal
  b2n : Fin 256 → EReal
  g : Fin 512 → EReal
  β : Fin 512 → EReal
  wc : Fin 41 → Fin 512 → EReal
  bc : Fin 41 → EReal

/-- The parameters read off the sixteen parameter arrays, in the order the programs take them. -/
def weightsOf
    (w1as : (⟨2, ![256, 602]⟩ : Shape).Idx → EReal) (b1as : (⟨1, ![256]⟩ : Shape).Idx → EReal)
    (w1an : (⟨2, ![256, 602]⟩ : Shape).Idx → EReal) (b1an : (⟨1, ![256]⟩ : Shape).Idx → EReal)
    (w1bs : (⟨2, ![256, 602]⟩ : Shape).Idx → EReal) (b1bs : (⟨1, ![256]⟩ : Shape).Idx → EReal)
    (w1bn : (⟨2, ![256, 602]⟩ : Shape).Idx → EReal) (b1bn : (⟨1, ![256]⟩ : Shape).Idx → EReal)
    (w2s : (⟨2, ![256, 512]⟩ : Shape).Idx → EReal) (b2s : (⟨1, ![256]⟩ : Shape).Idx → EReal)
    (w2n : (⟨2, ![256, 512]⟩ : Shape).Idx → EReal) (b2n : (⟨1, ![256]⟩ : Shape).Idx → EReal)
    (g β : (⟨1, ![512]⟩ : Shape).Idx → EReal)
    (wc : (⟨2, ![41, 512]⟩ : Shape).Idx → EReal) (bc : (⟨1, ![41]⟩ : Shape).Idx → EReal) : Weights where
  w1as i k := w1as (ix2 i k)
  b1as i := b1as (ix1 i)
  w1an i k := w1an (ix2 i k)
  b1an i := b1an (ix1 i)
  w1bs i k := w1bs (ix2 i k)
  b1bs i := b1bs (ix1 i)
  w1bn i k := w1bn (ix2 i k)
  b1bn i := b1bn (ix1 i)
  w2s i k := w2s (ix2 i k)
  b2s i := b2s (ix1 i)
  w2n i k := w2n (ix2 i k)
  b2n i := b2n (ix1 i)
  g j := g (ix1 j)
  β j := β (ix1 j)
  wc c k := wc (ix2 c k)
  bc c := bc (ix1 c)

/-- Row `b·10 + s` of a 10240-row array: neighbour `s` of seed node `b` in the flattened order. -/
def flatRow (b : Fin 1024) (s : Fin 10) : Fin 10240 := ⟨b.val * 10 + s.val, by have := b.isLt; have := s.isLt; omega⟩

/-- A dot product plus a bias. -/
def affine {K : ℕ} (u w : Fin K → EReal) (b : EReal) : EReal := (∑ k, u k * w k) + b

/-- Two 256-vectors joined end to end. -/
def joined (f g : Fin 256 → EReal) (j : Fin 512) : EReal :=
  if h : j.val < 256 then f ⟨j.val, h⟩ else g ⟨j.val - 256, by have := j.isLt; omega⟩

theorem joined_left (f g : Fin 256 → EReal) (j : Fin 512) (i : Fin 256) (h : j.val = i.val) : joined f g j = f i := by
  unfold joined
  rw [dif_pos (by have := i.isLt; omega)]
  exact congrArg f (Fin.ext h)

theorem joined_right (f g : Fin 256 → EReal) (j : Fin 512) (i : Fin 256) (h : j.val = 256 + i.val) : joined f g j = g i := by
  unfold joined
  rw [dif_neg (by omega)]
  exact congrArg g (Fin.ext (by show j.val - 256 = i.val; omega))

/-- One aggregation layer: the self and the neighbour transform joined, then the rectifier. -/
def layer (ws wn : Fin 256 → Fin 602 → EReal) (bs bn : Fin 256 → EReal) (u v : Fin 602 → EReal) (j : Fin 512) : EReal :=
  max (joined (fun i => affine u (ws i) (bs i)) (fun i => affine v (wn i) (bn i)) j) (Ideal.ofBits .f32 0x00000000#32)

/-- The mean of ten numbers: their sum divided by ten. -/
def mean10 (f : Fin 10 → EReal) : EReal := Ideal.div (∑ s, f s) (Ideal.ofBits .f32 0x41200000#32)

section Row
variable (W : Weights) (a : Fin 602 → EReal) (h n : Fin 10 → Fin 602 → EReal)

/-- The first layer at neighbour `s`: its own features against the mean of its neighbours'. -/
def hidden1 (s : Fin 10) : Fin 512 → EReal := layer W.w1bs W.w1bn W.b1bs W.b1bn (h s) (n s)

/-- The first layer at the seed node: its own features against the mean of its ten neighbours'. -/
def hidden0 : Fin 512 → EReal := layer W.w1as W.w1an W.b1as W.b1an a (fun f => mean10 fun s => h s f)

/-- The neighbours' first-layer outputs averaged. -/
def pooled1 (j : Fin 512) : EReal := mean10 fun s => hidden1 W h n s j

/-- The second layer (no rectifier). -/
def combined : Fin 512 → EReal :=
  joined (fun i => affine (hidden0 W a h) (W.w2s i) (W.b2s i)) (fun i => affine (pooled1 W h n) (W.w2n i) (W.b2n i))

end Row

/-- The mean of a 512-vector. -/
def rowMean (o : Fin 512 → EReal) : EReal := Ideal.div (∑ j, o j) (Ideal.ofBits .f32 0x44000000#32)

/-- The sum of the squared deviations from the mean. -/
def sqDev (o : Fin 512 → EReal) : EReal := ∑ j, (o j - rowMean o) * (o j - rowMean o)

/-- The variance plus the small positive constant. -/
def spread (o : Fin 512 → EReal) : EReal :=
  Ideal.div (sqDev o) (Ideal.ofBits .f32 0x44000000#32) + Ideal.ofBits .f32 0x2B8CBCCC#32

/-- Layer norm, deviation TIMES reciprocal square root. -/
def normTimes (W : Weights) (o : Fin 512 → EReal) (j : Fin 512) : EReal :=
  (o j - rowMean o) * Ideal.rsqrt (spread o) * W.g j + W.β j

/-- Layer norm, deviation DIVIDED BY square root. -/
def normOver (W : Weights) (o : Fin 512 → EReal) (j : Fin 512) : EReal :=
  Ideal.div (o j - rowMean o) (Ideal.sqrt (spread o)) * W.g j + W.β j

/-- The class scores of one seed node, with the layer norm in its product form. -/
def logitsTimes (W : Weights) (a : Fin 602 → EReal) (h n : Fin 10 → Fin 602 → EReal) (c : Fin 41) : EReal :=
  affine (normTimes W (combined W a h n)) (W.wc c) (W.bc c)

/-- The class scores of one seed node, with the layer norm in its quotient form. -/
def logitsOver (W : Weights) (a : Fin 602 → EReal) (h n : Fin 10 → Fin 602 → EReal) (c : Fin 41) : EReal :=
  affine (normOver W (combined W a h n)) (W.wc c) (W.bc c)

/-! ## The one law: dividing by a square root is multiplying by the reciprocal square root, at a positive spread -/

/-- A square is nonnegative on the extended reals. -/
theorem mul_self_nonneg (x : EReal) : 0 ≤ x * x := by
  rcases le_total 0 x with hx | hx
  · exact EReal.mul_nonneg hx hx
  · have := EReal.mul_nonneg (EReal.neg_nonneg.2 hx) (EReal.neg_nonneg.2 hx)
    rwa [neg_mul_neg] at this

theorem width_eq : Ideal.ofBits .f32 0x44000000#32 = ((512 : ℝ) : EReal) := by
  simp [Ideal.ofBits, Ideal.ieee, -EReal.coe_mul]; norm_num

theorem small_pos : 0 < Ideal.ofBits .f32 0x2B8CBCCC#32 := by
  simp [Ideal.ofBits, Ideal.ieee, -EReal.coe_mul]

/-- The spread is positive: a nonnegative mean of squares plus a positive constant. -/
theorem spread_pos (o : Fin 512 → EReal) : 0 < spread o := by
  unfold spread
  refine small_pos.trans_le (le_add_of_nonneg_left ?_)
  rw [width_eq, Ideal.div_coe (by norm_num)]
  exact EReal.mul_nonneg (Finset.sum_nonneg fun j _ => mul_self_nonneg _) (by exact_mod_cast (by norm_num : (0 : ℝ) ≤ 1 / 512))

/-- At a positive extended real `v`, `x / √v = x · (1/√v)`. -/
theorem div_sqrt_eq_mul_rsqrt (x v : EReal) (hv : 0 < v) : Ideal.div x (Ideal.sqrt v) = x * Ideal.rsqrt v := by
  induction v using EReal.rec with
  | bot => exact absurd hv (not_lt_bot)
  | coe r =>
    have hr : 0 < r := by exact_mod_cast hv
    have hs : Real.sqrt r ≠ 0 := (Real.sqrt_pos.2 hr).ne'
    rw [Ideal.sqrt_coe, Ideal.rsqrt_coe, if_neg (not_lt.2 hr.le), if_neg (not_lt.2 hr.le), if_neg hr.ne',
      Ideal.div_coe hs, one_div]
  | top => simp [Ideal.div]

theorem normTimes_eq_normOver (W : Weights) (o : Fin 512 → EReal) : normTimes W o = normOver W o := by
  funext j
  unfold normTimes normOver
  rw [div_sqrt_eq_mul_rsqrt _ _ (spread_pos o)]

theorem logitsTimes_eq_logitsOver (W : Weights) (a : Fin 602 → EReal) (h n : Fin 10 → Fin 602 → EReal) :
    logitsTimes W a h n = logitsOver W a h n := by
  funext c
  unfold logitsTimes logitsOver
  rw [normTimes_eq_normOver]

end Cert.NodeNet

end
-- ==== Proof.TileDots.lean ====
/-
  The tile's matrix products read at an entry.

  Every product in the tile multiplies a block of rows by a parameter matrix stored with one ROW per output unit,
  contracting the second axis of both (h · Wᵀ), into a zero accumulator. At the extended reals such a product at
  entry (r, i) is the plain sum over k of the left operand at (r, k) times the parameter at (i, k): the
  accumulator's zero drops out, and the contraction's one axis is counted by k.
-/
import proofs.«163782_j69475390980336_2_alg».proof.Proof.Gen.KernelIdeal.Skeleton
import Idealize.ShloMosaic.Lib.ValueIdx
import Idealize.ShloMosaic.PureOps.Ideal.Laws

noncomputable section

open scoped BigOperators

namespace Cert.TileDots

open Cert.KernelIdeal Idealize.ShloMosaic Idealize.ShloMosaic.ValueIdx

theorem dot640_lhs0 (j : S640x256.Idx) (q : dot_S640x602_S256x602_S640x256_1_1_0_0_n_n.contr.Idx) : (dot_S640x602_S256x602_S640x256_1_1_0_0_n_n.lhsIdx j q 0).val = (j 0).val := by
  unfold DotDims.lhsIdx
  rw [dif_neg (show ¬(0 : Fin S640x602.rank) ∈ dot_S640x602_S256x602_S640x256_1_1_0_0_n_n.lhsBatch by decide), dif_pos (show (0 : Fin S640x602.rank) ∈ dot_S640x602_S256x602_S640x256_1_1_0_0_n_n.lhsNonContracting by decide)]
  rfl

theorem dot640_rhs0 (j : S640x256.Idx) (q : dot_S640x602_S256x602_S640x256_1_1_0_0_n_n.contr.Idx) : (dot_S640x602_S256x602_S640x256_1_1_0_0_n_n.rhsIdx j q 0).val = (j 1).val := by
  unfold DotDims.rhsIdx
  rw [dif_neg (show ¬(0 : Fin S256x602.rank) ∈ dot_S640x602_S256x602_S640x256_1_1_0_0_n_n.rhsBatch by decide), dif_pos (show (0 : Fin S256x602.rank) ∈ dot_S640x602_S256x602_S640x256_1_1_0_0_n_n.rhsNonContracting by decide)]
  rfl

/-- The 640×602 by 256×602 product contracted over the second axis of both operands, into a zero accumulator:
    entry (r, i) is the sum over k of the left operand at (r, k) times the right operand at (i, k). -/
theorem dot640_apply (X : FVec Ideal S640x602 .bf16) (Wt : FVec Ideal S256x602 .bf16) (r : Fin 640) (i : Fin 256) :
    matmul dot_S640x602_S256x602_S640x256_1_1_0_0_n_n none X Wt (constant S640x256 .f32 0x00000000#32) (ix2 r i)
      = ∑ k : Fin 602, X (ix2 r k) * Wt (ix2 i k) := by
  simp only [matmul]
  rw [Ideal.matmul_constant_zero_apply, ← Equiv.sum_comp (contrEquiv1 dot_S640x602_S256x602_S640x256_1_1_0_0_n_n 602 rfl rfl).symm]
  refine Finset.sum_congr rfl fun k _ => ?_
  have hk := contrEquiv1_symm_val dot_S640x602_S256x602_S640x256_1_1_0_0_n_n 602 rfl rfl k
  have el : dot_S640x602_S256x602_S640x256_1_1_0_0_n_n.lhsIdx (ix2 r i) ((contrEquiv1 dot_S640x602_S256x602_S640x256_1_1_0_0_n_n 602 rfl rfl).symm k) = ix2 r k := funext fun a => Fin.ext (by
    match a with
    | ⟨0, _⟩ => exact dot640_lhs0 _ _
    | ⟨1, _⟩ => exact (dot_S640x602_S256x602_S640x256_1_1_0_0_n_n.lhsIdx_val_of_single rfl _ _).trans hk)
  have er : dot_S640x602_S256x602_S640x256_1_1_0_0_n_n.rhsIdx (ix2 r i) ((contrEquiv1 dot_S640x602_S256x602_S640x256_1_1_0_0_n_n 602 rfl rfl).symm k) = ix2 i k := funext fun a => Fin.ext (by
    match a with
    | ⟨0, _⟩ => exact dot640_rhs0 _ _
    | ⟨1, _⟩ => exact (dot_S640x602_S256x602_S640x256_1_1_0_0_n_n.rhsIdx_val_of_single rfl _ _).trans hk)
  rw [el, er]

theorem dot64_lhs0 (j : S64x256.Idx) (q : dot_S64x602_S256x602_S64x256_1_1_0_0_n_n.contr.Idx) : (dot_S64x602_S256x602_S64x256_1_1_0_0_n_n.lhsIdx j q 0).val = (j 0).val := by
  unfold DotDims.lhsIdx
  rw [dif_neg (show ¬(0 : Fin S64x602.rank) ∈ dot_S64x602_S256x602_S64x256_1_1_0_0_n_n.lhsBatch by decide), dif_pos (show (0 : Fin S64x602.rank) ∈ dot_S64x602_S256x602_S64x256_1_1_0_0_n_n.lhsNonContracting by decide)]
  rfl

theorem dot64_rhs0 (j : S64x256.Idx) (q : dot_S64x602_S256x602_S64x256_1_1_0_0_n_n.contr.Idx) : (dot_S64x602_S256x602_S64x256_1_1_0_0_n_n.rhsIdx j q 0).val = (j 1).val := by
  unfold DotDims.rhsIdx
  rw [dif_neg (show ¬(0 : Fin S256x602.rank) ∈ dot_S64x602_S256x602_S64x256_1_1_0_0_n_n.rhsBatch by decide), dif_pos (show (0 : Fin S256x602.rank) ∈ dot_S64x602_S256x602_S64x256_1_1_0_0_n_n.rhsNonContracting by decide)]
  rfl

/-- The 64×602 by 256×602 product contracted over the second axis of both operands, into a zero accumulator:
    entry (r, i) is the sum over k of the left operand at (r, k) times the right operand at (i, k). -/
theorem dot64_apply (X : FVec Ideal S64x602 .bf16) (Wt : FVec Ideal S256x602 .bf16) (r : Fin 64) (i : Fin 256) :
    matmul dot_S64x602_S256x602_S64x256_1_1_0_0_n_n none X Wt (constant S64x256 .f32 0x00000000#32) (ix2 r i)
      = ∑ k : Fin 602, X (ix2 r k) * Wt (ix2 i k) := by
  simp only [matmul]
  rw [Ideal.matmul_constant_zero_apply, ← Equiv.sum_comp (contrEquiv1 dot_S64x602_S256x602_S64x256_1_1_0_0_n_n 602 rfl rfl).symm]
  refine Finset.sum_congr rfl fun k _ => ?_
  have hk := contrEquiv1_symm_val dot_S64x602_S256x602_S64x256_1_1_0_0_n_n 602 rfl rfl k
  have el : dot_S64x602_S256x602_S64x256_1_1_0_0_n_n.lhsIdx (ix2 r i) ((contrEquiv1 dot_S64x602_S256x602_S64x256_1_1_0_0_n_n 602 rfl rfl).symm k) = ix2 r k := funext fun a => Fin.ext (by
    match a with
    | ⟨0, _⟩ => exact dot64_lhs0 _ _
    | ⟨1, _⟩ => exact (dot_S64x602_S256x602_S64x256_1_1_0_0_n_n.lhsIdx_val_of_single rfl _ _).trans hk)
  have er : dot_S64x602_S256x602_S64x256_1_1_0_0_n_n.rhsIdx (ix2 r i) ((contrEquiv1 dot_S64x602_S256x602_S64x256_1_1_0_0_n_n 602 rfl rfl).symm k) = ix2 i k := funext fun a => Fin.ext (by
    match a with
    | ⟨0, _⟩ => exact dot64_rhs0 _ _
    | ⟨1, _⟩ => exact (dot_S64x602_S256x602_S64x256_1_1_0_0_n_n.rhsIdx_val_of_single rfl _ _).trans hk)
  rw [el, er]

theorem dot64w_lhs0 (j : S64x256.Idx) (q : dot_S64x512_S256x512_S64x256_1_1_0_0_n_n.contr.Idx) : (dot_S64x512_S256x512_S64x256_1_1_0_0_n_n.lhsIdx j q 0).val = (j 0).val := by
  unfold DotDims.lhsIdx
  rw [dif_neg (show ¬(0 : Fin S64x512.rank) ∈ dot_S64x512_S256x512_S64x256_1_1_0_0_n_n.lhsBatch by decide), dif_pos (show (0 : Fin S64x512.rank) ∈ dot_S64x512_S256x512_S64x256_1_1_0_0_n_n.lhsNonContracting by decide)]
  rfl

theorem dot64w_rhs0 (j : S64x256.Idx) (q : dot_S64x512_S256x512_S64x256_1_1_0_0_n_n.contr.Idx) : (dot_S64x512_S256x512_S64x256_1_1_0_0_n_n.rhsIdx j q 0).val = (j 1).val := by
  unfold DotDims.rhsIdx
  rw [dif_neg (show ¬(0 : Fin S256x512.rank) ∈ dot_S64x512_S256x512_S64x256_1_1_0_0_n_n.rhsBatch by decide), dif_pos (show (0 : Fin S256x512.rank) ∈ dot_S64x512_S256x512_S64x256_1_1_0_0_n_n.rhsNonContracting by decide)]
  rfl

/-- The 64×512 by 256×512 product contracted over the second axis of both operands, into a zero accumulator:
    entry (r, i) is the sum over k of the left operand at (r, k) times the right operand at (i, k). -/
theorem dot64w_apply (X : FVec Ideal S64x512 .bf16) (Wt : FVec Ideal S256x512 .bf16) (r : Fin 64) (i : Fin 256) :
    matmul dot_S64x512_S256x512_S64x256_1_1_0_0_n_n none X Wt (constant S64x256 .f32 0x00000000#32) (ix2 r i)
      = ∑ k : Fin 512, X (ix2 r k) * Wt (ix2 i k) := by
  simp only [matmul]
  rw [Ideal.matmul_constant_zero_apply, ← Equiv.sum_comp (contrEquiv1 dot_S64x512_S256x512_S64x256_1_1_0_0_n_n 512 rfl rfl).symm]
  refine Finset.sum_congr rfl fun k _ => ?_
  have hk := contrEquiv1_symm_val dot_S64x512_S256x512_S64x256_1_1_0_0_n_n 512 rfl rfl k
  have el : dot_S64x512_S256x512_S64x256_1_1_0_0_n_n.lhsIdx (ix2 r i) ((contrEquiv1 dot_S64x512_S256x512_S64x256_1_1_0_0_n_n 512 rfl rfl).symm k) = ix2 r k := funext fun a => Fin.ext (by
    match a with
    | ⟨0, _⟩ => exact dot64w_lhs0 _ _
    | ⟨1, _⟩ => exact (dot_S64x512_S256x512_S64x256_1_1_0_0_n_n.lhsIdx_val_of_single rfl _ _).trans hk)
  have er : dot_S64x512_S256x512_S64x256_1_1_0_0_n_n.rhsIdx (ix2 r i) ((contrEquiv1 dot_S64x512_S256x512_S64x256_1_1_0_0_n_n 512 rfl rfl).symm k) = ix2 i k := funext fun a => Fin.ext (by
    match a with
    | ⟨0, _⟩ => exact dot64w_rhs0 _ _
    | ⟨1, _⟩ => exact (dot_S64x512_S256x512_S64x256_1_1_0_0_n_n.rhsIdx_val_of_single rfl _ _).trans hk)
  rw [el, er]

theorem dotCls_lhs0 (j : S64x41.Idx) (q : dot_S64x512_S41x512_S64x41_1_1_0_0_n_n.contr.Idx) : (dot_S64x512_S41x512_S64x41_1_1_0_0_n_n.lhsIdx j q 0).val = (j 0).val := by
  unfold DotDims.lhsIdx
  rw [dif_neg (show ¬(0 : Fin S64x512.rank) ∈ dot_S64x512_S41x512_S64x41_1_1_0_0_n_n.lhsBatch by decide), dif_pos (show (0 : Fin S64x512.rank) ∈ dot_S64x512_S41x512_S64x41_1_1_0_0_n_n.lhsNonContracting by decide)]
  rfl

theorem dotCls_rhs0 (j : S64x41.Idx) (q : dot_S64x512_S41x512_S64x41_1_1_0_0_n_n.contr.Idx) : (dot_S64x512_S41x512_S64x41_1_1_0_0_n_n.rhsIdx j q 0).val = (j 1).val := by
  unfold DotDims.rhsIdx
  rw [dif_neg (show ¬(0 : Fin S41x512.rank) ∈ dot_S64x512_S41x512_S64x41_1_1_0_0_n_n.rhsBatch by decide), dif_pos (show (0 : Fin S41x512.rank) ∈ dot_S64x512_S41x512_S64x41_1_1_0_0_n_n.rhsNonContracting by decide)]
  rfl

/-- The 64×512 by 41×512 product contracted over the second axis of both operands, into a zero accumulator:
    entry (r, i) is the sum over k of the left operand at (r, k) times the right operand at (i, k). -/
theorem dotCls_apply (X : FVec Ideal S64x512 .bf16) (Wt : FVec Ideal S41x512 .bf16) (r : Fin 64) (i : Fin 41) :
    matmul dot_S64x512_S41x512_S64x41_1_1_0_0_n_n none X Wt (constant S64x41 .f32 0x00000000#32) (ix2 r i)
      = ∑ k : Fin 512, X (ix2 r k) * Wt (ix2 i k) := by
  simp only [matmul]
  rw [Ideal.matmul_constant_zero_apply, ← Equiv.sum_comp (contrEquiv1 dot_S64x512_S41x512_S64x41_1_1_0_0_n_n 512 rfl rfl).symm]
  refine Finset.sum_congr rfl fun k _ => ?_
  have hk := contrEquiv1_symm_val dot_S64x512_S41x512_S64x41_1_1_0_0_n_n 512 rfl rfl k
  have el : dot_S64x512_S41x512_S64x41_1_1_0_0_n_n.lhsIdx (ix2 r i) ((contrEquiv1 dot_S64x512_S41x512_S64x41_1_1_0_0_n_n 512 rfl rfl).symm k) = ix2 r k := funext fun a => Fin.ext (by
    match a with
    | ⟨0, _⟩ => exact dotCls_lhs0 _ _
    | ⟨1, _⟩ => exact (dot_S64x512_S41x512_S64x41_1_1_0_0_n_n.lhsIdx_val_of_single rfl _ _).trans hk)
  have er : dot_S64x512_S41x512_S64x41_1_1_0_0_n_n.rhsIdx (ix2 r i) ((contrEquiv1 dot_S64x512_S41x512_S64x41_1_1_0_0_n_n 512 rfl rfl).symm k) = ix2 i k := funext fun a => Fin.ext (by
    match a with
    | ⟨0, _⟩ => exact dotCls_rhs0 _ _
    | ⟨1, _⟩ => exact (dot_S64x512_S41x512_S64x41_1_1_0_0_n_n.rhsIdx_val_of_single rfl _ _).trans hk)
  rw [el, er]

end Cert.TileDots

end
-- ==== Proof.LibBands.lean ====
/-
  Arrays laid side by side, read at an entry.

  Joining four R×C matrices along their columns gives an R×T matrix (T = 4·C) whose column g·C + q is column q of the
  g-th piece; joining four vectors of length C end to end gives a vector whose entry g·C + q is entry q of the g-th
  piece; joining an R×C₁ matrix and an R×C₂ matrix along their columns gives a matrix whose first C₁ columns are the
  first piece's and whose column C₁ + q is column q of the second. Nothing is computed: each entry of the result IS one
  entry of one piece.
-/
import Idealize.ShloMosaic.Lib.Pipeline.Value
import Idealize.ShloMosaic.Lib.ValueIdx

noncomputable section

namespace Cert.Lib.Bands

open Idealize.ShloMosaic Idealize.ShloMosaic.ValueIdx

variable {α : Type}

/-- Picking the g-th of four values after applying a function to each is applying it to the g-th. -/
theorem pick_map {β γ : Type} (f : β → γ) (a b c d : β) (g : Fin 4) : ![f a, f b, f c, f d] g = f (![a, b, c, d] g) := by
  fin_cases g <;> rfl

/-- Four R×C matrices side by side: entry (r, g·C + q) of the join is entry (r, q) of piece g. -/
theorem four_bands_apply {R C T : ℕ} (y0 y1 y2 y3 : (⟨2, ![R, C]⟩ : Shape).Idx → α)
    (h : Shape.Concatenates [⟨2, ![R, C]⟩, ⟨2, ![R, C]⟩, ⟨2, ![R, C]⟩, ⟨2, ![R, C]⟩] ⟨2, ![R, T]⟩ 1)
    (g : Fin 4) (r : Fin R) (q : Fin C) (J : Fin T) (hJ : J.val = g.val * C + q.val) :
    concatenate ⟨2, ![R, T]⟩ 1 [⟨⟨2, ![R, C]⟩, y0⟩, ⟨⟨2, ![R, C]⟩, y1⟩, ⟨⟨2, ![R, C]⟩, y2⟩, ⟨⟨2, ![R, C]⟩, y3⟩] h (ix2 r J)
      = (![y0, y1, y2, y3] g) (ix2 r q) := by
  have hoff : ∀ b : Fin 2, b.cast (rfl : (2 : ℕ) = 2) ≠ (1 : Fin 2) → ((ix2 r q) b).val = ((ix2 r J) (b.cast rfl)).val := fun b hb => by
    match b with
    | ⟨0, _⟩ => rfl
    | ⟨1, _⟩ => exact absurd rfl hb
  match g with
  | ⟨0, _⟩ =>
    exact concatenate_apply_piece (t := ⟨2, ![R, T]⟩) (1 : Fin 2) [⟨⟨2, ![R, C]⟩, y0⟩, ⟨⟨2, ![R, C]⟩, y1⟩, ⟨⟨2, ![R, C]⟩, y2⟩, ⟨⟨2, ![R, C]⟩, y3⟩] h (ix2 r J) 0 (show 0 < 4 by omega) ⟨2, ![R, C]⟩ y0 rfl rfl 0 rfl (ix2 r q) hoff
      (by show 0 + q.val = J.val; rw [hJ]; show 0 + q.val = 0 * C + q.val; omega)
  | ⟨1, _⟩ =>
    exact concatenate_apply_piece (t := ⟨2, ![R, T]⟩) (1 : Fin 2) [⟨⟨2, ![R, C]⟩, y0⟩, ⟨⟨2, ![R, C]⟩, y1⟩, ⟨⟨2, ![R, C]⟩, y2⟩, ⟨⟨2, ![R, C]⟩, y3⟩] h (ix2 r J) 1 (show 1 < 4 by omega) ⟨2, ![R, C]⟩ y1 rfl rfl (C + 0) rfl (ix2 r q) hoff
      (by show C + 0 + q.val = J.val; rw [hJ]; show C + 0 + q.val = 1 * C + q.val; omega)
  | ⟨2, _⟩ =>
    exact concatenate_apply_piece (t := ⟨2, ![R, T]⟩) (1 : Fin 2) [⟨⟨2, ![R, C]⟩, y0⟩, ⟨⟨2, ![R, C]⟩, y1⟩, ⟨⟨2, ![R, C]⟩, y2⟩, ⟨⟨2, ![R, C]⟩, y3⟩] h (ix2 r J) 2 (show 2 < 4 by omega) ⟨2, ![R, C]⟩ y2 rfl rfl (C + (C + 0)) rfl (ix2 r q) hoff
      (by show C + (C + 0) + q.val = J.val; rw [hJ]; show C + (C + 0) + q.val = 2 * C + q.val; omega)
  | ⟨3, _⟩ =>
    exact concatenate_apply_piece (t := ⟨2, ![R, T]⟩) (1 : Fin 2) [⟨⟨2, ![R, C]⟩, y0⟩, ⟨⟨2, ![R, C]⟩, y1⟩, ⟨⟨2, ![R, C]⟩, y2⟩, ⟨⟨2, ![R, C]⟩, y3⟩] h (ix2 r J) 3 (show 3 < 4 by omega) ⟨2, ![R, C]⟩ y3 rfl rfl (C + (C + (C + 0))) rfl (ix2 r q) hoff
      (by show C + (C + (C + 0)) + q.val = J.val; rw [hJ]; show C + (C + (C + 0)) + q.val = 3 * C + q.val; omega)

/-- Four vectors of length C end to end: entry g·C + q of the join is entry q of piece g. -/
theorem four_segments_apply {C T : ℕ} (y0 y1 y2 y3 : (⟨1, ![C]⟩ : Shape).Idx → α)
    (h : Shape.Concatenates [⟨1, ![C]⟩, ⟨1, ![C]⟩, ⟨1, ![C]⟩, ⟨1, ![C]⟩] ⟨1, ![T]⟩ 0)
    (g : Fin 4) (q : Fin C) (J : Fin T) (hJ : J.val = g.val * C + q.val) :
    concatenate ⟨1, ![T]⟩ 0 [⟨⟨1, ![C]⟩, y0⟩, ⟨⟨1, ![C]⟩, y1⟩, ⟨⟨1, ![C]⟩, y2⟩, ⟨⟨1, ![C]⟩, y3⟩] h (ix1 J)
      = (![y0, y1, y2, y3] g) (ix1 q) := by
  have hoff : ∀ b : Fin 1, b.cast (rfl : (1 : ℕ) = 1) ≠ (0 : Fin 1) → ((ix1 q) b).val = ((ix1 J) (b.cast rfl)).val := fun b hb => by
    match b with
    | ⟨0, _⟩ => exact absurd rfl hb
  match g with
  | ⟨0, _⟩ =>
    exact concatenate_apply_piece (t := ⟨1, ![T]⟩) (0 : Fin 1) [⟨⟨1, ![C]⟩, y0⟩, ⟨⟨1, ![C]⟩, y1⟩, ⟨⟨1, ![C]⟩, y2⟩, ⟨⟨1, ![C]⟩, y3⟩] h (ix1 J) 0 (show 0 < 4 by omega) ⟨1, ![C]⟩ y0 rfl rfl 0 rfl (ix1 q) hoff
      (by show 0 + q.val = J.val; rw [hJ]; show 0 + q.val = 0 * C + q.val; omega)
  | ⟨1, _⟩ =>
    exact concatenate_apply_piece (t := ⟨1, ![T]⟩) (0 : Fin 1) [⟨⟨1, ![C]⟩, y0⟩, ⟨⟨1, ![C]⟩, y1⟩, ⟨⟨1, ![C]⟩, y2⟩, ⟨⟨1, ![C]⟩, y3⟩] h (ix1 J) 1 (show 1 < 4 by omega) ⟨1, ![C]⟩ y1 rfl rfl (C + 0) rfl (ix1 q) hoff
      (by show C + 0 + q.val = J.val; rw [hJ]; show C + 0 + q.val = 1 * C + q.val; omega)
  | ⟨2, _⟩ =>
    exact concatenate_apply_piece (t := ⟨1, ![T]⟩) (0 : Fin 1) [⟨⟨1, ![C]⟩, y0⟩, ⟨⟨1, ![C]⟩, y1⟩, ⟨⟨1, ![C]⟩, y2⟩, ⟨⟨1, ![C]⟩, y3⟩] h (ix1 J) 2 (show 2 < 4 by omega) ⟨1, ![C]⟩ y2 rfl rfl (C + (C + 0)) rfl (ix1 q) hoff
      (by show C + (C + 0) + q.val = J.val; rw [hJ]; show C + (C + 0) + q.val = 2 * C + q.val; omega)
  | ⟨3, _⟩ =>
    exact concatenate_apply_piece (t := ⟨1, ![T]⟩) (0 : Fin 1) [⟨⟨1, ![C]⟩, y0⟩, ⟨⟨1, ![C]⟩, y1⟩, ⟨⟨1, ![C]⟩, y2⟩, ⟨⟨1, ![C]⟩, y3⟩] h (ix1 J) 3 (show 3 < 4 by omega) ⟨1, ![C]⟩ y3 rfl rfl (C + (C + (C + 0))) rfl (ix1 q) hoff
      (by show C + (C + (C + 0)) + q.val = J.val; rw [hJ]; show C + (C + (C + 0)) + q.val = 3 * C + q.val; omega)

/-- Two matrices side by side, at a column of the first: entry (r, q) of the join, q < C₁, is entry (r, q) of the
    first piece. -/
theorem two_bands_left {R C₁ C₂ T : ℕ} (y0 : (⟨2, ![R, C₁]⟩ : Shape).Idx → α) (y1 : (⟨2, ![R, C₂]⟩ : Shape).Idx → α)
    (h : Shape.Concatenates [⟨2, ![R, C₁]⟩, ⟨2, ![R, C₂]⟩] ⟨2, ![R, T]⟩ 1)
    (r : Fin R) (q : Fin C₁) (J : Fin T) (hJ : J.val = q.val) :
    concatenate ⟨2, ![R, T]⟩ 1 [⟨⟨2, ![R, C₁]⟩, y0⟩, ⟨⟨2, ![R, C₂]⟩, y1⟩] h (ix2 r J) = y0 (ix2 r q) :=
  concatenate_pair_apply_left (t := ⟨2, ![R, T]⟩) (1 : Fin 2) y0 y1 h (ix2 r J) rfl (ix2 r q) fun b => by
    match b with
    | ⟨0, _⟩ => rfl
    | ⟨1, _⟩ => exact hJ.symm

/-- Two matrices side by side, at a column of the second: entry (r, C₁ + q) of the join is entry (r, q) of the second
    piece. -/
theorem two_bands_right {R C₁ C₂ T : ℕ} (y0 : (⟨2, ![R, C₁]⟩ : Shape).Idx → α) (y1 : (⟨2, ![R, C₂]⟩ : Shape).Idx → α)
    (h : Shape.Concatenates [⟨2, ![R, C₁]⟩, ⟨2, ![R, C₂]⟩] ⟨2, ![R, T]⟩ 1)
    (r : Fin R) (q : Fin C₂) (J : Fin T) (hJ : J.val = C₁ + q.val) :
    concatenate ⟨2, ![R, T]⟩ 1 [⟨⟨2, ![R, C₁]⟩, y0⟩, ⟨⟨2, ![R, C₂]⟩, y1⟩] h (ix2 r J) = y1 (ix2 r q) :=
  concatenate_pair_apply_right (t := ⟨2, ![R, T]⟩) (1 : Fin 2) y0 y1 h (ix2 r J) rfl rfl (ix2 r q)
    (fun b hb => by
      match b with
      | ⟨0, _⟩ => rfl
      | ⟨1, _⟩ => exact absurd rfl hb)
    (by show q.val + C₁ = J.val; omega)

end Cert.Lib.Bands

end
-- ==== Proof.LibFlatRows.lean ====
/-
  A batch of B rows per item, laid out flat and back, and summed over the B rows, read at an entry.

  An [A, B, C] array (A items, B rows each, C entries per row) cast to the flat [A·B, C] array reads, at row
  r = p·B + s, the row s of item p; the flat array cast back to [A, B, C] reads, at (p, s, ·), the flat row p·B + s
  (row-major order on both sides). On the extended reals the sum over the middle axis of an [A, B, C] array
  (accumulator 0) read at (p, f) is the sum over s of the entries (p, s, f). Generic in A, B, C.
-/
import Idealize.ShloMosaic.PureOps.Ideal.Laws
import Idealize.ShloMosaic.Lib.ValueIdx
import Idealize.ShloMosaic.Lib.Pipeline.Value

noncomputable section

namespace Cert.Lib.FlatRows

open Idealize.ShloMosaic Idealize.ShloMosaic.ValueIdx
open scoped BigOperators

/-- The flat [R, C] view of an [A, B, C] array at row r = p·B + s is row s of item p. -/
theorem flatten_apply {α : Type} {A B C R : ℕ} (x : (⟨3, ![A, B, C]⟩ : Shape).Idx → α)
    (h : (⟨3, ![A, B, C]⟩ : Shape).ShapeCasts ⟨2, ![R, C]⟩) (p : Fin A) (s : Fin B) (k : Fin C) (r : Fin R)
    (hr : r.val = p.val * B + s.val) :
    shapeCast ⟨2, ![R, C]⟩ x h (ix2 r k) = x (ix3 p s k) :=
  shapeCast_apply x h _ _ (by
    rw [Shape.rowMajor_val_three, Shape.rowMajor_val_two]
    show (p.val * B + s.val) * C + k.val = r.val * C + k.val
    rw [hr])

/-- The [A, B, C] view of a flat [R, C] array at (p, s, k) is the flat row r = p·B + s at k. -/
theorem unflatten_apply {α : Type} {A B C R : ℕ} (x : (⟨2, ![R, C]⟩ : Shape).Idx → α)
    (h : (⟨2, ![R, C]⟩ : Shape).ShapeCasts ⟨3, ![A, B, C]⟩) (p : Fin A) (s : Fin B) (k : Fin C) (r : Fin R)
    (hr : r.val = p.val * B + s.val) :
    shapeCast ⟨3, ![A, B, C]⟩ x h (ix3 p s k) = x (ix2 r k) :=
  shapeCast_apply x h _ _ (by
    rw [Shape.rowMajor_val_three, Shape.rowMajor_val_two]
    show r.val * C + k.val = (p.val * B + s.val) * C + k.val
    rw [hr])

/-- The sum over the middle axis at (p, f): the sum over s of the entries (p, s, f). -/
theorem midSum_apply {A B C : ℕ} (v : FVec Ideal ⟨3, ![A, B, C]⟩ .f32)
    (hred : (⟨3, ![A, B, C]⟩ : Shape).Reduces [1] ⟨2, ![A, C]⟩) (p : Fin A) (f : Fin C) :
    multiReduction .add [1] ⟨2, ![A, C]⟩ v 0x00000000#32 hred (.inl rfl) rfl (ix2 p f) = ∑ s : Fin B, v (ix3 p s f) :=
  (Ideal.multiReduction_add_single v _ hred _ _ (ix2 p f)).trans
    (Finset.sum_congr rfl fun s _ => congrArg v (funext fun a => Fin.ext (by
      match a with
      | ⟨0, _⟩ => rfl
      | ⟨1, _⟩ => rfl
      | ⟨2, _⟩ => rfl)))

end Cert.Lib.FlatRows

end
-- ==== Proof.TileLayer1.lean ====
/-
  The tile's first layer, read at an entry.

  A tile holds 64 seed nodes. Its first stage works on the 640 = 64·10 neighbour rows laid out flat (row p·10 + s is
  neighbour s of the tile's node p): each flat row is pushed through the self transform, the matching row of
  neighbour-of-neighbour means through the neighbour transform, the two 256-vectors are joined and rectified. Read at
  (p·10 + s, j) this is the network's first layer at neighbour s of node p. Beside it the tile takes the mean over s
  of the ten neighbour rows of node p, and the product of the node's own row with the self parameters (its bias is
  added by the next stage).
-/
import proofs.«163782_j69475390980336_2_alg».proof.Proof.Gen.KernelIdeal.Skeleton
import proofs.«163782_j69475390980336_2_alg».proof.Proof.NodeNet
import proofs.«163782_j69475390980336_2_alg».proof.Proof.TileDots
import proofs.«163782_j69475390980336_2_alg».proof.Proof.LibBands
import proofs.«163782_j69475390980336_2_alg».proof.Proof.LibFlatRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.TileLayer1

open Cert.KernelIdeal Cert.KernelIdeal.Gen Idealize.ShloMosaic Idealize.ShloMosaic.ValueIdx Cert.NodeNet

/-- Flat row p·10 + s of the tile: neighbour s of the tile's node p. -/
def tileRow (p : Fin 64) (s : Fin 10) : Fin 640 := ⟨p.val * 10 + s.val, by have := p.isLt; have := s.isLt; omega⟩

/-- A vector laid out as one row and repeated down R rows reads, at (r, i), the vector at i. -/
theorem rowRepeat_apply {α : Type} {R B : ℕ} (v : (⟨1, ![B]⟩ : Shape).Idx → α) (h1 : (⟨1, ![B]⟩ : Shape).ShapeCasts ⟨2, ![1, B]⟩)
    (h2 : (⟨2, ![1, B]⟩ : Shape).Broadcasts ⟨2, ![R, B]⟩) (r : Fin R) (i : Fin B) :
    broadcastTo ⟨2, ![R, B]⟩ (shapeCast ⟨2, ![1, B]⟩ v h1) h2 (ix2 r i) = v (ix1 i) := by
  rw [broadcastTo_1b_ab_apply, shapeCast_a_1a_apply]

/-- The flat first stage at row r = p·10 + s: the first layer at neighbour s of node p. -/
theorem flatLayer_apply (v2 v4 : Vec Ideal S64x10x602 .f32) (v8 : Vec Ideal S256x602 .f32) (v11 : Vec Ideal S256 .f32)
    (v17 : Vec Ideal S256x602 .f32) (v20 : Vec Ideal S256 .f32)
    (p : Fin 64) (s : Fin 10) (r : Fin 640) (hr : r.val = p.val * 10 + s.val) (j : Fin 512) :
    k0_pay3 (F := Ideal) v2 v4 v8 v11 v17 v20 (ix2 r j)
      = layer (fun i k => v8 (ix2 i k)) (fun i k => v17 (ix2 i k)) (fun i => v11 (ix1 i)) (fun i => v20 (ix1 i))
          (fun k => v2 (ix3 p s k)) (fun k => v4 (ix3 p s k)) j := by
  unfold k0_pay3 k0_pay2 layer
  dsimp only
  rw [maximumf_apply, broadcast_apply]
  refine congrArg (max · _) ?_
  by_cases hj : j.val < 256
  · rw [joined_left _ _ j ⟨j.val, hj⟩ rfl, Cert.Lib.Bands.two_bands_left _ _ _ r ⟨j.val, hj⟩ j rfl,
      addf_apply, Cert.TileDots.dot640_apply, rowRepeat_apply]
    unfold affine
    refine congrArg (· + _) (Finset.sum_congr rfl fun k _ => ?_)
    rw [truncf_apply, truncf_apply, Cert.Lib.FlatRows.flatten_apply _ _ p s k r hr, shapeCast_self]
  · have hj' : j.val - 256 < 256 := by have := j.isLt; omega
    rw [joined_right _ _ j ⟨j.val - 256, hj'⟩ (by show j.val = 256 + (j.val - 256); omega),
      Cert.Lib.Bands.two_bands_right _ _ _ r ⟨j.val - 256, hj'⟩ j (by show j.val = 256 + (j.val - 256); omega),
      addf_apply, Cert.TileDots.dot640_apply, rowRepeat_apply]
    unfold affine
    refine congrArg (· + _) (Finset.sum_congr rfl fun k _ => ?_)
    rw [truncf_apply, truncf_apply, Cert.Lib.FlatRows.flatten_apply _ _ p s k r hr, shapeCast_self]

/-- The mean over its ten neighbours of node p's neighbour rows, at feature f. -/
theorem neighbourMean_apply (v2 : Vec Ideal S64x10x602 .f32) (p : Fin 64) (f : Fin 602) :
    k0_pay4 (F := Ideal) v2 (ix2 p f) = mean10 fun s => v2 (ix3 p s f) := by
  unfold k0_pay4 k0_pay2 mean10
  dsimp only
  rw [divf_apply, broadcast_apply, Cert.Lib.FlatRows.midSum_apply, shapeCast_self]
  rfl

/-- The node's own row against the self parameters, before the bias. -/
theorem selfProduct_apply (v0 : Vec Ideal S64x602 .f32) (v31 : Vec Ideal S256x602 .f32) (p : Fin 64) (i : Fin 256) :
    k0_pay5 (F := Ideal) v0 v31 (ix2 p i) = ∑ k : Fin 602, v0 (ix2 p k) * v31 (ix2 i k) := by
  unfold k0_pay5
  rw [Cert.TileDots.dot64_apply]
  refine Finset.sum_congr rfl fun k _ => ?_
  rw [truncf_apply, truncf_apply, shapeCast_self]

end Cert.TileLayer1

end
-- ==== Proof.LibRows.lean ====
/-
  Row-wise reductions and the keepdims layout steps of a kernel body, read at an entry on the extended reals: a lane
  sum and a lane maximum of an [R, D] array at row p are the sum and the maximum (folded from the accumulator) over the
  row's D entries; a vector of length a cast to a column [a, 1] keeps its entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.Rows

open Idealize.ShloMosaic Idealize.ShloMosaic.ValueIdx
open scoped BigOperators

/-- An `[a]` array cast to a column `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The lane sum of row `p`: the sum of the row's entries. -/
theorem laneSum_apply {R D : ℕ} (v : FVec Ideal ⟨2, ![R, D]⟩ .f32) (hred : (⟨2, ![R, D]⟩ : Shape).Reduces [1] ⟨1, ![R]⟩)
    (p : Fin R) :
    multiReduction .add [1] ⟨1, ![R]⟩ v 0x00000000#32 hred (.inl rfl) rfl (ix1 p) = ∑ q : Fin D, v (ix2 p q) :=
  (Ideal.multiReduction_add_single v _ hred _ _ (ix1 p)).trans
    (Finset.sum_congr rfl fun q _ => congrArg v (funext fun a => Fin.ext (by
      match a with
      | ⟨0, _⟩ => rfl
      | ⟨1, _⟩ => rfl)))

/-- The lane maximum of row `p`: the maximum of the row's entries, folded from −∞. -/
theorem laneMax_apply {R D : ℕ} (v : FVec Ideal ⟨2, ![R, D]⟩ .f32) (hred : (⟨2, ![R, D]⟩ : Shape).Reduces [1] ⟨1, ![R]⟩)
    (p : Fin R) :
    multiReduction .maximumf [1] ⟨1, ![R]⟩ v 0xFF800000#32 hred (.inl rfl) rfl (ix1 p)
      = (Finset.univ : Finset (Fin D)).fold max (Ideal.ofBits .f32 0xFF800000#32) (fun q => v (ix2 p q)) :=
  (Ideal.multiReduction_maximumf_single v _ hred _ _ (ix1 p)).trans
    (congrArg (Finset.fold max _ · Finset.univ) (funext fun q => congrArg v (funext fun a => Fin.ext (by
      match a with
      | ⟨0, _⟩ => rfl
      | ⟨1, _⟩ => rfl))))

end Cert.Lib.Rows

end
-- ==== Proof.LibColumnBroadcast.lean ====
/-
  One column broadcast over many: an [a, 1] array broadcast to [a, b] reads, at (p, c), the operand's row p.
  (The row form, [1, b] to [a, b], is the library's; this is the same statement for the other axis.)
-/
import Idealize.ShloMosaic.Lib.Pipeline.Value
import Idealize.ShloMosaic.Lib.ValueIdx

namespace Cert.Lib.ColumnBroadcast

open Idealize.ShloMosaic Idealize.ShloMosaic.ValueIdx

variable {α : Type}

/-- An `[a, 1]` array broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast
-- ==== Proof.TileLayer2.lean ====
/-
  The tile's second layer, layer-norm statistics and class scores, read at an entry.

  From the first stage's outputs the tile forms, for each of its 64 nodes p: the rectified join of the node's self
  product plus bias with the neighbour transform of the neighbours' mean (the first layer at the node itself), the mean
  over s of the ten flat first-layer rows p·10 + s, the second layer joining the two transforms of those, the mean of
  that 512-vector, the sum of its squared deviations, and finally the class scores of its layer norm. Each is read
  here at node p as the network's function of the node's own rows; the parameters are the sixteen parameter blocks,
  which the tile sees whole.
-/
import proofs.«163782_j69475390980336_2_alg».proof.Proof.Gen.KernelIdeal.Skeleton
import proofs.«163782_j69475390980336_2_alg».proof.Proof.NodeNet
import proofs.«163782_j69475390980336_2_alg».proof.Proof.TileDots
import proofs.«163782_j69475390980336_2_alg».proof.Proof.TileLayer1
import proofs.«163782_j69475390980336_2_alg».proof.Proof.LibBands
import proofs.«163782_j69475390980336_2_alg».proof.Proof.LibFlatRows
import proofs.«163782_j69475390980336_2_alg».proof.Proof.LibRows
import proofs.«163782_j69475390980336_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.TileLayer2

open Cert.KernelIdeal Cert.KernelIdeal.Gen Idealize.ShloMosaic Idealize.ShloMosaic.ValueIdx Cert.NodeNet Cert.TileLayer1

section
variable (x0 : Vec Ideal S64x602 .f32) (x1 x2 : Vec Ideal S64x10x602 .f32)
  (x3 : Vec Ideal S256x602 .f32) (x4 : Vec Ideal S256 .f32) (x5 : Vec Ideal S256x602 .f32) (x6 : Vec Ideal S256 .f32)
  (x7 : Vec Ideal S256x602 .f32) (x8 : Vec Ideal S256 .f32) (x9 : Vec Ideal S256x602 .f32) (x10 : Vec Ideal S256 .f32)
  (x11 : Vec Ideal S256x512 .f32) (x12 : Vec Ideal S256 .f32) (x13 : Vec Ideal S256x512 .f32) (x14 : Vec Ideal S256 .f32)
  (x15 x16 : Vec Ideal S512 .f32) (x17 : Vec Ideal S41x512 .f32) (x18 : Vec Ideal S41 .f32)

/-- The parameters as the tile holds them. -/
abbrev W : Weights := weightsOf x3 x4 x5 x6 x7 x8 x9 x10 x11 x12 x13 x14 x15 x16 x17 x18
/-- Node p's own feature row, its neighbours' rows, and the neighbour-of-neighbour means, off the tile's three blocks. -/
abbrev own (p : Fin 64) : Fin 602 → EReal := fun f => x0 (ix2 p f)
abbrev nbr (p : Fin 64) : Fin 10 → Fin 602 → EReal := fun s f => x1 (ix3 p s f)
abbrev nbr2 (p : Fin 64) : Fin 10 → Fin 602 → EReal := fun s f => x2 (ix3 p s f)

/-- The flat first stage at row p·10 + s is the first layer at neighbour s of node p. -/
theorem flat_hidden1 (p : Fin 64) (s : Fin 10) (j : Fin 512) :
    k0_pay3 (F := Ideal) x1 x2 x7 x8 x9 x10 (ix2 (tileRow p s) j)
      = hidden1 (W x3 x4 x5 x6 x7 x8 x9 x10 x11 x12 x13 x14 x15 x16 x17 x18) (nbr x1 p) (nbr2 x2 p) s j :=
  flatLayer_apply x1 x2 x7 x8 x9 x10 p s (tileRow p s) rfl j

/-- The second layer at node p, from the first stage's four outputs as the next stage receives them. -/
theorem secondLayer_apply (p : Fin 64) (v26 : FVec Ideal S640x512 .f32) (v29 : FVec Ideal S64x602 .f32)
    (v33 : FVec Ideal S64x256 .f32) (v35 : FVec Ideal S1x256 .f32)
    (e26 : ∀ (s : Fin 10) (k : Fin 512), v26 (ix2 (tileRow p s) k)
      = hidden1 (W x3 x4 x5 x6 x7 x8 x9 x10 x11 x12 x13 x14 x15 x16 x17 x18) (nbr x1 p) (nbr2 x2 p) s k)
    (e29 : ∀ f : Fin 602, v29 (ix2 p f) = mean10 fun s => nbr x1 p s f)
    (e33 : ∀ i : Fin 256, v33 (ix2 p i) = ∑ k : Fin 602, own x0 p k * x3 (ix2 i k))
    (e35 : ∀ i : Fin 256, v35 (ix2 (0 : Fin 1) i) = x4 (ix1 i))
    (j : Fin 512) :
    k0_pay7 (F := Ideal) v26 v29 v33 v35 x5 x6 x11 x12 x13 x14 (ix2 p j)
      = combined (W x3 x4 x5 x6 x7 x8 x9 x10 x11 x12 x13 x14 x15 x16 x17 x18) (own x0 p) (nbr x1 p) (nbr2 x2 p) j := by
  unfold k0_pay7 combined
  dsimp only
  by_cases hj : j.val < 256
  · rw [joined_left _ _ j ⟨j.val, hj⟩ rfl, Cert.Lib.Bands.two_bands_left _ _ _ p ⟨j.val, hj⟩ j rfl,
      addf_apply, Cert.TileDots.dot64w_apply, rowRepeat_apply]
    unfold affine
    refine congrArg (· + _) (Finset.sum_congr rfl fun k _ => ?_)
    rw [truncf_apply, truncf_apply, maximumf_apply, broadcast_apply]
    refine congrArg (· * _) ?_
    unfold hidden0 layer
    refine congrArg (max · _) ?_
    by_cases hk : k.val < 256
    · rw [joined_left _ _ k ⟨k.val, hk⟩ rfl, Cert.Lib.Bands.two_bands_left _ _ _ p ⟨k.val, hk⟩ k rfl,
        addf_apply, broadcastTo_1b_ab_apply, e33, e35]
      rfl
    · have hk' : k.val - 256 < 256 := by have := k.isLt; omega
      rw [joined_right _ _ k ⟨k.val - 256, hk'⟩ (by show k.val = 256 + (k.val - 256); omega),
        Cert.Lib.Bands.two_bands_right _ _ _ p ⟨k.val - 256, hk'⟩ k (by show k.val = 256 + (k.val - 256); omega),
        addf_apply, Cert.TileDots.dot64_apply, rowRepeat_apply]
      unfold affine
      refine congrArg (· + _) (Finset.sum_congr rfl fun f _ => ?_)
      rw [truncf_apply, truncf_apply, e29]
      rfl
  · have hj' : j.val - 256 < 256 := by have := j.isLt; omega
    rw [joined_right _ _ j ⟨j.val - 256, hj'⟩ (by show j.val = 256 + (j.val - 256); omega),
      Cert.Lib.Bands.two_bands_right _ _ _ p ⟨j.val - 256, hj'⟩ j (by show j.val = 256 + (j.val - 256); omega),
      addf_apply, Cert.TileDots.dot64w_apply, rowRepeat_apply]
    unfold affine
    refine congrArg (· + _) (Finset.sum_congr rfl fun k _ => ?_)
    rw [truncf_apply, truncf_apply, divf_apply, broadcast_apply, Cert.Lib.FlatRows.midSum_apply]
    refine congrArg (· * _) ?_
    unfold pooled1 mean10
    refine congrArg (Ideal.div · _) (Finset.sum_congr rfl fun s _ => ?_)
    rw [Cert.Lib.FlatRows.unflatten_apply _ _ p s k (tileRow p s) rfl, e26]

/-- The mean of node p's second-layer vector. -/
theorem secondMean_apply (p : Fin 64) (v26 : FVec Ideal S640x512 .f32) (v29 : FVec Ideal S64x602 .f32)
    (v33 : FVec Ideal S64x256 .f32) (v35 : FVec Ideal S1x256 .f32)
    (e26 : ∀ (s : Fin 10) (k : Fin 512), v26 (ix2 (tileRow p s) k)
      = hidden1 (W x3 x4 x5 x6 x7 x8 x9 x10 x11 x12 x13 x14 x15 x16 x17 x18) (nbr x1 p) (nbr2 x2 p) s k)
    (e29 : ∀ f : Fin 602, v29 (ix2 p f) = mean10 fun s => nbr x1 p s f)
    (e33 : ∀ i : Fin 256, v33 (ix2 p i) = ∑ k : Fin 602, own x0 p k * x3 (ix2 i k))
    (e35 : ∀ i : Fin 256, v35 (ix2 (0 : Fin 1) i) = x4 (ix1 i))
    (u : Fin 1) :
    k0_pay8 (F := Ideal) v26 v29 v33 v35 x5 x6 x11 x12 x13 x14 (ix2 p u)
      = rowMean (combined (W x3 x4 x5 x6 x7 x8 x9 x10 x11 x12 x13 x14 x15 x16 x17 x18) (own x0 p) (nbr x1 p) (nbr2 x2 p)) := by
  unfold k0_pay8 rowMean
  dsimp only
  rw [divf_apply, broadcast_apply, Cert.Lib.Rows.shapeCast_a_a1_apply, Cert.Lib.Rows.laneSum_apply]
  exact congrArg (Ideal.div · _) (Finset.sum_congr rfl fun j _ =>
    secondLayer_apply x0 x1 x2 x3 x4 x5 x6 x7 x8 x9 x10 x11 x12 x13 x14 x15 x16 x17 x18 p v26 v29 v33 v35 e26 e29 e33 e35 j)

/-- The sum of the squared deviations of node p's second-layer vector from its mean. -/
theorem secondSqDev_apply (p : Fin 64) (v26 : FVec Ideal S640x512 .f32) (v29 : FVec Ideal S64x602 .f32)
    (v33 : FVec Ideal S64x256 .f32) (v35 : FVec Ideal S1x256 .f32)
    (e26 : ∀ (s : Fin 10) (k : Fin 512), v26 (ix2 (tileRow p s) k)
      = hidden1 (W x3 x4 x5 x6 x7 x8 x9 x10 x11 x12 x13 x14 x15 x16 x17 x18) (nbr x1 p) (nbr2 x2 p) s k)
    (e29 : ∀ f : Fin 602, v29 (ix2 p f) = mean10 fun s => nbr x1 p s f)
    (e33 : ∀ i : Fin 256, v33 (ix2 p i) = ∑ k : Fin 602, own x0 p k * x3 (ix2 i k))
    (e35 : ∀ i : Fin 256, v35 (ix2 (0 : Fin 1) i) = x4 (ix1 i)) :
    k0_pay9 (F := Ideal) v26 v29 v33 v35 x5 x6 x11 x12 x13 x14 (ix1 p)
      = sqDev (combined (W x3 x4 x5 x6 x7 x8 x9 x10 x11 x12 x13 x14 x15 x16 x17 x18) (own x0 p) (nbr x1 p) (nbr2 x2 p)) := by
  unfold k0_pay9 sqDev
  dsimp only
  rw [Cert.Lib.Rows.laneSum_apply]
  refine Finset.sum_congr rfl fun j _ => ?_
  rw [mulf_apply, subf_apply, Cert.Lib.ColumnBroadcast.broadcastTo_a1_ab_apply,
    secondLayer_apply x0 x1 x2 x3 x4 x5 x6 x7 x8 x9 x10 x11 x12 x13 x14 x15 x16 x17 x18 p v26 v29 v33 v35 e26 e29 e33 e35 j,
    secondMean_apply x0 x1 x2 x3 x4 x5 x6 x7 x8 x9 x10 x11 x12 x13 x14 x15 x16 x17 x18 p v26 v29 v33 v35 e26 e29 e33 e35 0]

/-- The class scores of node p from its second-layer vector, that vector's mean and its squared deviations. -/
theorem scores_apply (p : Fin 64) (v69 : FVec Ideal S64x512 .f32) (v73 : FVec Ideal S64x1 .f32) (v77 : FVec Ideal S64 .f32)
    (o : Fin 512 → EReal) (e69 : ∀ j : Fin 512, v69 (ix2 p j) = o j) (e73 : v73 (ix2 p (0 : Fin 1)) = rowMean o)
    (e77 : v77 (ix1 p) = sqDev o) (c : Fin 41) :
    k0_pay1 (F := Ideal) v69 v73 v77 x15 x16 x17 x18 (ix2 p c)
      = affine (normTimes (W x3 x4 x5 x6 x7 x8 x9 x10 x11 x12 x13 x14 x15 x16 x17 x18) o)
          ((W x3 x4 x5 x6 x7 x8 x9 x10 x11 x12 x13 x14 x15 x16 x17 x18).wc c)
          ((W x3 x4 x5 x6 x7 x8 x9 x10 x11 x12 x13 x14 x15 x16 x17 x18).bc c) := by
  unfold k0_pay1
  rw [addf_apply, Cert.TileDots.dotCls_apply, rowRepeat_apply]
  unfold affine
  refine congrArg (· + _) (Finset.sum_congr rfl fun k _ => ?_)
  rw [truncf_apply, truncf_apply, addf_apply, mulf_apply, mulf_apply, subf_apply, rowRepeat_apply, rowRepeat_apply,
    Cert.Lib.ColumnBroadcast.broadcastTo_a1_ab_apply, Cert.Lib.ColumnBroadcast.broadcastTo_a1_ab_apply, e69, e73]
  refine congrArg (· * _) ?_
  unfold normTimes spread
  refine congrArg (fun z => (o k - rowMean o) * z * _ + _) ?_
  show Ideal.rsqrt (Ideal.div (shapeCast S64x1 v77 shapeCasts_S64_S64x1 (ix2 p (0 : Fin 1))) _ + _) = _
  rw [Cert.Lib.Rows.shapeCast_a_a1_apply, e77]
  rfl

end

end Cert.TileLayer2

end
-- ==== Proof.TileRow.lean ====
/-
  What the tile stores, read at an entry: the class scores of its node p.

  The body's one store writes, at (p, c), the classifier applied to the layer norm (product form) of node p's
  second-layer vector; that vector, its mean and its squared deviations are themselves the earlier stages' functions of
  the tile's blocks. Chaining the stages gives the network's row function of node p's own feature row, its ten
  neighbour rows and their ten neighbour-of-neighbour means.
-/
import proofs.«163782_j69475390980336_2_alg».proof.Proof.Gen.KernelIdeal.Skeleton
import proofs.«163782_j69475390980336_2_alg».proof.Proof.NodeNet
import proofs.«163782_j69475390980336_2_alg».proof.Proof.TileLayer1
import proofs.«163782_j69475390980336_2_alg».proof.Proof.TileLayer2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.TileRow

open Cert.KernelIdeal Cert.KernelIdeal.Gen Idealize.ShloMosaic Idealize.ShloMosaic.ValueIdx Cert.NodeNet Cert.TileLayer1 Cert.TileLayer2

variable (x0 : Vec Ideal S64x602 .f32) (x1 x2 : Vec Ideal S64x10x602 .f32)
  (x3 : Vec Ideal S256x602 .f32) (x4 : Vec Ideal S256 .f32) (x5 : Vec Ideal S256x602 .f32) (x6 : Vec Ideal S256 .f32)
  (x7 : Vec Ideal S256x602 .f32) (x8 : Vec Ideal S256 .f32) (x9 : Vec Ideal S256x602 .f32) (x10 : Vec Ideal S256 .f32)
  (x11 : Vec Ideal S256x512 .f32) (x12 : Vec Ideal S256 .f32) (x13 : Vec Ideal S256x512 .f32) (x14 : Vec Ideal S256 .f32)
  (x15 x16 : Vec Ideal S512 .f32) (x17 : Vec Ideal S41x512 .f32) (x18 : Vec Ideal S41 .f32)

/-- The self bias of the seed nodes' first layer, as the later stage receives it: a [1, 256] row. -/
theorem selfBias_apply (i : Fin 256) : k0_pay6 (F := Ideal) x4 (ix2 (0 : Fin 1) i) = x4 (ix1 i) := by
  unfold k0_pay6
  rw [shapeCast_a_1a_apply]

/-- The stored value at (p, c) is the class score c of node p. -/
theorem stored_apply (p : Fin 64) (c : Fin 41) :
    k0_pay1 (F := Ideal)
        (k0_pay7 (F := Ideal) (k0_pay3 (F := Ideal) x1 x2 x7 x8 x9 x10) (k0_pay4 (F := Ideal) x1) (k0_pay5 (F := Ideal) x0 x3) (k0_pay6 (F := Ideal) x4) x5 x6 x11 x12 x13 x14)
        (k0_pay8 (F := Ideal) (k0_pay3 (F := Ideal) x1 x2 x7 x8 x9 x10) (k0_pay4 (F := Ideal) x1) (k0_pay5 (F := Ideal) x0 x3) (k0_pay6 (F := Ideal) x4) x5 x6 x11 x12 x13 x14)
        (k0_pay9 (F := Ideal) (k0_pay3 (F := Ideal) x1 x2 x7 x8 x9 x10) (k0_pay4 (F := Ideal) x1) (k0_pay5 (F := Ideal) x0 x3) (k0_pay6 (F := Ideal) x4) x5 x6 x11 x12 x13 x14)
        x15 x16 x17 x18 (ix2 p c)
      = logitsTimes (W x3 x4 x5 x6 x7 x8 x9 x10 x11 x12 x13 x14 x15 x16 x17 x18) (own x0 p) (nbr x1 p) (nbr2 x2 p) c :=
  scores_apply x3 x4 x5 x6 x7 x8 x9 x10 x11 x12 x13 x14 x15 x16 x17 x18 p _ _ _
    (combined (W x3 x4 x5 x6 x7 x8 x9 x10 x11 x12 x13 x14 x15 x16 x17 x18) (own x0 p) (nbr x1 p) (nbr2 x2 p))
    (fun j => secondLayer_apply x0 x1 x2 x3 x4 x5 x6 x7 x8 x9 x10 x11 x12 x13 x14 x15 x16 x17 x18 p _ _ _ _
      (flat_hidden1 x1 x2 x3 x4 x5 x6 x7 x8 x9 x10 x11 x12 x13 x14 x15 x16 x17 x18 p) (neighbourMean_apply x1 p) (selfProduct_apply x0 x3 p) (selfBias_apply x4) j)
    (secondMean_apply x0 x1 x2 x3 x4 x5 x6 x7 x8 x9 x10 x11 x12 x13 x14 x15 x16 x17 x18 p _ _ _ _
      (flat_hidden1 x1 x2 x3 x4 x5 x6 x7 x8 x9 x10 x11 x12 x13 x14 x15 x16 x17 x18 p) (neighbourMean_apply x1 p) (selfProduct_apply x0 x3 p) (selfBias_apply x4) 0)
    (secondSqDev_apply x0 x1 x2 x3 x4 x5 x6 x7 x8 x9 x10 x11 x12 x13 x14 x15 x16 x17 x18 p _ _ _ _
      (flat_hidden1 x1 x2 x3 x4 x5 x6 x7 x8 x9 x10 x11 x12 x13 x14 x15 x16 x17 x18 p) (neighbourMean_apply x1 p) (selfProduct_apply x0 x3 p) (selfBias_apply x4))
    c

end Cert.TileRow

end
-- ==== Proof.TileIndex.lean ====
/-
  Where each grid point's blocks sit.

  The grid has sixteen points. Point t stages row block t of the three per-node feature arrays and of the result
  (blocks of 64 rows), and block 0 — the whole array — of each of the sixteen parameter arrays. These are facts about
  the sixteen values of the printed index maps, decided point by point.
-/
import proofs.«163782_j69475390980336_2_alg».proof.Proof.Gen.KernelIdeal.Value
import Idealize.ShloMosaic.Lib.ValueIdx

noncomputable section

namespace Cert.TileIndex

open Cert.KernelIdeal Cert.KernelIdeal.Gen Idealize.ShloMosaic Idealize.ShloMosaic.TcCoe Idealize.SL.Sem Idealize.ShloMosaic.ValueIdx

/-- The three per-node windows move with the result's row block; the result's column block is 0. -/
theorem idxRows : ∀ t : Fin cfg0.N, win0_0.index t (0 : Fin 2) = win0_19.index t (0 : Fin 2) ∧ win0_0.index t (1 : Fin 2) = 0
    ∧ win0_1.index t (0 : Fin 3) = win0_19.index t (0 : Fin 2) ∧ win0_1.index t (1 : Fin 3) = 0 ∧ win0_1.index t (2 : Fin 3) = 0
    ∧ win0_2.index t (0 : Fin 3) = win0_19.index t (0 : Fin 2) ∧ win0_2.index t (1 : Fin 3) = 0 ∧ win0_2.index t (2 : Fin 3) = 0
    ∧ win0_19.index t (0 : Fin 2) ≤ 15 ∧ win0_19.index t (1 : Fin 2) = 0 :=
  (by decide +kernel : ∀ t : Fin grid0.N, _)

/-- Every one of the sixteen row blocks is some point's. -/
theorem idx_onto : ∀ q : Fin 16, ∃ t : Fin cfg0.N, win0_19.index t (0 : Fin 2) = q.val :=
  (by decide +kernel : ∀ q : Fin 16, ∃ t : Fin grid0.N, win0_19.index t (0 : Fin 2) = q.val)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 1) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 1) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 1) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 1) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 1) = 0 :=
  (by decide +kernel : ∀ t : Fin grid0.N, _)

theorem idx13 : ∀ t : Fin cfg0.N, win0_13.index t (0 : Fin 2) = 0 ∧ win0_13.index t (1 : Fin 2) = 0 :=
  (by decide +kernel : ∀ t : Fin grid0.N, _)

theorem idx14 : ∀ t : Fin cfg0.N, win0_14.index t (0 : Fin 1) = 0 :=
  (by decide +kernel : ∀ t : Fin grid0.N, _)

theorem idx15 : ∀ t : Fin cfg0.N, win0_15.index t (0 : Fin 1) = 0 :=
  (by decide +kernel : ∀ t : Fin grid0.N, _)

theorem idx16 : ∀ t : Fin cfg0.N, win0_16.index t (0 : Fin 1) = 0 :=
  (by decide +kernel : ∀ t : Fin grid0.N, _)

theorem idx17 : ∀ t : Fin cfg0.N, win0_17.index t (0 : Fin 2) = 0 ∧ win0_17.index t (1 : Fin 2) = 0 :=
  (by decide +kernel : ∀ t : Fin grid0.N, _)

theorem idx18 : ∀ t : Fin cfg0.N, win0_18.index t (0 : Fin 1) = 0 :=
  (by decide +kernel : ∀ t : Fin grid0.N, _)

end Cert.TileIndex

end
-- ==== Proof.TileParamsA.lean ====
/-
  The parameter blocks a tile sees are the whole parameter arrays (the first-layer parameters).

  Each parameter array is staged as a single block that is the whole array, at every grid point: reading the block at
  an index reads the array at the same index.
-/
import proofs.«163782_j69475390980336_2_alg».proof.Proof.Gen.KernelIdeal.Value
import proofs.«163782_j69475390980336_2_alg».proof.Proof.TileIndex
import Idealize.ShloMosaic.Lib.ValueIdx
import Idealize.ShloMosaic.Lib.Pipeline.Value

noncomputable section

namespace Cert.TileParamsA

open Cert.KernelIdeal Cert.KernelIdeal.Gen Idealize.ShloMosaic Idealize.ShloMosaic.TcCoe Idealize.SL.Sem Idealize.ShloMosaic.ValueIdx

open Cert.TileIndex

variable (m : (ℓ : Loc nD τ sig) → Buf (Elt Ideal) ℓ)

/-- Window 3 is one whole block at every point: the tile sees the whole parameter array. -/
theorem whole3 (c : Dev nD) (t : Fin cfg0.N) : (iblk m c 3 t : S256x602.Idx → EReal) = V m c main_arg5 := by
  funext y
  show V m c main_arg5 (((cfg0.win 3).blk t).view.emb y) = V m c main_arg5 y
  have h : ((cfg0.win 3).blk t).view.emb y = y := by
    obtain ⟨f0, f1⟩ := idx3 t
    funext a; apply Fin.ext
    match a with
    | ⟨0, _⟩ => show win0_3.index t (0 : Fin 2) * 256 + 1 * (y 0).val = (y 0).val; omega
    | ⟨1, _⟩ => show win0_3.index t (1 : Fin 2) * 602 + 1 * (y 1).val = (y 1).val; omega
  rw [h]

/-- Window 4 is one whole block at every point: the tile sees the whole parameter array. -/
theorem whole4 (c : Dev nD) (t : Fin cfg0.N) : (iblk m c 4 t : S256.Idx → EReal) = V m c main_arg6 := by
  funext y
  show V m c main_arg6 (((cfg0.win 4).blk t).view.emb y) = V m c main_arg6 y
  have h : ((cfg0.win 4).blk t).view.emb y = y := by
    have f0 := idx4 t
    funext a; apply Fin.ext
    match a with
    | ⟨0, _⟩ => show win0_4.index t (0 : Fin 1) * 256 + 1 * (y 0).val = (y 0).val; omega
  rw [h]

/-- Window 5 is one whole block at every point: the tile sees the whole parameter array. -/
theorem whole5 (c : Dev nD) (t : Fin cfg0.N) : (iblk m c 5 t : S256x602.Idx → EReal) = V m c main_arg7 := by
  funext y
  show V m c main_arg7 (((cfg0.win 5).blk t).view.emb y) = V m c main_arg7 y
  have h : ((cfg0.win 5).blk t).view.emb y = y := by
    obtain ⟨f0, f1⟩ := idx5 t
    funext a; apply Fin.ext
    match a with
    | ⟨0, _⟩ => show win0_5.index t (0 : Fin 2) * 256 + 1 * (y 0).val = (y 0).val; omega
    | ⟨1, _⟩ => show win0_5.index t (1 : Fin 2) * 602 + 1 * (y 1).val = (y 1).val; omega
  rw [h]

/-- Window 6 is one whole block at every point: the tile sees the whole parameter array. -/
theorem whole6 (c : Dev nD) (t : Fin cfg0.N) : (iblk m c 6 t : S256.Idx → EReal) = V m c main_arg8 := by
  funext y
  show V m c main_arg8 (((cfg0.win 6).blk t).view.emb y) = V m c main_arg8 y
  have h : ((cfg0.win 6).blk t).view.emb y = y := by
    have f0 := idx6 t
    funext a; apply Fin.ext
    match a with
    | ⟨0, _⟩ => show win0_6.index t (0 : Fin 1) * 256 + 1 * (y 0).val = (y 0).val; omega
  rw [h]

/-- Window 7 is one whole block at every point: the tile sees the whole parameter array. -/
theorem whole7 (c : Dev nD) (t : Fin cfg0.N) : (iblk m c 7 t : S256x602.Idx → EReal) = V m c main_arg9 := by
  funext y
  show V m c main_arg9 (((cfg0.win 7).blk t).view.emb y) = V m c main_arg9 y
  have h : ((cfg0.win 7).blk t).view.emb y = y := by
    obtain ⟨f0, f1⟩ := idx7 t
    funext a; apply Fin.ext
    match a with
    | ⟨0, _⟩ => show win0_7.index t (0 : Fin 2) * 256 + 1 * (y 0).val = (y 0).val; omega
    | ⟨1, _⟩ => show win0_7.index t (1 : Fin 2) * 602 + 1 * (y 1).val = (y 1).val; omega
  rw [h]

/-- Window 8 is one whole block at every point: the tile sees the whole parameter array. -/
theorem whole8 (c : Dev nD) (t : Fin cfg0.N) : (iblk m c 8 t : S256.Idx → EReal) = V m c main_arg10 := by
  funext y
  show V m c main_arg10 (((cfg0.win 8).blk t).view.emb y) = V m c main_arg10 y
  have h : ((cfg0.win 8).blk t).view.emb y = y := by
    have f0 := idx8 t
    funext a; apply Fin.ext
    match a with
    | ⟨0, _⟩ => show win0_8.index t (0 : Fin 1) * 256 + 1 * (y 0).val = (y 0).val; omega
  rw [h]

/-- Window 9 is one whole block at every point: the tile sees the whole parameter array. -/
theorem whole9 (c : Dev nD) (t : Fin cfg0.N) : (iblk m c 9 t : S256x602.Idx → EReal) = V m c main_arg11 := by
  funext y
  show V m c main_arg11 (((cfg0.win 9).blk t).view.emb y) = V m c main_arg11 y
  have h : ((cfg0.win 9).blk t).view.emb y = y := by
    obtain ⟨f0, f1⟩ := idx9 t
    funext a; apply Fin.ext
    match a with
    | ⟨0, _⟩ => show win0_9.index t (0 : Fin 2) * 256 + 1 * (y 0).val = (y 0).val; omega
    | ⟨1, _⟩ => show win0_9.index t (1 : Fin 2) * 602 + 1 * (y 1).val = (y 1).val; omega
  rw [h]

/-- Window 10 is one whole block at every point: the tile sees the whole parameter array. -/
theorem whole10 (c : Dev nD) (t : Fin cfg0.N) : (iblk m c 10 t : S256.Idx → EReal) = V m c main_arg12 := by
  funext y
  show V m c main_arg12 (((cfg0.win 10).blk t).view.emb y) = V m c main_arg12 y
  have h : ((cfg0.win 10).blk t).view.emb y = y := by
    have f0 := idx10 t
    funext a; apply Fin.ext
    match a with
    | ⟨0, _⟩ => show win0_10.index t (0 : Fin 1) * 256 + 1 * (y 0).val = (y 0).val; omega
  rw [h]

end Cert.TileParamsA

end
-- ==== Proof.TileParamsB.lean ====
/-
  The parameter blocks a tile sees are the whole parameter arrays (the second-layer, layer-norm and classifier parameters).

  Each parameter array is staged as a single block that is the whole array, at every grid point: reading the block at
  an index reads the array at the same index.
-/
import proofs.«163782_j69475390980336_2_alg».proof.Proof.Gen.KernelIdeal.Value
import proofs.«163782_j69475390980336_2_alg».proof.Proof.TileIndex
import Idealize.ShloMosaic.Lib.ValueIdx
import Idealize.ShloMosaic.Lib.Pipeline.Value

noncomputable section

namespace Cert.TileParamsB

open Cert.KernelIdeal Cert.KernelIdeal.Gen Idealize.ShloMosaic Idealize.ShloMosaic.TcCoe Idealize.SL.Sem Idealize.ShloMosaic.ValueIdx

open Cert.TileIndex

variable (m : (ℓ : Loc nD τ sig) → Buf (Elt Ideal) ℓ)

/-- Window 11 is one whole block at every point: the tile sees the whole parameter array. -/
theorem whole11 (c : Dev nD) (t : Fin cfg0.N) : (iblk m c 11 t : S256x512.Idx → EReal) = V m c main_arg13 := by
  funext y
  show V m c main_arg13 (((cfg0.win 11).blk t).view.emb y) = V m c main_arg13 y
  have h : ((cfg0.win 11).blk t).view.emb y = y := by
    obtain ⟨f0, f1⟩ := idx11 t
    funext a; apply Fin.ext
    match a with
    | ⟨0, _⟩ => show win0_11.index t (0 : Fin 2) * 256 + 1 * (y 0).val = (y 0).val; omega
    | ⟨1, _⟩ => show win0_11.index t (1 : Fin 2) * 512 + 1 * (y 1).val = (y 1).val; omega
  rw [h]

/-- Window 12 is one whole block at every point: the tile sees the whole parameter array. -/
theorem whole12 (c : Dev nD) (t : Fin cfg0.N) : (iblk m c 12 t : S256.Idx → EReal) = V m c main_arg14 := by
  funext y
  show V m c main_arg14 (((cfg0.win 12).blk t).view.emb y) = V m c main_arg14 y
  have h : ((cfg0.win 12).blk t).view.emb y = y := by
    have f0 := idx12 t
    funext a; apply Fin.ext
    match a with
    | ⟨0, _⟩ => show win0_12.index t (0 : Fin 1) * 256 + 1 * (y 0).val = (y 0).val; omega
  rw [h]

/-- Window 13 is one whole block at every point: the tile sees the whole parameter array. -/
theorem whole13 (c : Dev nD) (t : Fin cfg0.N) : (iblk m c 13 t : S256x512.Idx → EReal) = V m c main_arg15 := by
  funext y
  show V m c main_arg15 (((cfg0.win 13).blk t).view.emb y) = V m c main_arg15 y
  have h : ((cfg0.win 13).blk t).view.emb y = y := by
    obtain ⟨f0, f1⟩ := idx13 t
    funext a; apply Fin.ext
    match a with
    | ⟨0, _⟩ => show win0_13.index t (0 : Fin 2) * 256 + 1 * (y 0).val = (y 0).val; omega
    | ⟨1, _⟩ => show win0_13.index t (1 : Fin 2) * 512 + 1 * (y 1).val = (y 1).val; omega
  rw [h]

/-- Window 14 is one whole block at every point: the tile sees the whole parameter array. -/
theorem whole14 (c : Dev nD) (t : Fin cfg0.N) : (iblk m c 14 t : S256.Idx → EReal) = V m c main_arg16 := by
  funext y
  show V m c main_arg16 (((cfg0.win 14).blk t).view.emb y) = V m c main_arg16 y
  have h : ((cfg0.win 14).blk t).view.emb y = y := by
    have f0 := idx14 t
    funext a; apply Fin.ext
    match a with
    | ⟨0, _⟩ => show win0_14.index t (0 : Fin 1) * 256 + 1 * (y 0).val = (y 0).val; omega
  rw [h]

/-- Window 15 is one whole block at every point: the tile sees the whole parameter array. -/
theorem whole15 (c : Dev nD) (t : Fin cfg0.N) : (iblk m c 15 t : S512.Idx → EReal) = V m c main_arg17 := by
  funext y
  show V m c main_arg17 (((cfg0.win 15).blk t).view.emb y) = V m c main_arg17 y
  have h : ((cfg0.win 15).blk t).view.emb y = y := by
    have f0 := idx15 t
    funext a; apply Fin.ext
    match a with
    | ⟨0, _⟩ => show win0_15.index t (0 : Fin 1) * 512 + 1 * (y 0).val = (y 0).val; omega
  rw [h]

/-- Window 16 is one whole block at every point: the tile sees the whole parameter array. -/
theorem whole16 (c : Dev nD) (t : Fin cfg0.N) : (iblk m c 16 t : S512.Idx → EReal) = V m c main_arg18 := by
  funext y
  show V m c main_arg18 (((cfg0.win 16).blk t).view.emb y) = V m c main_arg18 y
  have h : ((cfg0.win 16).blk t).view.emb y = y := by
    have f0 := idx16 t
    funext a; apply Fin.ext
    match a with
    | ⟨0, _⟩ => show win0_16.index t (0 : Fin 1) * 512 + 1 * (y 0).val = (y 0).val; omega
  rw [h]

/-- Window 17 is one whole block at every point: the tile sees the whole parameter array. -/
theorem whole17 (c : Dev nD) (t : Fin cfg0.N) : (iblk m c 17 t : S41x512.Idx → EReal) = V m c main_arg19 := by
  funext y
  show V m c main_arg19 (((cfg0.win 17).blk t).view.emb y) = V m c main_arg19 y
  have h : ((cfg0.win 17).blk t).view.emb y = y := by
    obtain ⟨f0, f1⟩ := idx17 t
    funext a; apply Fin.ext
    match a with
    | ⟨0, _⟩ => show win0_17.index t (0 : Fin 2) * 41 + 1 * (y 0).val = (y 0).val; omega
    | ⟨1, _⟩ => show win0_17.index t (1 : Fin 2) * 512 + 1 * (y 1).val = (y 1).val; omega
  rw [h]

/-- Window 18 is one whole block at every point: the tile sees the whole parameter array. -/
theorem whole18 (c : Dev nD) (t : Fin cfg0.N) : (iblk m c 18 t : S41.Idx → EReal) = V m c main_arg20 := by
  funext y
  show V m c main_arg20 (((cfg0.win 18).blk t).view.emb y) = V m c main_arg20 y
  have h : ((cfg0.win 18).blk t).view.emb y = y := by
    have f0 := idx18 t
    funext a; apply Fin.ext
    match a with
    | ⟨0, _⟩ => show win0_18.index t (0 : Fin 1) * 41 + 1 * (y 0).val = (y 0).val; omega
  rw [h]

end Cert.TileParamsB

end
-- ==== Proof.TileRowsBlocks.lean ====
/-
  A tile's per-node blocks are 64 consecutive rows of the per-node arrays.

  At grid point t the seed nodes' feature rows, their neighbours' rows and the neighbour-of-neighbour means are staged
  as row block t: local row p of the block is row 64·t + p of the array, every other coordinate unchanged.
-/
import proofs.«163782_j69475390980336_2_alg».proof.Proof.Gen.KernelIdeal.Value
import proofs.«163782_j69475390980336_2_alg».proof.Proof.TileIndex
import Idealize.ShloMosaic.Lib.ValueIdx
import Idealize.ShloMosaic.Lib.Pipeline.Value

noncomputable section

namespace Cert.TileRowsBlocks

open Cert.KernelIdeal Cert.KernelIdeal.Gen Idealize.ShloMosaic Idealize.ShloMosaic.TcCoe Idealize.SL.Sem Idealize.ShloMosaic.ValueIdx

open Cert.TileIndex

variable (m : (ℓ : Loc nD τ sig) → Buf (Elt Ideal) ℓ)

/-- Local row p of the seed nodes' block at point t is global row 64·t + p. -/
theorem ownBlock_apply (c : Dev nD) (t : Fin cfg0.N) (p : Fin 64) (f : Fin 602) (b : Fin 1024)
    (hb : b.val = win0_19.index t (0 : Fin 2) * 64 + p.val) :
    iblk m c 0 t (ix2 p f) = V m c main_v38 (ix2 b f) := by
  show V m c main_v38 (((cfg0.win 0).blk t).view.emb (ix2 p f)) = V m c main_v38 (ix2 b f)
  have h : ((cfg0.win 0).blk t).view.emb (ix2 p f) = ix2 b f := by
    obtain ⟨r0, r1, r2, r3, r4, r5, r6, r7, r8, r9⟩ := idxRows t
    funext a; apply Fin.ext
    match a with
    | ⟨0, _⟩ => show win0_0.index t (0 : Fin 2) * 64 + 1 * p.val = b.val; omega
    | ⟨1, _⟩ => show win0_0.index t (1 : Fin 2) * 602 + 1 * f.val = f.val; omega
  rw [h]

/-- The same for the neighbours' rows … -/
theorem nbrBlock_apply (c : Dev nD) (t : Fin cfg0.N) (p : Fin 64) (s : Fin 10) (f : Fin 602) (b : Fin 1024)
    (hb : b.val = win0_19.index t (0 : Fin 2) * 64 + p.val) :
    iblk m c 1 t (ix3 p s f) = V m c main_v45 (ix3 b s f) := by
  show V m c main_v45 (((cfg0.win 1).blk t).view.emb (ix3 p s f)) = V m c main_v45 (ix3 b s f)
  have h : ((cfg0.win 1).blk t).view.emb (ix3 p s f) = ix3 b s f := by
    obtain ⟨r0, r1, r2, r3, r4, r5, r6, r7, r8, r9⟩ := idxRows t
    funext a; apply Fin.ext
    match a with
    | ⟨0, _⟩ => show win0_1.index t (0 : Fin 3) * 64 + 1 * p.val = b.val; omega
    | ⟨1, _⟩ => show win0_1.index t (1 : Fin 3) * 10 + 1 * s.val = s.val; omega
    | ⟨2, _⟩ => show win0_1.index t (2 : Fin 3) * 602 + 1 * f.val = f.val; omega
  rw [h]

/-- … and for the neighbour-of-neighbour means. -/
theorem nbr2Block_apply (c : Dev nD) (t : Fin cfg0.N) (p : Fin 64) (s : Fin 10) (f : Fin 602) (b : Fin 1024)
    (hb : b.val = win0_19.index t (0 : Fin 2) * 64 + p.val) :
    iblk m c 2 t (ix3 p s f) = V m c main_v55 (ix3 b s f) := by
  show V m c main_v55 (((cfg0.win 2).blk t).view.emb (ix3 p s f)) = V m c main_v55 (ix3 b s f)
  have h : ((cfg0.win 2).blk t).view.emb (ix3 p s f) = ix3 b s f := by
    obtain ⟨r0, r1, r2, r3, r4, r5, r6, r7, r8, r9⟩ := idxRows t
    funext a; apply Fin.ext
    match a with
    | ⟨0, _⟩ => show win0_2.index t (0 : Fin 3) * 64 + 1 * p.val = b.val; omega
    | ⟨1, _⟩ => show win0_2.index t (1 : Fin 3) * 10 + 1 * s.val = s.val; omega
    | ⟨2, _⟩ => show win0_2.index t (2 : Fin 3) * 602 + 1 * f.val = f.val; omega
  rw [h]

end Cert.TileRowsBlocks

end
-- ==== Proof.TileValue.lean ====
/-
  From the tiles to the whole result: the kernel's result array, one row per seed node.

  The grid has sixteen points; point t stages rows 64·t … 64·t + 63 of the three per-node feature arrays (the seed
  nodes' own rows, their ten neighbours' rows, the ten neighbour-of-neighbour means) and the sixteen parameter arrays
  whole, and writes back rows 64·t … 64·t + 63 of the [1024, 41] result. What it writes at local row p is the row
  function of node 64·t + p, so the blocks are the restrictions of one whole-array function — at (b, c) the class score
  c of seed node b — and the sixteen blocks cover the array.
-/
import proofs.«163782_j69475390980336_2_alg».proof.Proof.Gen.KernelIdeal.Value
import proofs.«163782_j69475390980336_2_alg».proof.Proof.NodeNet
import proofs.«163782_j69475390980336_2_alg».proof.Proof.TileRow
import proofs.«163782_j69475390980336_2_alg».proof.Proof.TileIndex
import proofs.«163782_j69475390980336_2_alg».proof.Proof.TileParamsA
import proofs.«163782_j69475390980336_2_alg».proof.Proof.TileParamsB
import proofs.«163782_j69475390980336_2_alg».proof.Proof.TileRowsBlocks
import Idealize.ShloMosaic.Lib.ValueIdx
import Idealize.ShloMosaic.Lib.Pipeline.Value

noncomputable section

open scoped BigOperators

namespace Cert.TileValue

open Cert.KernelIdeal Cert.KernelIdeal.Gen Idealize.ShloMosaic Idealize.ShloMosaic.TcCoe Idealize.SL.Sem Idealize.ShloMosaic.ValueIdx Cert.NodeNet
open Idealize.ShloMosaic.Pipeline (Dat)
open Cert.TileIndex Cert.TileParamsA Cert.TileParamsB Cert.TileRowsBlocks

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The whole result: at (b, c) the class score c of seed node b, from the arrays as the region finds them. -/
def scores (c : Dev nD) : S1024x41.Idx → EReal := fun i =>
  logitsTimes (weightsOf (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20))
    (fun f => V m c main_v38 (ix2 (⟨(i 0).val, (i 0).isLt⟩ : Fin 1024) f))
    (fun s f => V m c main_v45 (ix3 (⟨(i 0).val, (i 0).isLt⟩ : Fin 1024) s f))
    (fun s f => V m c main_v55 (ix3 (⟨(i 0).val, (i 0).isLt⟩ : Fin 1024) s f))
    (⟨(i 1).val, (i 1).isLt⟩ : Fin 41)

/-- The row function depends only on its five arguments. -/
theorem logitsTimes_congr {W W' : Weights} {a a' : Fin 602 → EReal} {h h' n n' : Fin 10 → Fin 602 → EReal} {q q' : Fin 41}
    (eW : W = W') (ea : a = a') (eh : h = h') (en : n = n') (eq : q = q') :
    logitsTimes W a h n q = logitsTimes W' a' h' n' q' := by
  subst eW ea eh en eq; rfl

/-- What point t writes back is block t of the whole result. -/
theorem flushed_eq (c : Dev nD) (t : Fin cfg0.N) :
    (dats m 0 c).flushed 19 t = ((cfg0.win 19).blk t).view.read (Elt Ideal) (scores m c) := by
  rw [Cert.KernelIdeal.Value.flushed19]
  unfold out0_19
  rw [View.canon_unit_zero hz2]
  simp only [View.ld_unit_zero (S := S64x602) hz2, View.ld_unit_zero (S := S64x10x602) hz3,
    View.ld_unit_zero (S := S256x602) hz2, View.ld_unit_zero (S := S256) hz1, View.ld_unit_zero (S := S256x512) hz2,
    View.ld_unit_zero (S := S512) hz1, View.ld_unit_zero (S := S41x512) hz2, View.ld_unit_zero (S := S41) hz1]
  funext y
  obtain ⟨p, q, rfl⟩ : ∃ (p : Fin 64) (q : Fin 41), y = ix2 p q := ⟨y 0, y 1, eq_ix2 y⟩
  show k0_pay1 (F := Ideal) (k0_pay7 (F := Ideal) (k0_pay3 (F := Ideal) (iblk m c 1 t) (iblk m c 2 t) (iblk m c 7 t) (iblk m c 8 t) (iblk m c 9 t) (iblk m c 10 t)) (k0_pay4 (F := Ideal) (iblk m c 1 t)) (k0_pay5 (F := Ideal) (iblk m c 0 t) (iblk m c 3 t)) (k0_pay6 (F := Ideal) (iblk m c 4 t)) (iblk m c 5 t) (iblk m c 6 t) (iblk m c 11 t) (iblk m c 12 t) (iblk m c 13 t) (iblk m c 14 t)) (k0_pay8 (F := Ideal) (k0_pay3 (F := Ideal) (iblk m c 1 t) (iblk m c 2 t) (iblk m c 7 t) (iblk m c 8 t) (iblk m c 9 t) (iblk m c 10 t)) (k0_pay4 (F := Ideal) (iblk m c 1 t)) (k0_pay5 (F := Ideal) (iblk m c 0 t) (iblk m c 3 t)) (k0_pay6 (F := Ideal) (iblk m c 4 t)) (iblk m c 5 t) (iblk m c 6 t) (iblk m c 11 t) (iblk m c 12 t) (iblk m c 13 t) (iblk m c 14 t)) (k0_pay9 (F := Ideal) (k0_pay3 (F := Ideal) (iblk m c 1 t) (iblk m c 2 t) (iblk m c 7 t) (iblk m c 8 t) (iblk m c 9 t) (iblk m c 10 t)) (k0_pay4 (F := Ideal) (iblk m c 1 t)) (k0_pay5 (F := Ideal) (iblk m c 0 t) (iblk m c 3 t)) (k0_pay6 (F := Ideal) (iblk m c 4 t)) (iblk m c 5 t) (iblk m c 6 t) (iblk m c 11 t) (iblk m c 12 t) (iblk m c 13 t) (iblk m c 14 t)) (iblk m c 15 t) (iblk m c 16 t) (iblk m c 17 t) (iblk m c 18 t) (ix2 p q)
    = scores m c (((cfg0.win 19).blk t).view.emb (ix2 p q))
  refine (Cert.TileRow.stored_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q).trans ?_
  obtain ⟨r0, r1, r2, r3, r4, r5, r6, r7, r8, r9⟩ := idxRows t
  have h0 : ((((cfg0.win 19).blk t).view.emb (ix2 p q)) 0).val = win0_19.index t (0 : Fin 2) * 64 + p.val := by
    show win0_19.index t (0 : Fin 2) * 64 + 1 * p.val = _; omega
  have h1 : ((((cfg0.win 19).blk t).view.emb (ix2 p q)) 1).val = q.val := by
    show win0_19.index t (1 : Fin 2) * 41 + 1 * q.val = _; omega
  unfold scores
  refine logitsTimes_congr ?_ (funext fun f => ownBlock_apply m c t p f _ h0)
    (funext fun s => funext fun f => nbrBlock_apply m c t p s f _ h0)
    (funext fun s => funext fun f => nbr2Block_apply m c t p s f _ h0) (Fin.ext h1.symm)
  show weightsOf (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) = _
  rw [whole3 m c t, whole4 m c t, whole5 m c t, whole6 m c t, whole7 m c t, whole8 m c t, whole9 m c t, whole10 m c t, whole11 m c t, whole12 m c t, whole13 m c t, whole14 m c t, whole15 m c t, whole16 m c t, whole17 m c t, whole18 m c t]

/-- An index of the result is in point t's block iff its row is among the block's 64 and its column among the 41. -/
theorem mem_blk (t : Fin cfg0.N) (i : S1024x41.Idx) :
    i ∈ ((cfg0.win 19).blk t).view.set ↔ ∀ a : Fin 2, win0_19.index t a * S64x41.size a ≤ (i a).val ∧ (i a).val < win0_19.index t a * S64x41.size a + S64x41.size a := by
  show i ∈ ((View.whole main_v56).slice (win0_19.rect t)).set ↔ _
  rw [View.set_slice_whole, Rect.mem_set_unit]
  exact Iff.rfl

/-- The sixteen blocks cover the result: row r lies in the block of the point whose row block is r / 64. -/
theorem covered (i : S1024x41.Idx) : ∃ t : Fin cfg0.N, (cfg0.win 19).flush t = true ∧ i ∈ ((cfg0.win 19).blk t).view.set := by
  have hi0 : (i 0).val < 1024 := (i 0).isLt
  have hi1 : (i 1).val < 41 := (i 1).isLt
  obtain ⟨t, ht⟩ := idx_onto ⟨(i 0).val / 64, by omega⟩
  have q0 : win0_19.index t (0 : Fin 2) = (i 0).val / 64 := ht
  obtain ⟨r0, r1, r2, r3, r4, r5, r6, r7, r8, r9⟩ := idxRows t
  refine ⟨t, flush0_19 t, ?_⟩
  rw [mem_blk]
  intro a
  match a with
  | ⟨0, _⟩ => show win0_19.index t (0 : Fin 2) * 64 ≤ (i 0).val ∧ (i 0).val < win0_19.index t (0 : Fin 2) * 64 + 64; omega
  | ⟨1, _⟩ => show win0_19.index t (1 : Fin 2) * 41 ≤ (i 1).val ∧ (i 1).val < win0_19.index t (1 : Fin 2) * 41 + 41; omega

/-- The result array after the run is the whole-array function. -/
theorem final (c : Dev nD) : (dats m 0 c).arrAt 19 cfg0.N = scores m c :=
  (dats m 0 c).arrAt_eq_of_cover 19 (scores m c) (fun t _ => flushed_eq m c t) (covered)

end Cert.TileValue

end
-- ==== Proof.LibRowGatherBatched.lean ====
/-
  A gather of whole rows of a table, at a batched list of row numbers.

  The table is an `[N, D]` array and the list an integer array whose last axis has size one: `[A, B, 1]` or
  `[A, B, C, 1]`. The gather takes, for every position of the list, the whole row of the table that the entry
  names: its dimension numbers are offset_dims = [the last result axis], collapsed_slice_dims = [0],
  start_index_map = [0], index_vector_dim = the list's last axis, and slice sizes `[1, D]`. Read at one element,
  the result at `(a, b, j)` (at `(a, b, c, j)`) is the table at `(r, j)`, where `r` is the list's entry at
  `(a, b, 0)` (at `(a, b, c, 0)`) read as a signed integer and clamped into `[0, N − 1]`: a negative entry names
  row `0`, an entry past the end names the last row. That row is `clampRow`.

  Why: on the table's axis 0 the operand index is the clamped start, and nothing else — the axis is collapsed, so
  it has no offset coordinate, and there are no batching axes; on axis 1 the start is `0` (the start index map
  does not name it) and the offset coordinate is the result's last coordinate.
-/
import Idealize.ShloMosaic.PureOps.Ideal
import Idealize.ShloMosaic.Lib.ValueIdx

namespace Cert.Lib.RowGatherBatched

open Idealize.ShloMosaic Idealize.ShloMosaic.ValueIdx

/-- The row of an `N`-row table that a signed word names: the word's value, with a negative value raised to `0`
    and a value past the end lowered to `N − 1`. -/
def clampRow {N w : Nat} (hN : 0 < N) (v : BitVec w) : Fin N := ⟨min v.toInt.toNat (N - 1), by omega⟩

theorem clampRow_val {N w : Nat} (hN : 0 < N) (v : BitVec w) : (clampRow hN v).val = min v.toInt.toNat (N - 1) := rfl

/-! ## A list of shape `[A, B, 1]` -/

/-- The dimension numbers of the row gather at an `[A, B, 1]` list; their conditions `wf` are decided on literal
    shapes. -/
abbrev rows3 (N D A B : Nat)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

/-- The row gather at an `[A, B, 1]` list, read at `(a, b, j)`: the table at the row the entry `(a, b, 0)` names,
    clamped, and column `j`. -/
theorem gather_rows3_apply {α : Type} {N D A B w : Nat} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (j : Fin D) :
    Host.gather (rows3 N D A B wf) x idx (ix3 a b j) = x (ix2 (clampRow hN (idx (ix3 a b (0 : Fin 1)))) j) := by
  unfold Host.gather
  refine congrArg x ?_
  funext r
  refine Fin.ext ?_
  match r with
  | ⟨0, _⟩ =>
    show (rows3 N D A B wf).start (ix3 a b j) idx 0 + (rows3 N D A B wf).batchCoord (ix3 a b j) 0
      + (rows3 N D A B wf).offCoord (ix3 a b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3 N D A B wf).startIndexMap from List.mem_singleton.mpr rfl)]
    have hsi : (rows3 N D A B wf).siIdx (ix3 a b j) ⟨List.idxOf (0 : Fin 2) (rows3 N D A B wf).startIndexMap,
        List.idxOf_lt_length_iff.2 (List.mem_singleton.mpr rfl)⟩ = ix3 a b (0 : Fin 1) := by
      funext q; refine Fin.ext ?_
      match q with
      | ⟨0, _⟩ => rfl
      | ⟨1, _⟩ => rfl
      | ⟨2, _⟩ => rfl
    rw [hsi]
    rfl
  | ⟨1, _⟩ =>
    show (rows3 N D A B wf).start (ix3 a b j) idx 1 + (rows3 N D A B wf).batchCoord (ix3 a b j) 1
      + (rows3 N D A B wf).offCoord (ix3 a b j) 1 = _
    rw [GatherDims.batchCoord_eq_zero _ _ _ List.not_mem_nil]
    unfold GatherDims.start
    rw [dif_neg (show (1 : Fin 2) ∉ (rows3 N D A B wf).startIndexMap from
      fun h => Nat.one_ne_zero (congrArg Fin.val (List.mem_singleton.mp h)))]
    unfold GatherDims.offCoord
    rw [dif_pos ((GatherDims.mem_sKept _ _).mpr
      ⟨fun h => Nat.one_ne_zero (congrArg Fin.val (List.mem_singleton.mp h)), List.not_mem_nil⟩)]
    simp only [Nat.add_zero, Nat.zero_add]
    rfl

/-! ## A list of shape `[A, B, C, 1]` -/

/-- The dimension numbers of the row gather at an `[A, B, C, 1]` list. -/
abbrev rows4 (N D A B C : Nat)
    (wf : GatherDims.WF ⟨2, ![N, D]⟩ ⟨4, ![A, B, C, 1]⟩ ⟨4, ![A, B, C, D]⟩ [3] [0] [] [0] [] 3 ![1, D]) :
    GatherDims ⟨2, ![N, D]⟩ ⟨4, ![A, B, C, 1]⟩ ⟨4, ![A, B, C, D]⟩ where
  offsetDims := [3]
  collapsedSliceDims := [0]
  operandBatchingDims := []
  startIndicesBatchingDims := []
  startIndexMap := [0]
  indexVectorDim := 3
  sliceSizes := ![1, D]
  wf := wf

/-- The row gather at an `[A, B, C, 1]` list, read at `(a, b, c, j)`: the table at the row the entry
    `(a, b, c, 0)` names, clamped, and column `j`. -/
theorem gather_rows4_apply {α : Type} {N D A B C w : Nat} (hN : 0 < N)
    (wf : GatherDims.WF ⟨2, ![N, D]⟩ ⟨4, ![A, B, C, 1]⟩ ⟨4, ![A, B, C, D]⟩ [3] [0] [] [0] [] 3 ![1, D])
    (x : (⟨2, ![N, D]⟩ : Shape).Idx → α) (idx : IVec ⟨4, ![A, B, C, 1]⟩ w)
    (a : Fin A) (b : Fin B) (c : Fin C) (j : Fin D) :
    Host.gather (rows4 N D A B C wf) x idx (ix4 a b c j)
      = x (ix2 (clampRow hN (idx (ix4 a b c (0 : Fin 1)))) j) := by
  unfold Host.gather
  refine congrArg x ?_
  funext r
  refine Fin.ext ?_
  match r with
  | ⟨0, _⟩ =>
    show (rows4 N D A B C wf).start (ix4 a b c j) idx 0 + (rows4 N D A B C wf).batchCoord (ix4 a b c j) 0
      + (rows4 N D A B C wf).offCoord (ix4 a b c j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows4 N D A B C wf).startIndexMap from List.mem_singleton.mpr rfl)]
    have hsi : (rows4 N D A B C wf).siIdx (ix4 a b c j) ⟨List.idxOf (0 : Fin 2) (rows4 N D A B C wf).startIndexMap,
        List.idxOf_lt_length_iff.2 (List.mem_singleton.mpr rfl)⟩ = ix4 a b c (0 : Fin 1) := by
      funext q; refine Fin.ext ?_
      match q with
      | ⟨0, _⟩ => rfl
      | ⟨1, _⟩ => rfl
      | ⟨2, _⟩ => rfl
      | ⟨3, _⟩ => rfl
    rw [hsi]
    rfl
  | ⟨1, _⟩ =>
    show (rows4 N D A B C wf).start (ix4 a b c j) idx 1 + (rows4 N D A B C wf).batchCoord (ix4 a b c j) 1
      + (rows4 N D A B C wf).offCoord (ix4 a b c j) 1 = _
    rw [GatherDims.batchCoord_eq_zero _ _ _ List.not_mem_nil]
    unfold GatherDims.start
    rw [dif_neg (show (1 : Fin 2) ∉ (rows4 N D A B C wf).startIndexMap from
      fun h => Nat.one_ne_zero (congrArg Fin.val (List.mem_singleton.mp h)))]
    unfold GatherDims.offCoord
    rw [dif_pos ((GatherDims.mem_sKept _ _).mpr
      ⟨fun h => Nat.one_ne_zero (congrArg Fin.val (List.mem_singleton.mp h)), List.not_mem_nil⟩)]
    simp only [Nat.add_zero, Nat.zero_add]
    rfl

end Cert.Lib.RowGatherBatched
-- ==== Proof.HostArrays.lean ====
/-
  The three arrays the kernel's one region stages, against the reference's stages.

  Before its region the kernel computes, from the seed nodes `x`, the adjacency table and the feature table,
  three float arrays: the seed nodes' feature rows `features[x]` : [1024, 602]; the feature rows of each seed
  node's ten sampled neighbours `features[hop0]` : [1024, 10, 602]; and, for each of those neighbours, the mean
  over its twenty-five sampled neighbours' feature rows, `mean_k features[hop1[b, s, k]]` : [1024, 10, 602].
  The reference computes the same three things. The first two are, operation by operation, the same terms on
  both sides. The third differs in layout only: both sides build the same [10240, 25] list of row numbers
  (row `b·10 + s` is neighbour `s` of seed node `b`); the reference gathers with it as it is and gets a
  [10240, 602] array of means, the kernel first reshapes it to [1024, 10, 25] and gets a [1024, 10, 602] array.
  A reshape keeps the row-major order, so the kernel's list at `(b, s, k)` is the reference's at
  `(b·10 + s, k)`; each side then normalises the sign of the entry (a negative row number counts from the end
  of the 200000-row table), gathers the row it names (clamped into the table), sums over `k` and divides by 25.
  Entry by entry the two means are therefore the same expression:

    (0 + Σ_k features[clamp (normRow (list (b·10 + s, k))), f]) / 25.
-/
import proofs.«163782_j69475390980336_2_alg».proof.Proof.Gen.KernelIdeal.Frame
import proofs.«163782_j69475390980336_2_alg».proof.Proof.Gen.ReferenceIdeal.Read
import proofs.«163782_j69475390980336_2_alg».proof.Proof.NodeNet
import proofs.«163782_j69475390980336_2_alg».proof.Proof.LibRowGatherBatched
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

noncomputable section

namespace Cert.HostArrays

open Cert.KernelIdeal Cert.KernelIdeal.Gen Idealize.ShloMosaic Idealize.ShloMosaic.TcCoe Idealize.SL.Sem
open Idealize.ShloMosaic.StableHlo Idealize.ShloMosaic.ValueIdx
open Cert.Lib.RowGatherBatched
open Cert.NodeNet (flatRow)
open scoped BigOperators

/-- The sign-normalisation of a row number: a negative word counts from the end of the 200000-row table. -/
def normRow (v : BitVec 32) : BitVec 32 :=
  Scalar.select (IntOp.cmpi .slt v 0#32) (IntOp.addi v 200000#32) v

/-! ## The kernel's side of the neighbour mean -/

/-- The kernel's operations from the reshape of the list to the division, as one function of the feature table
    and of the [10240, 25] list of row numbers. -/
def kMean (x4 : S200000x602.Idx → EReal) (T : S10240x25.Idx → BitVec 32) : S1024x10x602.Idx → EReal :=
  Host.divf (F := Ideal) (φ := .f32)
    (Host.reduceAdd (F := Ideal) (φ := .f32)
      (Host.gather gather_S200000x602_S1024x10x25x1_S1024x10x25x602_3_0_n_n_0_3_1602 x4
        (broadcastInDim S1024x10x25x1 ![0, 1, 2] bcast_S1024x10x25_S1024x10x25x1_0_1_2
          (select
            (cmpi .slt (fun i => shapeCast S1024x10x25 T shapeCasts_S10240x25_S1024x10x25 i)
              (broadcastInDim S1024x10x25 ![] bcast_S_S1024x10x25 (constantI S_ 32 0#32)))
            (addi (fun i => shapeCast S1024x10x25 T shapeCasts_S10240x25_S1024x10x25 i)
              (broadcastInDim S1024x10x25 ![] bcast_S_S1024x10x25 (constantI S_ 32 200000#32)))
            (fun i => shapeCast S1024x10x25 T shapeCasts_S10240x25_S1024x10x25 i))))
      (constant (F := Ideal) S_ .f32 0x00000000#32) reducesTo_S1024x10x25x602_S1024x10x602_d2 h_S_)
    (broadcastInDim S1024x10x602 ![] bcast_S_S1024x10x602 (constant (F := Ideal) S_ .f32 0x41C80000#32))

/-- The sum over the third axis of a [1024, 10, 25, 602] array, read at (b, s, f). -/
theorem sum25_apply (G : S1024x10x25x602.Idx → EReal) (b : Fin 1024) (s : Fin 10) (f : Fin 602) :
    Host.reduceAdd (F := Ideal) (φ := .f32) G (constant (F := Ideal) S_ .f32 0x00000000#32)
        reducesTo_S1024x10x25x602_S1024x10x602_d2 h_S_ (ix3 b s f)
      = Ideal.ofBits .f32 0x00000000#32 + ∑ k : Fin 25, G (ix4 b s k f) := by
  simp only [Host.reduceAdd, Ideal.hostReduceAdd_def]
  rw [Ideal.hostReduceAdd_single reducesTo_S1024x10x25x602_S1024x10x602_d2 (by decide)]
  refine congrArg (_ + ·) (Finset.sum_congr rfl fun k _ => ?_)
  exact congrArg G (funext fun a => Fin.ext (by
    match a with
    | ⟨0, _⟩ => rfl
    | ⟨1, _⟩ => rfl
    | ⟨2, _⟩ => rfl
    | ⟨3, _⟩ => rfl))

/-- The list reshaped to [1024, 10, 25], read at (b, s, k): its entry (b·10 + s, k), the two positions having the
    same place (b·10 + s)·25 + k in row-major order. -/
theorem reshaped_apply (T : S10240x25.Idx → BitVec 32) (b : Fin 1024) (s : Fin 10) (k : Fin 25) :
    shapeCast S1024x10x25 T shapeCasts_S10240x25_S1024x10x25 (ix3 b s k) = T (ix2 (flatRow b s) k) :=
  shapeCast_apply T _ _ _ (by
    rw [Shape.rowMajor_val_two, Shape.rowMajor_val_three]
    rfl)

/-- The kernel's row list at (b, s, k, 0): the normalised entry (b·10 + s, k) of the list. -/
theorem kList_apply (T : S10240x25.Idx → BitVec 32) (b : Fin 1024) (s : Fin 10) (k : Fin 25) :
    broadcastInDim S1024x10x25x1 ![0, 1, 2] bcast_S1024x10x25_S1024x10x25x1_0_1_2
        (select
          (cmpi .slt (fun i => shapeCast S1024x10x25 T shapeCasts_S10240x25_S1024x10x25 i)
            (broadcastInDim S1024x10x25 ![] bcast_S_S1024x10x25 (constantI S_ 32 0#32)))
          (addi (fun i => shapeCast S1024x10x25 T shapeCasts_S10240x25_S1024x10x25 i)
            (broadcastInDim S1024x10x25 ![] bcast_S_S1024x10x25 (constantI S_ 32 200000#32)))
          (fun i => shapeCast S1024x10x25 T shapeCasts_S10240x25_S1024x10x25 i)) (ix4 b s k (0 : Fin 1))
      = normRow (T (ix2 (flatRow b s) k)) := by
  refine (broadcastInDim_apply _ bcast_S1024x10x25_S1024x10x25x1_0_1_2 _ (ix4 b s k (0 : Fin 1)) (ix3 b s k)
    (fun a => match a with
      | ⟨0, _⟩ => by show b.val = if (1024 : Nat) = 1 then 0 else b.val; rw [if_neg (by decide)]
      | ⟨1, _⟩ => by show s.val = if (10 : Nat) = 1 then 0 else s.val; rw [if_neg (by decide)]
      | ⟨2, _⟩ => by show k.val = if (25 : Nat) = 1 then 0 else k.val; rw [if_neg (by decide)])).trans ?_
  show normRow (shapeCast S1024x10x25 T shapeCasts_S10240x25_S1024x10x25 (ix3 b s k)) = _
  rw [reshaped_apply]

/-- The kernel's neighbour mean at (b, s, f): the sum over k of the feature rows the list names, over 25. -/
theorem kMean_apply (x4 : S200000x602.Idx → EReal) (T : S10240x25.Idx → BitVec 32)
    (b : Fin 1024) (s : Fin 10) (f : Fin 602) :
    kMean x4 T (ix3 b s f)
      = Ideal.div (Ideal.ofBits .f32 0x00000000#32
          + ∑ k : Fin 25, x4 (ix2 (clampRow (N := 200000) (by decide) (normRow (T (ix2 (flatRow b s) k)))) f))
          (Ideal.ofBits .f32 0x41C80000#32) := by
  unfold kMean
  refine congrArg₂ Ideal.div ?_ rfl
  rw [sum25_apply]
  refine congrArg (_ + ·) (Finset.sum_congr rfl fun k _ => ?_)
  refine (gather_rows4_apply (N := 200000) (D := 602) (by decide)
    gather_S200000x602_S1024x10x25x1_S1024x10x25x602_3_0_n_n_0_3_1602_wf x4 _ b s k f).trans ?_
  rw [kList_apply]

/-! ## The reference's side of the neighbour mean -/

/-- The reference's operations from the sign-normalisation of the list to the division, as one function of the
    feature table and of the [10240, 25] list of row numbers. -/
def rMean (x4 : Cert.ReferenceIdeal.S200000x602.Idx → EReal) (T : Cert.ReferenceIdeal.S10240x25.Idx → BitVec 32) :
    Cert.ReferenceIdeal.S10240x602.Idx → EReal :=
  Host.divf (F := Ideal) (φ := .f32)
    (Host.reduceAdd (F := Ideal) (φ := .f32)
      (Host.gather Cert.ReferenceIdeal.gather_S200000x602_S10240x25x1_S10240x25x602_2_0_n_n_0_2_1602 x4
        (broadcastInDim Cert.ReferenceIdeal.S10240x25x1 ![0, 1] Cert.ReferenceIdeal.Gen.bcast_S10240x25_S10240x25x1_0_1
          (select
            (cmpi .slt T
              (broadcastInDim Cert.ReferenceIdeal.S10240x25 ![] Cert.ReferenceIdeal.Gen.bcast_S_S10240x25
                (constantI Cert.ReferenceIdeal.S_ 32 0#32)))
            (addi T
              (broadcastInDim Cert.ReferenceIdeal.S10240x25 ![] Cert.ReferenceIdeal.Gen.bcast_S_S10240x25
                (constantI Cert.ReferenceIdeal.S_ 32 200000#32)))
            T)))
      (constant (F := Ideal) Cert.ReferenceIdeal.S_ .f32 0x00000000#32)
      Cert.ReferenceIdeal.Gen.reducesTo_S10240x25x602_S10240x602_d1 Cert.ReferenceIdeal.Gen.h_S_)
    (broadcastInDim Cert.ReferenceIdeal.S10240x602 ![] Cert.ReferenceIdeal.Gen.bcast_S_S10240x602
      (constant (F := Ideal) Cert.ReferenceIdeal.S_ .f32 0x41C80000#32))

/-- The sum over the middle axis of a [10240, 25, 602] array, read at (r, f). -/
theorem rsum25_apply (G : Cert.ReferenceIdeal.S10240x25x602.Idx → EReal) (r : Fin 10240) (f : Fin 602) :
    Host.reduceAdd (F := Ideal) (φ := .f32) G (constant (F := Ideal) Cert.ReferenceIdeal.S_ .f32 0x00000000#32)
        Cert.ReferenceIdeal.Gen.reducesTo_S10240x25x602_S10240x602_d1 Cert.ReferenceIdeal.Gen.h_S_ (ix2 r f)
      = Ideal.ofBits .f32 0x00000000#32 + ∑ k : Fin 25, G (ix3 r k f) := by
  simp only [Host.reduceAdd, Ideal.hostReduceAdd_def]
  rw [Ideal.hostReduceAdd_single Cert.ReferenceIdeal.Gen.reducesTo_S10240x25x602_S10240x602_d1 (by decide)]
  refine congrArg (_ + ·) (Finset.sum_congr rfl fun k _ => ?_)
  exact congrArg G (funext fun a => Fin.ext (by
    match a with
    | ⟨0, _⟩ => rfl
    | ⟨1, _⟩ => rfl
    | ⟨2, _⟩ => rfl))

/-- The reference's row list at (r, k, 0): the normalised entry (r, k) of the list. -/
theorem rList_apply (T : Cert.ReferenceIdeal.S10240x25.Idx → BitVec 32) (r : Fin 10240) (k : Fin 25) :
    broadcastInDim Cert.ReferenceIdeal.S10240x25x1 ![0, 1] Cert.ReferenceIdeal.Gen.bcast_S10240x25_S10240x25x1_0_1
        (select
          (cmpi .slt T
            (broadcastInDim Cert.ReferenceIdeal.S10240x25 ![] Cert.ReferenceIdeal.Gen.bcast_S_S10240x25
              (constantI Cert.ReferenceIdeal.S_ 32 0#32)))
          (addi T
            (broadcastInDim Cert.ReferenceIdeal.S10240x25 ![] Cert.ReferenceIdeal.Gen.bcast_S_S10240x25
              (constantI Cert.ReferenceIdeal.S_ 32 200000#32)))
          T) (ix3 r k (0 : Fin 1))
      = normRow (T (ix2 r k)) :=
  broadcastInDim_apply _ Cert.ReferenceIdeal.Gen.bcast_S10240x25_S10240x25x1_0_1 _ (ix3 r k (0 : Fin 1)) (ix2 r k)
    (fun a => match a with
      | ⟨0, _⟩ => by show r.val = if (10240 : Nat) = 1 then 0 else r.val; rw [if_neg (by decide)]
      | ⟨1, _⟩ => by show k.val = if (25 : Nat) = 1 then 0 else k.val; rw [if_neg (by decide)])

/-- The reference's neighbour mean at (r, f): the sum over k of the feature rows the list names, over 25. -/
theorem rMean_apply (x4 : Cert.ReferenceIdeal.S200000x602.Idx → EReal)
    (T : Cert.ReferenceIdeal.S10240x25.Idx → BitVec 32) (r : Fin 10240) (f : Fin 602) :
    rMean x4 T (ix2 r f)
      = Ideal.div (Ideal.ofBits .f32 0x00000000#32
          + ∑ k : Fin 25, x4 (ix2 (clampRow (N := 200000) (by decide) (normRow (T (ix2 r k)))) f))
          (Ideal.ofBits .f32 0x41C80000#32) := by
  unfold rMean
  refine congrArg₂ Ideal.div ?_ rfl
  rw [rsum25_apply]
  refine congrArg (_ + ·) (Finset.sum_congr rfl fun k _ => ?_)
  refine (gather_rows3_apply (N := 200000) (D := 602) (by decide)
    Cert.ReferenceIdeal.Gen.gather_S200000x602_S10240x25x1_S10240x25x602_2_0_n_n_0_2_1602_wf x4 _ r k f).trans ?_
  rw [rList_apply]

/-! ## The arrays as the region finds them -/

variable (m : (ℓ : Loc nD τ sig) → Buf (Elt Ideal) ℓ) (c : Dev nD)

set_option maxHeartbeats 4000000 in
/-- The seed nodes' feature rows: the same operations, in the same order, on both sides. -/
theorem seed_rows :
    (V m c main_v38 : Cert.KernelIdeal.S1024x602.Idx → EReal)
      = Cert.ReferenceIdeal.Read.val_main_v67 (F := Ideal)
          (m ((c : Thread nD τ).loc main_arg0)) (m ((c : Thread nD τ).loc main_arg4)) := by
  dsimp only [Gen.V, Gen.hostOps0]
  after_results_simp
  rfl

set_option maxHeartbeats 4000000 in
/-- The ten neighbours' feature rows: the same operations, in the same order, on both sides. -/
theorem hop0_rows :
    (V m c main_v45 : Cert.KernelIdeal.S1024x10x602.Idx → EReal)
      = Cert.ReferenceIdeal.Read.val_main_v37 (F := Ideal)
          (m ((c : Thread nD τ).loc main_arg0)) (m ((c : Thread nD τ).loc main_arg1))
          (m ((c : Thread nD τ).loc main_arg2)) (m ((c : Thread nD τ).loc main_arg4)) := by
  dsimp only [Gen.V, Gen.hostOps0]
  after_results_simp
  rfl

set_option maxHeartbeats 4000000 in
/-- The [10240, 25] list of second-hop row numbers: the same operations, in the same order, on both sides. -/
theorem list_eq :
    (V m c main_v30 : Cert.KernelIdeal.S10240x25.Idx → BitVec 32)
      = Cert.ReferenceIdeal.Read.val_main_v30 (F := Ideal)
          (m ((c : Thread nD τ).loc main_arg0)) (m ((c : Thread nD τ).loc main_arg1))
          (m ((c : Thread nD τ).loc main_arg2)) (m ((c : Thread nD τ).loc main_arg3)) := by
  dsimp only [Gen.V, Gen.hostOps0]
  after_results_simp
  rfl

set_option maxHeartbeats 4000000 in
/-- The kernel's third staged array is `kMean` of the feature table and of the list. -/
theorem v55_eq :
    (V m c main_v55 : Cert.KernelIdeal.S1024x10x602.Idx → EReal)
      = kMean (m ((c : Thread nD τ).loc main_arg4)) (V m c main_v30 : Cert.KernelIdeal.S10240x25.Idx → BitVec 32) := by
  dsimp only [Gen.V, Gen.hostOps0]
  after_results_simp
  rfl

/-- The reference's array of neighbour means is `rMean` of the feature table and of the list. -/
theorem ref_mean_eq (x0 : (⟨Cert.ReferenceIdeal.S1024, .i32⟩ : BufTy).Contents (Elt Ideal))
    (x1 : (⟨Cert.ReferenceIdeal.S200000x128, .i32⟩ : BufTy).Contents (Elt Ideal))
    (x2 x3 : (⟨Cert.ReferenceIdeal.S128, .i32⟩ : BufTy).Contents (Elt Ideal))
    (x4 : (⟨Cert.ReferenceIdeal.S200000x602, .f32⟩ : BufTy).Contents (Elt Ideal)) :
    Cert.ReferenceIdeal.Read.val_main_v47 (F := Ideal) x0 x1 x2 x3 x4
      = rMean x4 (Cert.ReferenceIdeal.Read.val_main_v30 (F := Ideal) x0 x1 x2 x3) := rfl

/-- The means of the second-hop feature rows: the kernel's array at (b, s, f) is the reference's at (b·10 + s, f). -/
theorem hop1_mean (b : Fin 1024) (s : Fin 10) (f : Fin 602) :
    (V m c main_v55 : Cert.KernelIdeal.S1024x10x602.Idx → EReal) (ix3 b s f)
      = Cert.ReferenceIdeal.Read.val_main_v47 (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (ix2 (flatRow b s) f) := by
  rw [v55_eq m c, kMean_apply, list_eq m c, ref_mean_eq, rMean_apply]

end Cert.HostArrays

end
-- ==== Proof.RefRow1.lean ====
/-
  The reference's first aggregation layer at the sampled neighbours, read one entry at a time.

  The reference flattens the [1024, 10, 602] array of neighbour features to [10240, 602] (row b·10 + s is neighbour s
  of seed node b), applies the two 602 → 256 linear maps (to the neighbour's own row, and to the mean row of its own
  neighbours), joins the two results along the columns and applies the rectifier. Entry (b·10 + s, j) of the result is
  the per-node specification's `hidden1` at neighbour s, column j. The gathered feature arrays stay opaque: they are
  only ever read at an index.
-/
import proofs.«163782_j69475390980336_2_alg».proof.Proof.Gen.ReferenceIdeal.Read
import proofs.«163782_j69475390980336_2_alg».proof.Proof.NodeNet
import proofs.«163782_j69475390980336_2_alg».proof.Proof.LibBands

noncomputable section

open scoped BigOperators

namespace Cert.RefRow

open Cert.ReferenceIdeal Cert.ReferenceIdeal.Read Cert.NodeNet Idealize.ShloMosaic Idealize.ShloMosaic.ValueIdx

variable (x0 : (⟨S1024, .i32⟩ : BufTy).Contents (Elt Ideal)) (x1 : (⟨S200000x128, .i32⟩ : BufTy).Contents (Elt Ideal)) (x2 x3 : (⟨S128, .i32⟩ : BufTy).Contents (Elt Ideal)) (x4 : (⟨S200000x602, .f32⟩ : BufTy).Contents (Elt Ideal)) (x5 : (⟨S256x602, .f32⟩ : BufTy).Contents (Elt Ideal)) (x6 : (⟨S256, .f32⟩ : BufTy).Contents (Elt Ideal)) (x7 : (⟨S256x602, .f32⟩ : BufTy).Contents (Elt Ideal)) (x8 : (⟨S256, .f32⟩ : BufTy).Contents (Elt Ideal)) (x9 : (⟨S256x602, .f32⟩ : BufTy).Contents (Elt Ideal)) (x10 : (⟨S256, .f32⟩ : BufTy).Contents (Elt Ideal)) (x11 : (⟨S256x602, .f32⟩ : BufTy).Contents (Elt Ideal)) (x12 : (⟨S256, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S256, .f32⟩ : BufTy).Contents (Elt Ideal)) (x17 x18 : (⟨S512, .f32⟩ : BufTy).Contents (Elt Ideal)) (x19 : (⟨S41x512, .f32⟩ : BufTy).Contents (Elt Ideal)) (x20 : (⟨S41, .f32⟩ : BufTy).Contents (Elt Ideal))
/-- Operation %53 at row `r`, column `i`: the dot product of row `r` of %48 with row `i` of the weight matrix, plus the bias at `i`. -/
theorem lin_v53 (r : Fin 10240) (i : Fin 256) :
    val_main_v53 (F := Ideal) x0 x1 x2 x4 x9 x10 (ix2 r i)
      = affine (fun k => val_main_v48 (F := Ideal) x0 x1 x2 x4 (ix2 r k)) (fun k => x9 (ix2 i k)) (x10 (ix1 i)) := by
  have e1 : ∀ k : Fin 602, lidx_main_v50 (ix2 r i) k = ix2 r k := fun k => funext fun a => Fin.ext (by
    match a with
    | ⟨0, _⟩ => rfl
    | ⟨1, _⟩ => rfl)
  have e2 : ∀ k : Fin 602, idx_main_v49 (ridx_main_v50 (ix2 r i) k) = ix2 i k := fun k => funext fun a => Fin.ext (by
    match a with
    | ⟨0, _⟩ => rfl
    | ⟨1, _⟩ => rfl)
  have e3 : idx_main_v51 (idx_main_v52 (ix2 r i)) = ix1 i := funext fun a => Fin.ext (by
    match a with
    | ⟨0, _⟩ => rfl)
  rw [val_main_v53_apply, val_main_v50_apply, val_main_v52_apply, val_main_v51_apply, e3]
  simp only [val_main_v49_apply, e1, e2]
  rfl

/-- Operation %58 at row `r`, column `i`: the dot product of row `r` of %47 with row `i` of the weight matrix, plus the bias at `i`. -/
theorem lin_v58 (r : Fin 10240) (i : Fin 256) :
    val_main_v58 (F := Ideal) x0 x1 x2 x3 x4 x11 x12 (ix2 r i)
      = affine (fun k => val_main_v47 (F := Ideal) x0 x1 x2 x3 x4 (ix2 r k)) (fun k => x11 (ix2 i k)) (x12 (ix1 i)) := by
  have e1 : ∀ k : Fin 602, lidx_main_v55 (ix2 r i) k = ix2 r k := fun k => funext fun a => Fin.ext (by
    match a with
    | ⟨0, _⟩ => rfl
    | ⟨1, _⟩ => rfl)
  have e2 : ∀ k : Fin 602, idx_main_v54 (ridx_main_v55 (ix2 r i) k) = ix2 i k := fun k => funext fun a => Fin.ext (by
    match a with
    | ⟨0, _⟩ => rfl
    | ⟨1, _⟩ => rfl)
  have e3 : idx_main_v56 (idx_main_v57 (ix2 r i)) = ix1 i := funext fun a => Fin.ext (by
    match a with
    | ⟨0, _⟩ => rfl)
  rw [val_main_v58_apply, val_main_v55_apply, val_main_v57_apply, val_main_v56_apply, e3]
  simp only [val_main_v54_apply, e1, e2]
  rfl

/-- The reshape of the [1024, 10, 602] array to [10240, 602] reads, at row b·10 + s, the entry (b, s, ·):
    (b·10 + s)·602 + k is the row-major position of (b, s, k). -/
theorem idx48 (b : Fin 1024) (s : Fin 10) (k : Fin 602) :
    idx_main_v48 (ix2 (flatRow b s) k) = ix3 b s k := by
  have hb := b.isLt
  have hs := s.isLt
  have hk := k.isLt
  exact funext fun a => Fin.ext (by
    match a with
    | ⟨0, _⟩ => show ((b.val * 10 + s.val) * 602 + k.val) / 6020 = b.val; omega
    | ⟨1, _⟩ => show ((b.val * 10 + s.val) * 602 + k.val) / 602 % 10 = s.val; omega
    | ⟨2, _⟩ => show ((b.val * 10 + s.val) * 602 + k.val) % 602 = k.val; omega)

/-- The first layer at neighbour `s` of seed node `b`: entry (b·10 + s, j) of the rectified join. -/
theorem hidden1_row (b : Fin 1024) (s : Fin 10) (j : Fin 512) :
    val_main_v60 (F := Ideal) x0 x1 x2 x3 x4 x9 x10 x11 x12 (ix2 (flatRow b s) j)
      = hidden1 (weightsOf x5 x6 x7 x8 x9 x10 x11 x12 x13 x14 x15 x16 x17 x18 x19 x20)
          (fun s f => val_main_v37 (F := Ideal) x0 x1 x2 x4 (ix3 b s f))
          (fun s f => val_main_v47 (F := Ideal) x0 x1 x2 x3 x4 (ix2 (flatRow b s) f)) s j := by
  rw [val_main_v60_apply, val_main_call0_v0_apply, val_main_call0_cst_apply]
  unfold hidden1 layer val_main_v59
  refine congrArg (max · (Ideal.ofBits .f32 0x00000000#32)) ?_
  by_cases hj : j.val < 256
  · rw [Cert.Lib.Bands.two_bands_left _ _ _ (flatRow b s) ⟨j.val, hj⟩ j rfl, joined_left _ _ j ⟨j.val, hj⟩ rfl, lin_v53]
    simp only [val_main_v48_apply, idx48]
    rfl
  · have hj' : j.val - 256 < 256 := by have := j.isLt; omega
    have hv : j.val = 256 + (⟨j.val - 256, hj'⟩ : Fin 256).val := by show j.val = 256 + (j.val - 256); omega
    rw [Cert.Lib.Bands.two_bands_right _ _ _ (flatRow b s) ⟨j.val - 256, hj'⟩ j hv, joined_right _ _ j ⟨j.val - 256, hj'⟩ hv, lin_v58]
    rfl

end Cert.RefRow

end
-- ==== Proof.RefRow2.lean ====
/-
  The reference's first aggregation layer at the seed nodes, read one entry at a time.

  For seed node b the reference averages the ten neighbours' feature rows (a sum over the middle axis of the
  [1024, 10, 602] array divided by ten), applies the two 602 → 256 linear maps (to the node's own row, and to that mean
  row), joins the two results along the columns and applies the rectifier. Entry (b, j) of the result is the per-node
  specification's `hidden0` at column j. The gathered feature arrays stay opaque: they are only ever read at an index.
-/
import proofs.«163782_j69475390980336_2_alg».proof.Proof.Gen.ReferenceIdeal.Read
import proofs.«163782_j69475390980336_2_alg».proof.Proof.NodeNet
import proofs.«163782_j69475390980336_2_alg».proof.Proof.LibBands

noncomputable section

open scoped BigOperators

namespace Cert.RefRow

open Cert.ReferenceIdeal Cert.ReferenceIdeal.Read Cert.NodeNet Idealize.ShloMosaic Idealize.ShloMosaic.ValueIdx

variable (x0 : (⟨S1024, .i32⟩ : BufTy).Contents (Elt Ideal)) (x1 : (⟨S200000x128, .i32⟩ : BufTy).Contents (Elt Ideal)) (x2 x3 : (⟨S128, .i32⟩ : BufTy).Contents (Elt Ideal)) (x4 : (⟨S200000x602, .f32⟩ : BufTy).Contents (Elt Ideal)) (x5 : (⟨S256x602, .f32⟩ : BufTy).Contents (Elt Ideal)) (x6 : (⟨S256, .f32⟩ : BufTy).Contents (Elt Ideal)) (x7 : (⟨S256x602, .f32⟩ : BufTy).Contents (Elt Ideal)) (x8 : (⟨S256, .f32⟩ : BufTy).Contents (Elt Ideal)) (x9 : (⟨S256x602, .f32⟩ : BufTy).Contents (Elt Ideal)) (x10 : (⟨S256, .f32⟩ : BufTy).Contents (Elt Ideal)) (x11 : (⟨S256x602, .f32⟩ : BufTy).Contents (Elt Ideal)) (x12 : (⟨S256, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S256, .f32⟩ : BufTy).Contents (Elt Ideal)) (x17 x18 : (⟨S512, .f32⟩ : BufTy).Contents (Elt Ideal)) (x19 : (⟨S41x512, .f32⟩ : BufTy).Contents (Elt Ideal)) (x20 : (⟨S41, .f32⟩ : BufTy).Contents (Elt Ideal))
/-- Operation %75 at row `r`, column `i`: the dot product of row `r` of %67 with row `i` of the weight matrix, plus the bias at `i`. -/
theorem lin_v75 (r : Fin 1024) (i : Fin 256) :
    val_main_v75 (F := Ideal) x0 x4 x5 x6 (ix2 r i)
      = affine (fun k => val_main_v67 (F := Ideal) x0 x4 (ix2 r k)) (fun k => x5 (ix2 i k)) (x6 (ix1 i)) := by
  have e1 : ∀ k : Fin 602, lidx_main_v72 (ix2 r i) k = ix2 r k := fun k => funext fun a => Fin.ext (by
    match a with
    | ⟨0, _⟩ => rfl
    | ⟨1, _⟩ => rfl)
  have e2 : ∀ k : Fin 602, idx_main_v71 (ridx_main_v72 (ix2 r i) k) = ix2 i k := fun k => funext fun a => Fin.ext (by
    match a with
    | ⟨0, _⟩ => rfl
    | ⟨1, _⟩ => rfl)
  have e3 : idx_main_v73 (idx_main_v74 (ix2 r i)) = ix1 i := funext fun a => Fin.ext (by
    match a with
    | ⟨0, _⟩ => rfl)
  rw [val_main_v75_apply, val_main_v72_apply, val_main_v74_apply, val_main_v73_apply, e3]
  simp only [val_main_v71_apply, e1, e2]
  rfl

/-- Operation %80 at row `r`, column `i`: the dot product of row `r` of %70 with row `i` of the weight matrix, plus the bias at `i`. -/
theorem lin_v80 (r : Fin 1024) (i : Fin 256) :
    val_main_v80 (F := Ideal) x0 x1 x2 x4 x7 x8 (ix2 r i)
      = affine (fun k => val_main_v70 (F := Ideal) x0 x1 x2 x4 (ix2 r k)) (fun k => x7 (ix2 i k)) (x8 (ix1 i)) := by
  have e1 : ∀ k : Fin 602, lidx_main_v77 (ix2 r i) k = ix2 r k := fun k => funext fun a => Fin.ext (by
    match a with
    | ⟨0, _⟩ => rfl
    | ⟨1, _⟩ => rfl)
  have e2 : ∀ k : Fin 602, idx_main_v76 (ridx_main_v77 (ix2 r i) k) = ix2 i k := fun k => funext fun a => Fin.ext (by
    match a with
    | ⟨0, _⟩ => rfl
    | ⟨1, _⟩ => rfl)
  have e3 : idx_main_v78 (idx_main_v79 (ix2 r i)) = ix1 i := funext fun a => Fin.ext (by
    match a with
    | ⟨0, _⟩ => rfl)
  rw [val_main_v80_apply, val_main_v77_apply, val_main_v79_apply, val_main_v78_apply, e3]
  simp only [val_main_v76_apply, e1, e2]
  rfl

/-- The neighbours' mean feature row: entry (b, f) is the sum over the ten neighbours divided by ten. The sum's
    initial value is the zero word, which is the number 0. -/
theorem mean_v70 (b : Fin 1024) (f : Fin 602) :
    val_main_v70 (F := Ideal) x0 x1 x2 x4 (ix2 b f) = mean10 fun s => val_main_v37 (F := Ideal) x0 x1 x2 x4 (ix3 b s f) := by
  have e : ∀ s : Fin 10, idx_main_v68 (ix2 b f) s = ix3 b s f := fun s => funext fun a => Fin.ext (by
    match a with
    | ⟨0, _⟩ => rfl
    | ⟨1, _⟩ => rfl
    | ⟨2, _⟩ => rfl)
  rw [val_main_v70_apply, val_main_v68_apply, val_main_v69_apply, val_main_cst_15_apply, val_main_cst_14_apply]
  simp only [e, Ideal.hostDivf_def, Ideal.ofBits_def]
  rw [Ideal.ofBits_zero_f32, zero_add]
  rfl

/-- The first layer at seed node `b`: entry (b, j) of the rectified join. -/
theorem hidden0_row (b : Fin 1024) (j : Fin 512) :
    val_main_v82 (F := Ideal) x0 x1 x2 x4 x5 x6 x7 x8 (ix2 b j)
      = hidden0 (weightsOf x5 x6 x7 x8 x9 x10 x11 x12 x13 x14 x15 x16 x17 x18 x19 x20)
          (fun f => val_main_v67 (F := Ideal) x0 x4 (ix2 b f))
          (fun s f => val_main_v37 (F := Ideal) x0 x1 x2 x4 (ix3 b s f)) j := by
  rw [val_main_v82_apply, val_main_call1_v0_apply, val_main_call1_cst_apply]
  unfold hidden0 layer val_main_v81
  refine congrArg (max · (Ideal.ofBits .f32 0x00000000#32)) ?_
  by_cases hj : j.val < 256
  · rw [Cert.Lib.Bands.two_bands_left _ _ _ b ⟨j.val, hj⟩ j rfl, joined_left _ _ j ⟨j.val, hj⟩ rfl, lin_v75]
    rfl
  · have hj' : j.val - 256 < 256 := by have := j.isLt; omega
    have hv : j.val = 256 + (⟨j.val - 256, hj'⟩ : Fin 256).val := by show j.val = 256 + (j.val - 256); omega
    rw [Cert.Lib.Bands.two_bands_right _ _ _ b ⟨j.val - 256, hj'⟩ j hv, joined_right _ _ j ⟨j.val - 256, hj'⟩ hv, lin_v80]
    simp only [mean_v70]
    rfl

end Cert.RefRow

end
-- ==== Proof.RefRow3.lean ====
/-
  The reference's second aggregation layer, read one entry at a time.

  The rectified first-layer outputs at the neighbours, a [10240, 512] array, are reshaped to [1024, 10, 512] (row
  b·10 + s goes to (b, s)) and averaged over the ten neighbours; the second layer applies one 512 → 256 linear map to
  the seed node's own first-layer output and one to that average, and joins the two results along the columns (no
  rectifier). Entry (b, j) of the result is the per-node specification's `combined` at column j.
-/
import proofs.«163782_j69475390980336_2_alg».proof.Proof.RefRow1
import proofs.«163782_j69475390980336_2_alg».proof.Proof.RefRow2

noncomputable section

open scoped BigOperators

namespace Cert.RefRow

open Cert.ReferenceIdeal Cert.ReferenceIdeal.Read Cert.NodeNet Idealize.ShloMosaic Idealize.ShloMosaic.ValueIdx

variable (x0 : (⟨S1024, .i32⟩ : BufTy).Contents (Elt Ideal)) (x1 : (⟨S200000x128, .i32⟩ : BufTy).Contents (Elt Ideal)) (x2 x3 : (⟨S128, .i32⟩ : BufTy).Contents (Elt Ideal)) (x4 : (⟨S200000x602, .f32⟩ : BufTy).Contents (Elt Ideal)) (x5 : (⟨S256x602, .f32⟩ : BufTy).Contents (Elt Ideal)) (x6 : (⟨S256, .f32⟩ : BufTy).Contents (Elt Ideal)) (x7 : (⟨S256x602, .f32⟩ : BufTy).Contents (Elt Ideal)) (x8 : (⟨S256, .f32⟩ : BufTy).Contents (Elt Ideal)) (x9 : (⟨S256x602, .f32⟩ : BufTy).Contents (Elt Ideal)) (x10 : (⟨S256, .f32⟩ : BufTy).Contents (Elt Ideal)) (x11 : (⟨S256x602, .f32⟩ : BufTy).Contents (Elt Ideal)) (x12 : (⟨S256, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S256, .f32⟩ : BufTy).Contents (Elt Ideal)) (x17 x18 : (⟨S512, .f32⟩ : BufTy).Contents (Elt Ideal)) (x19 : (⟨S41x512, .f32⟩ : BufTy).Contents (Elt Ideal)) (x20 : (⟨S41, .f32⟩ : BufTy).Contents (Elt Ideal))
/-- The neighbours' first-layer outputs averaged: entry (b, j) is the sum over the ten neighbours divided by ten.
    Position ((b·10 + s)·512 + j) of the flat array is row b·10 + s, column j. -/
theorem pooled1_row (b : Fin 1024) (j : Fin 512) :
    val_main_v86 (F := Ideal) x0 x1 x2 x3 x4 x9 x10 x11 x12 (ix2 b j)
      = pooled1 (weightsOf x5 x6 x7 x8 x9 x10 x11 x12 x13 x14 x15 x16 x17 x18 x19 x20)
          (fun s f => val_main_v37 (F := Ideal) x0 x1 x2 x4 (ix3 b s f))
          (fun s f => val_main_v47 (F := Ideal) x0 x1 x2 x3 x4 (ix2 (flatRow b s) f)) j := by
  have e1 : ∀ s : Fin 10, idx_main_v84 (ix2 b j) s = ix3 b s j := fun s => funext fun a => Fin.ext (by
    match a with
    | ⟨0, _⟩ => rfl
    | ⟨1, _⟩ => rfl
    | ⟨2, _⟩ => rfl)
  have e2 : ∀ s : Fin 10, idx_main_v83 (ix3 b s j) = ix2 (flatRow b s) j := fun s => by
    have hb := b.isLt
    have hs := s.isLt
    have hj := j.isLt
    exact funext fun a => Fin.ext (by
      match a with
      | ⟨0, _⟩ => show ((b.val * 10 + s.val) * 512 + j.val) / 512 = b.val * 10 + s.val; omega
      | ⟨1, _⟩ => show ((b.val * 10 + s.val) * 512 + j.val) % 512 = j.val; omega)
  rw [val_main_v86_apply, val_main_v84_apply, val_main_v85_apply, val_main_cst_17_apply, val_main_cst_16_apply]
  simp only [val_main_v83_apply, e1, e2, hidden1_row x0 x1 x2 x3 x4 x5 x6 x7 x8 x9 x10 x11 x12 x13 x14 x15 x16 x17 x18 x19 x20, Ideal.hostDivf_def, Ideal.ofBits_def]
  rw [Ideal.ofBits_zero_f32, zero_add]
  rfl

/-- Operation %91 at row `r`, column `i`: the dot product of row `r` of %82 with row `i` of the weight matrix, plus the bias at `i`. -/
theorem lin_v91 (r : Fin 1024) (i : Fin 256) :
    val_main_v91 (F := Ideal) x0 x1 x2 x4 x5 x6 x7 x8 x13 x14 (ix2 r i)
      = affine (fun k => val_main_v82 (F := Ideal) x0 x1 x2 x4 x5 x6 x7 x8 (ix2 r k)) (fun k => x13 (ix2 i k)) (x14 (ix1 i)) := by
  have e1 : ∀ k : Fin 512, lidx_main_v88 (ix2 r i) k = ix2 r k := fun k => funext fun a => Fin.ext (by
    match a with
    | ⟨0, _⟩ => rfl
    | ⟨1, _⟩ => rfl)
  have e2 : ∀ k : Fin 512, idx_main_v87 (ridx_main_v88 (ix2 r i) k) = ix2 i k := fun k => funext fun a => Fin.ext (by
    match a with
    | ⟨0, _⟩ => rfl
    | ⟨1, _⟩ => rfl)
  have e3 : idx_main_v89 (idx_main_v90 (ix2 r i)) = ix1 i := funext fun a => Fin.ext (by
    match a with
    | ⟨0, _⟩ => rfl)
  rw [val_main_v91_apply, val_main_v88_apply, val_main_v90_apply, val_main_v89_apply, e3]
  simp only [val_main_v87_apply, e1, e2]
  rfl

/-- Operation %96 at row `r`, column `i`: the dot product of row `r` of %86 with row `i` of the weight matrix, plus the bias at `i`. -/
theorem lin_v96 (r : Fin 1024) (i : Fin 256) :
    val_main_v96 (F := Ideal) x0 x1 x2 x3 x4 x9 x10 x11 x12 x15 x16 (ix2 r i)
      = affine (fun k => val_main_v86 (F := Ideal) x0 x1 x2 x3 x4 x9 x10 x11 x12 (ix2 r k)) (fun k => x15 (ix2 i k)) (x16 (ix1 i)) := by
  have e1 : ∀ k : Fin 512, lidx_main_v93 (ix2 r i) k = ix2 r k := fun k => funext fun a => Fin.ext (by
    match a with
    | ⟨0, _⟩ => rfl
    | ⟨1, _⟩ => rfl)
  have e2 : ∀ k : Fin 512, idx_main_v92 (ridx_main_v93 (ix2 r i) k) = ix2 i k := fun k => funext fun a => Fin.ext (by
    match a with
    | ⟨0, _⟩ => rfl
    | ⟨1, _⟩ => rfl)
  have e3 : idx_main_v94 (idx_main_v95 (ix2 r i)) = ix1 i := funext fun a => Fin.ext (by
    match a with
    | ⟨0, _⟩ => rfl)
  rw [val_main_v96_apply, val_main_v93_apply, val_main_v95_apply, val_main_v94_apply, e3]
  simp only [val_main_v92_apply, e1, e2]
  rfl

/-- The second layer at seed node `b`: entry (b, j) of the join. -/
theorem combined_row (b : Fin 1024) (j : Fin 512) :
    val_main_v97 (F := Ideal) x0 x1 x2 x3 x4 x5 x6 x7 x8 x9 x10 x11 x12 x13 x14 x15 x16 (ix2 b j)
      = combined (weightsOf x5 x6 x7 x8 x9 x10 x11 x12 x13 x14 x15 x16 x17 x18 x19 x20)
          (fun f => val_main_v67 (F := Ideal) x0 x4 (ix2 b f))
          (fun s f => val_main_v37 (F := Ideal) x0 x1 x2 x4 (ix3 b s f))
          (fun s f => val_main_v47 (F := Ideal) x0 x1 x2 x3 x4 (ix2 (flatRow b s) f)) j := by
  unfold combined val_main_v97
  by_cases hj : j.val < 256
  · rw [Cert.Lib.Bands.two_bands_left _ _ _ b ⟨j.val, hj⟩ j rfl, joined_left _ _ j ⟨j.val, hj⟩ rfl, lin_v91]
    simp only [hidden0_row x0 x1 x2 x4 x5 x6 x7 x8 x9 x10 x11 x12 x13 x14 x15 x16 x17 x18 x19 x20]
    rfl
  · have hj' : j.val - 256 < 256 := by have := j.isLt; omega
    have hv : j.val = 256 + (⟨j.val - 256, hj'⟩ : Fin 256).val := by show j.val = 256 + (j.val - 256); omega
    rw [Cert.Lib.Bands.two_bands_right _ _ _ b ⟨j.val - 256, hj'⟩ j hv, joined_right _ _ j ⟨j.val - 256, hj'⟩ hv, lin_v96]
    simp only [pooled1_row x0 x1 x2 x3 x4 x5 x6 x7 x8 x9 x10 x11 x12 x13 x14 x15 x16 x17 x18 x19 x20]
    rfl

end Cert.RefRow

end
-- ==== Proof.RefRow.lean ====
/-
  The reference's layer norm and classifier, read one seed node at a time, and with them the reference's whole result.

  Row b of the second layer's output is normalised: its mean (a sum over the 512 columns divided by 512), the sum of the
  squared deviations from it, that sum divided by 512 plus the small constant, the square root of that, and each
  deviation divided by the square root, times the scale, plus the shift. The classifier is one 512 → 41 linear map.
  Entry (b, c) of the reference's result is the per-node specification's `logitsOver` at class c, on the three
  gathered feature arrays read at seed node b.
-/
import proofs.«163782_j69475390980336_2_alg».proof.Proof.RefRow3

noncomputable section

open scoped BigOperators

namespace Cert.RefRow

open Cert.ReferenceIdeal Cert.ReferenceIdeal.Read Cert.NodeNet Idealize.ShloMosaic Idealize.ShloMosaic.ValueIdx

variable (x0 : (⟨S1024, .i32⟩ : BufTy).Contents (Elt Ideal)) (x1 : (⟨S200000x128, .i32⟩ : BufTy).Contents (Elt Ideal)) (x2 x3 : (⟨S128, .i32⟩ : BufTy).Contents (Elt Ideal)) (x4 : (⟨S200000x602, .f32⟩ : BufTy).Contents (Elt Ideal)) (x5 : (⟨S256x602, .f32⟩ : BufTy).Contents (Elt Ideal)) (x6 : (⟨S256, .f32⟩ : BufTy).Contents (Elt Ideal)) (x7 : (⟨S256x602, .f32⟩ : BufTy).Contents (Elt Ideal)) (x8 : (⟨S256, .f32⟩ : BufTy).Contents (Elt Ideal)) (x9 : (⟨S256x602, .f32⟩ : BufTy).Contents (Elt Ideal)) (x10 : (⟨S256, .f32⟩ : BufTy).Contents (Elt Ideal)) (x11 : (⟨S256x602, .f32⟩ : BufTy).Contents (Elt Ideal)) (x12 : (⟨S256, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S256, .f32⟩ : BufTy).Contents (Elt Ideal)) (x17 x18 : (⟨S512, .f32⟩ : BufTy).Contents (Elt Ideal)) (x19 : (⟨S41x512, .f32⟩ : BufTy).Contents (Elt Ideal)) (x20 : (⟨S41, .f32⟩ : BufTy).Contents (Elt Ideal))
/-- The row mean, kept as a [1024, 1] column: entry (b, 0). -/
theorem rowMean_row (b : Fin 1024) :
    val_main_v101 (F := Ideal) x0 x1 x2 x3 x4 x5 x6 x7 x8 x9 x10 x11 x12 x13 x14 x15 x16 (ix2 b (0 : Fin 1))
      = rowMean (combined (weightsOf x5 x6 x7 x8 x9 x10 x11 x12 x13 x14 x15 x16 x17 x18 x19 x20)
          (fun f => val_main_v67 (F := Ideal) x0 x4 (ix2 b f))
          (fun s f => val_main_v37 (F := Ideal) x0 x1 x2 x4 (ix3 b s f))
          (fun s f => val_main_v47 (F := Ideal) x0 x1 x2 x3 x4 (ix2 (flatRow b s) f))) := by
  have e1 : idx_main_v99 (ix2 b (0 : Fin 1)) = ix1 b := funext fun a => Fin.ext (by
    match a with
    | ⟨0, _⟩ => rfl)
  have e2 : ∀ k : Fin 512, idx_main_v98 (ix1 b) k = ix2 b k := fun k => funext fun a => Fin.ext (by
    match a with
    | ⟨0, _⟩ => rfl
    | ⟨1, _⟩ => rfl)
  rw [val_main_v101_apply, val_main_v99_apply, e1, val_main_v98_apply, val_main_v100_apply, val_main_cst_19_apply,
    val_main_cst_18_apply]
  simp only [e2, combined_row x0 x1 x2 x3 x4 x5 x6 x7 x8 x9 x10 x11 x12 x13 x14 x15 x16 x17 x18 x19 x20, Ideal.hostDivf_def, Ideal.ofBits_def]
  rw [Ideal.ofBits_zero_f32, zero_add]
  rfl

/-- The deviation from the row mean (the copy that is squared): entry (b, j). -/
theorem centered_v103 (b : Fin 1024) (j : Fin 512) :
    val_main_v103 (F := Ideal) x0 x1 x2 x3 x4 x5 x6 x7 x8 x9 x10 x11 x12 x13 x14 x15 x16 (ix2 b j)
      = (combined (weightsOf x5 x6 x7 x8 x9 x10 x11 x12 x13 x14 x15 x16 x17 x18 x19 x20)
          (fun f => val_main_v67 (F := Ideal) x0 x4 (ix2 b f))
          (fun s f => val_main_v37 (F := Ideal) x0 x1 x2 x4 (ix3 b s f))
          (fun s f => val_main_v47 (F := Ideal) x0 x1 x2 x3 x4 (ix2 (flatRow b s) f))) j
        - rowMean (combined (weightsOf x5 x6 x7 x8 x9 x10 x11 x12 x13 x14 x15 x16 x17 x18 x19 x20)
          (fun f => val_main_v67 (F := Ideal) x0 x4 (ix2 b f))
          (fun s f => val_main_v37 (F := Ideal) x0 x1 x2 x4 (ix3 b s f))
          (fun s f => val_main_v47 (F := Ideal) x0 x1 x2 x3 x4 (ix2 (flatRow b s) f))) := by
  have e : idx_main_v102 (ix2 b j) = ix2 b (0 : Fin 1) := funext fun a => Fin.ext (by
    match a with
    | ⟨0, _⟩ => rfl
    | ⟨1, _⟩ => rfl)
  rw [val_main_v103_apply, val_main_v102_apply, e, rowMean_row, combined_row]
  rfl

/-- The deviation from the row mean (the copy that is divided): entry (b, j). -/
theorem centered_v110 (b : Fin 1024) (j : Fin 512) :
    val_main_v110 (F := Ideal) x0 x1 x2 x3 x4 x5 x6 x7 x8 x9 x10 x11 x12 x13 x14 x15 x16 (ix2 b j)
      = (combined (weightsOf x5 x6 x7 x8 x9 x10 x11 x12 x13 x14 x15 x16 x17 x18 x19 x20)
          (fun f => val_main_v67 (F := Ideal) x0 x4 (ix2 b f))
          (fun s f => val_main_v37 (F := Ideal) x0 x1 x2 x4 (ix3 b s f))
          (fun s f => val_main_v47 (F := Ideal) x0 x1 x2 x3 x4 (ix2 (flatRow b s) f))) j
        - rowMean (combined (weightsOf x5 x6 x7 x8 x9 x10 x11 x12 x13 x14 x15 x16 x17 x18 x19 x20)
          (fun f => val_main_v67 (F := Ideal) x0 x4 (ix2 b f))
          (fun s f => val_main_v37 (F := Ideal) x0 x1 x2 x4 (ix3 b s f))
          (fun s f => val_main_v47 (F := Ideal) x0 x1 x2 x3 x4 (ix2 (flatRow b s) f))) := by
  have e : idx_main_v109 (ix2 b j) = ix2 b (0 : Fin 1) := funext fun a => Fin.ext (by
    match a with
    | ⟨0, _⟩ => rfl
    | ⟨1, _⟩ => rfl)
  rw [val_main_v110_apply, val_main_v109_apply, e, rowMean_row, combined_row]
  rfl

/-- The sum of the squared deviations of row `b`. -/
theorem sqDev_row (b : Fin 1024) :
    val_main_v105 (F := Ideal) x0 x1 x2 x3 x4 x5 x6 x7 x8 x9 x10 x11 x12 x13 x14 x15 x16 (ix1 b)
      = sqDev (combined (weightsOf x5 x6 x7 x8 x9 x10 x11 x12 x13 x14 x15 x16 x17 x18 x19 x20)
          (fun f => val_main_v67 (F := Ideal) x0 x4 (ix2 b f))
          (fun s f => val_main_v37 (F := Ideal) x0 x1 x2 x4 (ix3 b s f))
          (fun s f => val_main_v47 (F := Ideal) x0 x1 x2 x3 x4 (ix2 (flatRow b s) f))) := by
  have e : ∀ k : Fin 512, idx_main_v105 (ix1 b) k = ix2 b k := fun k => funext fun a => Fin.ext (by
    match a with
    | ⟨0, _⟩ => rfl
    | ⟨1, _⟩ => rfl)
  rw [val_main_v105_apply, val_main_cst_20_apply]
  simp only [e, val_main_v104_apply, centered_v103 x0 x1 x2 x3 x4 x5 x6 x7 x8 x9 x10 x11 x12 x13 x14 x15 x16 x17 x18 x19 x20, Ideal.mulf_def, Ideal.ofBits_def]
  rw [Ideal.ofBits_zero_f32, zero_add]
  rfl

/-- The variance plus the small constant, kept as a [1024, 1] column: entry (b, 0). -/
theorem spread_row (b : Fin 1024) :
    val_main_v112 (F := Ideal) x0 x1 x2 x3 x4 x5 x6 x7 x8 x9 x10 x11 x12 x13 x14 x15 x16 (ix2 b (0 : Fin 1))
      = spread (combined (weightsOf x5 x6 x7 x8 x9 x10 x11 x12 x13 x14 x15 x16 x17 x18 x19 x20)
          (fun f => val_main_v67 (F := Ideal) x0 x4 (ix2 b f))
          (fun s f => val_main_v37 (F := Ideal) x0 x1 x2 x4 (ix3 b s f))
          (fun s f => val_main_v47 (F := Ideal) x0 x1 x2 x3 x4 (ix2 (flatRow b s) f))) := by
  have e : idx_main_v106 (ix2 b (0 : Fin 1)) = ix1 b := funext fun a => Fin.ext (by
    match a with
    | ⟨0, _⟩ => rfl)
  rw [val_main_v112_apply, val_main_v108_apply, val_main_v106_apply, e, sqDev_row, val_main_v107_apply,
    val_main_cst_21_apply, val_main_v111_apply, val_main_cst_22_apply]
  rfl

/-- The layer norm in its quotient form: entry (b, j). -/
theorem norm_row (b : Fin 1024) (j : Fin 512) :
    val_main_v121 (F := Ideal) x0 x1 x2 x3 x4 x5 x6 x7 x8 x9 x10 x11 x12 x13 x14 x15 x16 x17 x18 (ix2 b j)
      = normOver (weightsOf x5 x6 x7 x8 x9 x10 x11 x12 x13 x14 x15 x16 x17 x18 x19 x20)
          (combined (weightsOf x5 x6 x7 x8 x9 x10 x11 x12 x13 x14 x15 x16 x17 x18 x19 x20)
          (fun f => val_main_v67 (F := Ideal) x0 x4 (ix2 b f))
          (fun s f => val_main_v37 (F := Ideal) x0 x1 x2 x4 (ix3 b s f))
          (fun s f => val_main_v47 (F := Ideal) x0 x1 x2 x3 x4 (ix2 (flatRow b s) f))) j := by
  have e1 : idx_main_v114 (ix2 b j) = ix2 b (0 : Fin 1) := funext fun a => Fin.ext (by
    match a with
    | ⟨0, _⟩ => rfl
    | ⟨1, _⟩ => rfl)
  have e2 : idx_main_v116 (idx_main_v117 (ix2 b j)) = ix1 j := funext fun a => Fin.ext (by
    match a with
    | ⟨0, _⟩ => rfl)
  have e3 : idx_main_v119 (idx_main_v120 (ix2 b j)) = ix1 j := funext fun a => Fin.ext (by
    match a with
    | ⟨0, _⟩ => rfl)
  rw [val_main_v121_apply, val_main_v118_apply, val_main_v115_apply, centered_v110, val_main_v114_apply, e1,
    val_main_v113_apply, spread_row, val_main_v117_apply, val_main_v116_apply, e2, val_main_v120_apply,
    val_main_v119_apply, e3]
  rfl

/-- Operation %126 at row `r`, column `i`: the dot product of row `r` of %121 with row `i` of the weight matrix, plus the bias at `i`. -/
theorem lin_v126 (r : Fin 1024) (i : Fin 41) :
    val_main_v126 (F := Ideal) x0 x1 x2 x3 x4 x5 x6 x7 x8 x9 x10 x11 x12 x13 x14 x15 x16 x17 x18 x19 x20 (ix2 r i)
      = affine (fun k => val_main_v121 (F := Ideal) x0 x1 x2 x3 x4 x5 x6 x7 x8 x9 x10 x11 x12 x13 x14 x15 x16 x17 x18 (ix2 r k)) (fun k => x19 (ix2 i k)) (x20 (ix1 i)) := by
  have e1 : ∀ k : Fin 512, lidx_main_v123 (ix2 r i) k = ix2 r k := fun k => funext fun a => Fin.ext (by
    match a with
    | ⟨0, _⟩ => rfl
    | ⟨1, _⟩ => rfl)
  have e2 : ∀ k : Fin 512, idx_main_v122 (ridx_main_v123 (ix2 r i) k) = ix2 i k := fun k => funext fun a => Fin.ext (by
    match a with
    | ⟨0, _⟩ => rfl
    | ⟨1, _⟩ => rfl)
  have e3 : idx_main_v124 (idx_main_v125 (ix2 r i)) = ix1 i := funext fun a => Fin.ext (by
    match a with
    | ⟨0, _⟩ => rfl)
  rw [val_main_v126_apply, val_main_v123_apply, val_main_v125_apply, val_main_v124_apply, e3]
  simp only [val_main_v122_apply, e1, e2]
  rfl

/-- The reference's result at seed node `b`, class `c`: the per-node class scores (layer norm in its quotient form) on
    the node's own feature row, its ten neighbours' feature rows and the mean feature rows of their neighbours. -/
theorem ref_row (b : Fin 1024) (c : Fin 41) :
    val_main_v126 (F := Ideal) x0 x1 x2 x3 x4 x5 x6 x7 x8 x9 x10 x11 x12 x13 x14 x15 x16 x17 x18 x19 x20 (ix2 b c)
      = logitsOver (weightsOf x5 x6 x7 x8 x9 x10 x11 x12 x13 x14 x15 x16 x17 x18 x19 x20)
          (fun f => val_main_v67 (F := Ideal) x0 x4 (ix2 b f))
          (fun s f => val_main_v37 (F := Ideal) x0 x1 x2 x4 (ix3 b s f))
          (fun s f => val_main_v47 (F := Ideal) x0 x1 x2 x3 x4 (ix2 (flatRow b s) f)) c := by
  rw [lin_v126]
  simp only [norm_row x0 x1 x2 x3 x4 x5 x6 x7 x8 x9 x10 x11 x12 x13 x14 x15 x16 x17 x18 x19 x20]
  rfl

end Cert.RefRow

end
-- ==== Proof.Bridge.lean ====
/-
  The reference's result against the kernel's whole-array function.

  Row by row the reference's [1024, 41] result is the class scores of one seed node, a function of the node's
  own feature row, its ten neighbours' feature rows, the ten means of their neighbours' rows, and the sixteen
  parameter arrays; the kernel's result, read off its tiles, is the same row function of the three arrays its
  region stages and of the parameter arrays as the region finds them. The two row functions differ only in how
  the layer norm is written (a quotient by a square root against a product with a reciprocal square root), and
  those agree on the extended reals. The staged arrays are the reference's stages entry by entry, and the
  parameter arrays are untouched before the region. So the two results are equal.
-/
import proofs.«163782_j69475390980336_2_alg».proof.Proof.Gen.ReferenceIdeal.Read
import proofs.«163782_j69475390980336_2_alg».proof.Proof.NodeNet
import proofs.«163782_j69475390980336_2_alg».proof.Proof.HostArrays
import proofs.«163782_j69475390980336_2_alg».proof.Proof.TileValue
import proofs.«163782_j69475390980336_2_alg».proof.Proof.RefRow

noncomputable section

namespace Cert.Bridge

open Cert.KernelIdeal Cert.KernelIdeal.Gen Idealize.ShloMosaic Idealize.ShloMosaic.TcCoe Idealize.SL.Sem
open Idealize.ShloMosaic.ValueIdx Cert.NodeNet

variable (m : (ℓ : Loc nD τ sig) → Buf (Elt Ideal) ℓ) (c : Dev nD)

/-- The reference's result is the kernel's whole-array function: at (b, q) both are the class score q of seed node
    b — the reference's in the quotient form of the layer norm, the kernel's in the product form, which agree —
    computed from the same parameters (the region finds the parameter arrays as launched) and from the same three
    per-node feature arrays. -/
theorem result_eq :
    Cert.ReferenceIdeal.Read.val_main_v126 (F := Ideal)
        (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
      = Cert.TileValue.scores m c := by
  funext i
  obtain ⟨b, q, rfl⟩ : ∃ (b : Fin 1024) (q : Fin 41), i = ix2 b q := ⟨i 0, i 1, eq_ix2 i⟩
  rw [Cert.RefRow.ref_row, ← logitsTimes_eq_logitsOver]
  unfold Cert.TileValue.scores
  refine Cert.TileValue.logitsTimes_congr ?_ ?_ ?_ ?_ rfl
  · rw [V_main_arg5 m c, V_main_arg6 m c, V_main_arg7 m c, V_main_arg8 m c, V_main_arg9 m c, V_main_arg10 m c,
      V_main_arg11 m c, V_main_arg12 m c, V_main_arg13 m c, V_main_arg14 m c, V_main_arg15 m c, V_main_arg16 m c,
      V_main_arg17 m c, V_main_arg18 m c, V_main_arg19 m c, V_main_arg20 m c]
  · funext f
    exact (congrFun (Cert.HostArrays.seed_rows m c) (ix2 b f)).symm
  · funext s f
    exact (congrFun (Cert.HostArrays.hop0_rows m c) (ix3 b s f)).symm
  · funext s f
    exact (Cert.HostArrays.hop1_mean m c b s f).symm

end Cert.Bridge

end
-- ==== Proof.lean ====
/-
  The kernel and its reference compute the same class scores, seed node by seed node.

  Both programs sample ten neighbours of each of 1024 seed nodes and twenty-five neighbours of each of those, gather
  the feature rows, and run a two-layer mean-aggregating network followed by a layer norm and a linear classifier.
  The kernel does the sampling, the gathers and the mean over the twenty-five on the host and the network on sixteen
  tiles of 64 seed nodes; the reference does everything on whole arrays, with the neighbours laid out flat (row
  b·10 + s).

  * One seed node at a time, both are the same row function of the node's own feature row, its ten neighbours' rows and
    the ten neighbour-of-neighbour means (Proof/NodeNet.lean); the kernel's tile computes that function of its blocks
    (Proof/TileLayer1.lean, TileLayer2.lean, TileRow.lean), its sixteen blocks are the restrictions of one whole-array
    function and cover the result (Proof/TileValue.lean), and the reference's stages read at an index give the same
    function (Proof/RefRow.lean).
  * The per-node arrays agree: the seed nodes' and the neighbours' feature rows are the same host operations on both
    sides, and the mean over the twenty-five gathered rows at (b, s) is the flat mean at row b·10 + s, the gather's
    index list being the same integers reshaped (Proof/HostArrays.lean).
  * The one algebraic difference is the layer norm: the kernel multiplies the deviation by the reciprocal square root
    of the spread, the reference divides it by the square root. The spread is a mean of squares plus a positive
    constant, so it is positive on the extended reals (possibly +∞), where the two forms agree; no finiteness of the
    inputs is used.
  The three frames are the generated frame runs (the reference's is its generated run with the result dropped), and
  the idealization changed nothing in the kernel, so the preservation claim is trivial.
-/
import proofs.«163782_j69475390980336_2_alg».proof.Defs
import proofs.«163782_j69475390980336_2_alg».proof.Proof.Gen.Kernel
import proofs.«163782_j69475390980336_2_alg».proof.Proof.Gen.Kernel.Skeleton
import proofs.«163782_j69475390980336_2_alg».proof.Proof.Gen.Kernel.Launch
import proofs.«163782_j69475390980336_2_alg».proof.Proof.Gen.Kernel.Points
import proofs.«163782_j69475390980336_2_alg».proof.Proof.Gen.Kernel.Frame
import proofs.«163782_j69475390980336_2_alg».proof.Proof.Gen.KernelIdeal
import proofs.«163782_j69475390980336_2_alg».proof.Proof.Gen.KernelIdeal.Skeleton
import proofs.«163782_j69475390980336_2_alg».proof.Proof.Gen.KernelIdeal.Launch
import proofs.«163782_j69475390980336_2_alg».proof.Proof.Gen.KernelIdeal.Points
import proofs.«163782_j69475390980336_2_alg».proof.Proof.Gen.KernelIdeal.Frame
import proofs.«163782_j69475390980336_2_alg».proof.Proof.Gen.ReferenceIdeal
import proofs.«163782_j69475390980336_2_alg».proof.Proof.Gen.Pre_finite_inputs
import proofs.«163782_j69475390980336_2_alg».proof.Proof.Gen.KernelIdeal.Value
import proofs.«163782_j69475390980336_2_alg».proof.Proof.Gen.ReferenceIdeal.Run
import proofs.«163782_j69475390980336_2_alg».proof.Proof.Gen.ReferenceIdeal.Read
import proofs.«163782_j69475390980336_2_alg».proof.Proof.TileValue
import proofs.«163782_j69475390980336_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array holding, at (b, c), the class score c of seed node b: the kernel's by its
    tiles covering the array, the reference's by its stages read at an index, from arguments that agree. -/
theorem algebraic : Cert.algebraic_KernelIdeal_ReferenceIdeal := by
  intro m ρ m' ρ' _ hagree
  refine ⟨fun c => Cert.TileValue.scores m c, ?_, ?_⟩
  · exact (θ_run Cert.KernelIdeal.defs _ _).mono
      (fun r h c => ⟨(h c).1.trans (Cert.TileValue.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20⟩ := hagree c
    rw [Cert.ReferenceIdeal.Read.val_main_v126_eq, e0, e1, e2, e3, e4, e5, e6, e7, e8, e9, e10, e11, e12, e13, e14, e15,
      e16, e17, e18, e19, e20]
    exact Cert.Bridge.result_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
